-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v98_1)) (v1 : (c : Dev Cert.KernelIdeal.nD) → Buf (Elt Ideal) ((c.tc : Thread Cert.KernelIdeal.nD Cert.KernelIdeal.τ).loc Cert.KernelIdeal.main_v113_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98_1) = v0 c
          ∧ r.2.mem ((c.tc : Thread Cert.KernelIdeal.nD Cert.KernelIdeal.τ).loc Cert.KernelIdeal.main_v113_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S50000x64 : Shape := ⟨2, ![50000, 64]⟩
abbrev S2x2000000 : Shape := ⟨2, ![2, 2000000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : FVec F S200000x64 .f32) (main_arg1 : FVec F S50000x64 .f32) (main_arg2 : IVec S2x2000000 32) (main_arg3 : IVec S2x2000000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  main_v8
-- ==== Kernel.lean ====
abbrev S200000x64 : Shape := ⟨2, ![200000, 64]⟩
abbrev S50000x64 : Shape := ⟨2, ![50000, 64]⟩
abbrev S2x2000000 : Shape := ⟨2, ![2, 2000000]⟩
abbrev S_ : Shape := ⟨0, ![]⟩
abbrev S2000000 : Shape := ⟨1, ![2000000]⟩
abbrev S1x2000000 : Shape := ⟨2, ![1, 2000000]⟩
abbrev S200000 : Shape := ⟨1, ![200000]⟩
abbrev S2000000x1 : Shape := ⟨2, ![2000000, 1]⟩
abbrev S200000x1 : Shape := ⟨2, ![200000, 1]⟩
abbrev S50000 : Shape := ⟨1, ![50000]⟩
abbrev S50000x1 : Shape := ⟨2, ![50000, 1]⟩
abbrev S4000x64 : Shape := ⟨2, ![4000, 64]⟩
abbrev S2000x64 : Shape := ⟨2, ![2000, 64]⟩
abbrev S2000000x64 : Shape := ⟨2, ![2000000, 64]⟩
abbrev S4000x1 : Shape := ⟨2, ![4000, 1]⟩
abbrev S2000x1 : Shape := ⟨2, ![2000, 1]⟩

abbrev nBuf : Space → Nat
  | .hbm => 150
  | .vmem => 68
  | .smem => 0
  | _ => 0

abbrev hbmTy0_0 (i : Nat) : BufTy := match i % 128 with
  | 0 => ⟨S200000x64, .f32⟩
  | 1 => ⟨S50000x64, .f32⟩
  | 2 => ⟨S2x2000000, .i32⟩
  | 3 => ⟨S2x2000000, .i32⟩
  | 4 => ⟨S_, .f32⟩
  | 5 => ⟨S2000000, .f32⟩
  | 6 => ⟨S1x2000000, .i32⟩
  | 7 => ⟨S2000000, .i32⟩
  | 8 => ⟨S_, .f32⟩
  | 9 => ⟨S200000, .f32⟩
  | 10 => ⟨S2000000x1, .i32⟩
  | 11 => ⟨S200000, .f32⟩
  | 12 => ⟨S_, .f32⟩
  | 13 => ⟨S200000, .f32⟩
  | 14 => ⟨S200000, .f32⟩
  | 15 => ⟨S_, .f32⟩
  | 16 => ⟨S200000, .f32⟩
  | 17 => ⟨S200000, .f32⟩
  | 18 => ⟨S200000x1, .f32⟩
  | 19 => ⟨S_, .f32⟩
  | 20 => ⟨S2000000, .f32⟩
  | 21 => ⟨S1x2000000, .i32⟩
  | 22 => ⟨S2000000, .i32⟩
  | 23 => ⟨S_, .f32⟩
  | 24 => ⟨S50000, .f32⟩
  | 25 => ⟨S2000000x1, .i32⟩
  | 26 => ⟨S50000, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S50000x1, .f32⟩
  | 34 => ⟨S200000x64, .f32⟩
  | 35 => ⟨S50000x64, .f32⟩
  | 36 => ⟨S1x2000000, .i32⟩
  | 37 => ⟨S2000000, .i32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S2000000x64, .f32⟩
  | 47 => ⟨S1x2000000, .i32⟩
  | 48 => ⟨S2000000, .i32⟩
  | 49 => ⟨S_, .f32⟩
  | 50 => ⟨S200000x64, .f32⟩
  | 51 => ⟨S2000000x1, .i32⟩
  | 52 => ⟨S200000x64, .f32⟩
  | 53 => ⟨S200000x64, .f32⟩
  | 54 => ⟨S200000x64, .f32⟩
  | 55 => ⟨S1x2000000, .i32⟩
  | 56 => ⟨S2000000, .i32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i32⟩
  | 63 => ⟨S2000000, .i32⟩
  | 64 => ⟨S2000000x1, .i32⟩
  | 65 => ⟨S2000000x64, .f32⟩
  | 66 => ⟨S1x2000000, .i32⟩
  | 67 => ⟨S2000000, .i32⟩
  | 68 => ⟨S_, .f32⟩
  | 69 => ⟨S50000x64, .f32⟩
  | 70 => ⟨S2000000x1, .i32⟩
  | 71 => ⟨S50000x64, .f32⟩
  | 72 => ⟨S50000x64, .f32⟩
  | 73 => ⟨S50000x64, .f32⟩
  | 74 => ⟨S1x2000000, .i32⟩
  | 75 => ⟨S2000000, .i32⟩
  | 76 => ⟨S_, .i32⟩
  | 77 => ⟨S2000000, .i32⟩
  | 78 => ⟨S2000000, .i1⟩
  | 79 => ⟨S_, .i32⟩
  | 80 => ⟨S2000000, .i32⟩
  | 81 => ⟨S2000000, .i32⟩
  | 82 => ⟨S2000000, .i32⟩
  | 83 => ⟨S2000000x1, .i32⟩
  | 84 => ⟨S2000000x64, .f32⟩
  | 85 => ⟨S1x2000000, .i32⟩
  | 86 => ⟨S2000000, .i32⟩
  | 87 => ⟨S_, .f32⟩
  | 88 => ⟨S200000x64, .f32⟩
  | 89 => ⟨S2000000x1, .i32⟩
  | 90 => ⟨S200000x64, .f32⟩
  | 91 => ⟨S200000x64, .f32⟩
  | 92 => ⟨S200000x64, .f32⟩
  | 93 => ⟨S1x2000000, .i32⟩
  | 94 => ⟨S2000000, .i32⟩
  | 95 => ⟨S_, .i32⟩
  | 96 => ⟨S2000000, .i32⟩
  | 97 => ⟨S2000000, .i1⟩
  | 98 => ⟨S_, .i32⟩
  | 99 => ⟨S2000000, .i32⟩
  | 100 => ⟨S2000000, .i32⟩
  | 101 => ⟨S2000000, .i32⟩
  | 102 => ⟨S2000000x1, .i32⟩
  | 103 => ⟨S2000000x64, .f32⟩
  | 104 => ⟨S1x2000000, .i32⟩
  | 105 => ⟨S2000000, .i32⟩
  | 106 => ⟨S_, .f32⟩
  | 107 => ⟨S50000x64, .f32⟩
  | 108 => ⟨S2000000x1, .i32⟩
  | 109 => ⟨S50000x64, .f32⟩
  | 110 => ⟨S50000x64, .f32⟩
  | 111 => ⟨S50000x64, .f32⟩
  | 112 => ⟨S1x2000000, .i32⟩
  | 113 => ⟨S2000000, .i32⟩
  | 114 => ⟨S_, .i32⟩
  | 115 => ⟨S2000000, .i32⟩
  | 116 => ⟨S2000000, .i1⟩
  | 117 => ⟨S_, .i32⟩
  | 118 => ⟨S2000000, .i32⟩
  | 119 => ⟨S2000000, .i32⟩
  | 120 => ⟨S2000000, .i32⟩
  | 121 => ⟨S2000000x1, .i32⟩
  | 122 => ⟨S2000000x64, .f32⟩
  | 123 => ⟨S1x2000000, .i32⟩
  | 124 => ⟨S2000000, .i32⟩
  | 125 => ⟨S_, .f32⟩
  | 126 => ⟨S200000x64, .f32⟩
  | 127 => ⟨S2000000x1, .i32⟩
  | _ => ⟨S200000x64, .f32⟩

abbrev hbmTy0_1 (i : Nat) : BufTy := match i % 128 with
  | 0 => ⟨S200000x64, .f32⟩
  | 1 => ⟨S200000x64, .f32⟩
  | 2 => ⟨S200000x64, .f32⟩
  | 3 => ⟨S1x2000000, .i32⟩
  | 4 => ⟨S2000000, .i32⟩
  | 5 => ⟨S_, .i32⟩
  | 6 => ⟨S2000000, .i32⟩
  | 7 => ⟨S2000000, .i1⟩
  | 8 => ⟨S_, .i32⟩
  | 9 => ⟨S2000000, .i32⟩
  | 10 => ⟨S2000000, .i32⟩
  | 11 => ⟨S2000000, .i32⟩
  | 12 => ⟨S2000000x1, .i32⟩
  | 13 => ⟨S2000000x64, .f32⟩
  | 14 => ⟨S1x2000000, .i32⟩
  | 15 => ⟨S2000000, .i32⟩
  | 16 => ⟨S_, .f32⟩
  | 17 => ⟨S50000x64, .f32⟩
  | 18 => ⟨S2000000x1, .i32⟩
  | 19 => ⟨S50000x64, .f32⟩
  | 20 => ⟨S50000x64, .f32⟩
  | 21 => ⟨S50000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S4000x64, .f32⟩
  | .local _ .vmem, ⟨9, _⟩ => ⟨S4000x64, .f32⟩
  | .local _ .vmem, ⟨10, _⟩ => ⟨S4000x1, .f32⟩
  | .local _ .vmem, ⟨11, _⟩ => ⟨S4000x1, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S2000x64, .f32⟩
  | .local _ .vmem, ⟨19, _⟩ => ⟨S2000x64, .f32⟩
  | .local _ .vmem, ⟨20, _⟩ => ⟨S2000x1, .f32⟩
  | .local _ .vmem, ⟨21, _⟩ => ⟨S2000x1, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S4000x64, .f32⟩
  | .local _ .vmem, ⟨29, _⟩ => ⟨S4000x64, .f32⟩
  | .local _ .vmem, ⟨30, _⟩ => ⟨S4000x1, .f32⟩
  | .local _ .vmem, ⟨31, _⟩ => ⟨S4000x1, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S2000x64, .f32⟩
  | .local _ .vmem, ⟨39, _⟩ => ⟨S2000x64, .f32⟩
  | .local _ .vmem, ⟨40, _⟩ => ⟨S2000x1, .f32⟩
  | .local _ .vmem, ⟨41, _⟩ => ⟨S2000x1, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S4000x64, .f32⟩
  | .local _ .vmem, ⟨49, _⟩ => ⟨S4000x64, .f32⟩
  | .local _ .vmem, ⟨50, _⟩ => ⟨S4000x1, .f32⟩
  | .local _ .vmem, ⟨51, _⟩ => ⟨S4000x1, .f32⟩
  | .local _ .vmem, ⟨52, _⟩ => ⟨S4000x64, .f32⟩
  | .local _ .vmem, ⟨53, _⟩ => ⟨S4000x64, .f32⟩
  | .local _ .vmem, ⟨54, _⟩ => ⟨S4000x64, .f32⟩
  | .local _ .vmem, ⟨55, _⟩ => ⟨S4000x64, .f32⟩
  | .local _ .vmem, ⟨56, _⟩ => ⟨S4000x64, .f32⟩
  | .local _ .vmem, ⟨57, _⟩ => ⟨S4000x64, .f32⟩
  | .local _ .vmem, ⟨58, _⟩ => ⟨S2000x64, .f32⟩
  | .local _ .vmem, ⟨59, _⟩ => ⟨S2000x64, .f32⟩
  | .local _ .vmem, ⟨60, _⟩ => ⟨S2000x1, .f32⟩
  | .local _ .vmem, ⟨61, _⟩ => ⟨S2000x1, .f32⟩
  | .local _ .vmem, ⟨62, _⟩ => ⟨S2000x64, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S2000x64, .f32⟩
  | .local _ .vmem, ⟨67, _⟩ => ⟨S2000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53_0 : Ref sig .tc := ⟨.hbm, 72, rfl⟩
abbrev main_v53_1 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_c_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68_0 : Ref sig .tc := ⟨.hbm, 91, rfl⟩
abbrev main_v68_1 : Ref sig .tc := ⟨.hbm, 92, rfl⟩
abbrev main_v69 : Ref sig .tc := ⟨.hbm, 93, rfl⟩
abbrev main_v70 : Ref sig .tc := ⟨.hbm, 94, rfl⟩
abbrev main_c_15 : Ref sig .tc := ⟨.hbm, 95, rfl⟩
abbrev main_v71 : Ref sig .tc := ⟨.hbm, 96, rfl⟩
abbrev main_v72 : Ref sig .tc := ⟨.hbm, 97, rfl⟩
abbrev main_c_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_17 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83_0 : Ref sig .tc := ⟨.hbm, 110, rfl⟩
abbrev main_v83_1 : Ref sig .tc := ⟨.hbm, 111, rfl⟩
abbrev main_v84 : Ref sig .tc := ⟨.hbm, 112, rfl⟩
abbrev main_v85 : Ref sig .tc := ⟨.hbm, 113, rfl⟩
abbrev main_c_18 : Ref sig .tc := ⟨.hbm, 114, rfl⟩
abbrev main_v86 : Ref sig .tc := ⟨.hbm, 115, rfl⟩
abbrev main_v87 : Ref sig .tc := ⟨.hbm, 116, rfl⟩
abbrev main_c_19 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_20 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98_0 : Ref sig .tc := ⟨.hbm, 129, rfl⟩
abbrev main_v98_1 : Ref sig .tc := ⟨.hbm, 130, rfl⟩
abbrev main_v99 : Ref sig .tc := ⟨.hbm, 131, rfl⟩
abbrev main_v100 : Ref sig .tc := ⟨.hbm, 132, rfl⟩
abbrev main_c_21 : Ref sig .tc := ⟨.hbm, 133, rfl⟩
abbrev main_v101 : Ref sig .tc := ⟨.hbm, 134, rfl⟩
abbrev main_v102 : Ref sig .tc := ⟨.hbm, 135, rfl⟩
abbrev main_c_22 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_23 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113_0 : Ref sig .tc := ⟨.hbm, 148, rfl⟩
abbrev main_v113_1 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg3_1 : Ref sig .tc := ⟨.vmem, 55, rfl⟩
abbrev cc6_stg4_0 : Ref sig .tc := ⟨.vmem, 56, rfl⟩
abbrev cc6_stg4_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg2_1 : Ref sig .tc := ⟨.vmem, 63, rfl⟩
abbrev cc7_stg3_0 : Ref sig .tc := ⟨.vmem, 64, rfl⟩
abbrev cc7_stg3_1 : Ref sig .tc := ⟨.vmem, 65, rfl⟩
abbrev cc7_stg4_0 : Ref sig .tc := ⟨.vmem, 66, rfl⟩
abbrev cc7_stg4_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem3_1 : DmaSem sig := 55
abbrev cc6_sem4_0 : DmaSem sig := 56
abbrev cc6_sem4_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem2_1 : DmaSem sig := 63
abbrev cc7_sem3_0 : DmaSem sig := 64
abbrev cc7_sem3_1 : DmaSem sig := 65
abbrev cc7_sem4_0 : DmaSem sig := 66
abbrev cc7_sem4_1 : DmaSem sig := 67

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S4000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  bcast_S_S2000000 : S_.BroadcastsInDim S2000000 (![] : Fin 0 → Fin S2000000.rank)
  slices_S2x2000000_S1x2000000_1_0 : S2x2000000.Slices ![1, 0] S1x2000000
  shapeCasts_S1x2000000_S2000000 : S1x2000000.ShapeCasts S2000000
  bcast_S_S200000 : S_.BroadcastsInDim S200000 (![] : Fin 0 → Fin S200000.rank)
  bcast_S2000000_S2000000x1_0 : S2000000.BroadcastsInDim S2000000x1 (![0] : Fin 1 → Fin S2000000x1.rank)
  shapeCasts_S200000_S200000x1 : S200000.ShapeCasts S200000x1
  bcast_S_S50000 : S_.BroadcastsInDim S50000 (![] : Fin 0 → Fin S50000.rank)
  shapeCasts_S50000_S50000x1 : S50000.ShapeCasts S50000x1
  inb_S4000x64_S4000x64_0_0 : ∀ a, (![0, 0] : Fin 2 → Nat) a + S4000x64.size a ≤ S4000x64.size a
  h_S4000x64 : 0 < S4000x64.numel
  inb_S2000x64_S2000x64_0_0 : ∀ a, (![0, 0] : Fin 2 → Nat) a + S2000x64.size a ≤ S2000x64.size a
  h_S2000x64 : 0 < S2000x64.numel
  slices_S2x2000000_S1x2000000_0_0 : S2x2000000.Slices ![0, 0] S1x2000000
  bcast_S_S200000x64 : S_.BroadcastsInDim S200000x64 (![] : Fin 0 → Fin S200000x64.rank)
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S50000x64 : S_.BroadcastsInDim S50000x64 (![] : Fin 0 → Fin S50000x64.rank)
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  scatter_S200000_S2000000x1_S2000000_n_0_0_1_wf : ScatterDims.WF S200000 S2000000x1 S2000000 [] [0] [0] 1
  scatter_S50000_S2000000x1_S2000000_n_0_0_1_wf : ScatterDims.WF S50000 S2000000x1 S2000000 [] [0] [0] 1
  gather_S50000x64_S2000000x1_S2000000x64_1_0_n_n_0_1_164_wf : GatherDims.WF S50000x64 S2000000x1 S2000000x64 [1] [0] [] [0] [] 1 ![1, 64]
  scatter_S200000x64_S2000000x1_S2000000x64_1_0_0_1_wf : ScatterDims.WF S200000x64 S2000000x1 S2000000x64 [1] [0] [0] 1
  gather_S200000x64_S2000000x1_S2000000x64_1_0_n_n_0_1_164_wf : GatherDims.WF S200000x64 S2000000x1 S2000000x64 [1] [0] [] [0] [] 1 ![1, 64]
  scatter_S50000x64_S2000000x1_S2000000x64_1_0_0_1_wf : ScatterDims.WF S50000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S200000x64.size a
  hwx0_1 : ∀ i : grid0.Coords, EltTy.bits .f32 = 32 ∨ (Rect.block (s := S200000x64) S4000x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S200000x1.size a
  hwx2_1 : ∀ i : grid2.Coords, EltTy.bits .f32 = 32 ∨ (Rect.block (s := S200000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S200000x64.size a
  hwx2_2 : ∀ i : grid2.Coords, EltTy.bits .f32 = 32 ∨ (Rect.block (s := S200000x64) S4000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S200000x64.size a
  hwx2_3 : ∀ i : grid2.Coords, EltTy.bits .f32 = 32 ∨ (Rect.block (s := S200000x64) S4000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S200000x64.size a
  hwx2_4 : ∀ i : grid2.Coords, EltTy.bits .f32 = 32 ∨ (Rect.block (s := S200000x64) S4000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S200000x64.size a
  hwx4_0 : ∀ i : grid4.Coords, EltTy.bits .f32 = 32 ∨ (Rect.block (s := S200000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S200000x1.size a
  hwx4_1 : ∀ i : grid4.Coords, EltTy.bits .f32 = 32 ∨ (Rect.block (s := S200000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S200000x64.size a
  hwx4_2 : ∀ i : grid4.Coords, EltTy.bits .f32 = 32 ∨ (Rect.block (s := S200000x64) S4000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S200000x64.size a
  hwx4_3 : ∀ i : grid4.Coords, EltTy.bits .f32 = 32 ∨ (Rect.block (s := S200000x64) S4000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S200000x64.size a
  hwx4_4 : ∀ i : grid4.Coords, EltTy.bits .f32 = 32 ∨ (Rect.block (s := S200000x64) S4000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S200000x64.size a
  hwx6_0 : ∀ i : grid6.Coords, EltTy.bits .f32 = 32 ∨ (Rect.block (s := S200000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x1.size a ≤ S200000x1.size a
  hwx6_1 : ∀ i : grid6.Coords, EltTy.bits .f32 = 32 ∨ (Rect.block (s := S200000x1) S4000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x64.size a ≤ S200000x64.size a
  hwx6_2 : ∀ i : grid6.Coords, EltTy.bits .f32 = 32 ∨ (Rect.block (s := S200000x64) S4000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x64.size a ≤ S200000x64.size a
  hwx6_3 : ∀ i : grid6.Coords, EltTy.bits .f32 = 32 ∨ (Rect.block (s := S200000x64) S4000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x64.size a ≤ S200000x64.size a
  hwx6_4 : ∀ i : grid6.Coords, EltTy.bits .f32 = 32 ∨ (Rect.block (s := S200000x64) S4000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S50000x1.size a
  hwx7_1 : ∀ i : grid7.Coords, EltTy.bits .f32 = 32 ∨ (Rect.block (s := S50000x1) S2000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S50000x64.size a
  hwx7_2 : ∀ i : grid7.Coords, EltTy.bits .f32 = 32 ∨ (Rect.block (s := S50000x64) S2000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x64.size a ≤ S50000x64.size a
  hwx7_3 : ∀ i : grid7.Coords, EltTy.bits .f32 = 32 ∨ (Rect.block (s := S50000x64) S2000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x64.size a ≤ S50000x64.size a
  hwx7_4 : ∀ i : grid7.Coords, EltTy.bits .f32 = 32 ∨ (Rect.block (s := S50000x64) S2000x64.size (cc7_transform_4 i) (hinb7_4 i)).WholeWords (EltTy.packing .f32)

variable [Facts₀]

def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v37) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38_0) S4000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38_1) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53_0) S2000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v53_1) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v67) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38_1) S4000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v68_0) S4000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v68_1) S4000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v82) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53_1) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83_0) S2000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v83_1) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v97) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v10) S4000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v68_1) S4000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v98_0) S4000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v98_1) S4000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v112) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v21) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v83_1) S2000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v113_0) S2000x64.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v113_1) S2000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S200000x64 : Shape := ⟨2, ![200000, 64]⟩
abbrev S50000x64 : Shape := ⟨2, ![50000, 64]⟩
abbrev S2x2000000 : Shape := ⟨2, ![2, 2000000]⟩
abbrev S_ : Shape := ⟨0, ![]⟩
abbrev S1x2000000 : Shape := ⟨2, ![1, 2000000]⟩
abbrev S2000000 : Shape := ⟨1, ![2000000]⟩
abbrev S2000000x1 : Shape := ⟨2, ![2000000, 1]⟩
abbrev S2000000x64 : Shape := ⟨2, ![2000000, 64]⟩
abbrev S200000 : Shape := ⟨1, ![200000]⟩
abbrev S200000x1 : Shape := ⟨2, ![200000, 1]⟩
abbrev S50000 : Shape := ⟨1, ![50000]⟩
abbrev S50000x1 : Shape := ⟨2, ![50000, 1]⟩

abbrev nBuf : Space → Nat
  | .hbm => 220
  | .vmem => 0
  | .smem => 0
  | _ => 0

abbrev hbmTy0_0 (i : Nat) : BufTy := match i % 128 with
  | 0 => ⟨S200000x64, .f32⟩
  | 1 => ⟨S50000x64, .f32⟩
  | 2 => ⟨S2x2000000, .i32⟩
  | 3 => ⟨S2x2000000, .i32⟩
  | 4 => ⟨S_, .f32⟩
  | 5 => ⟨S200000x64, .f32⟩
  | 6 => ⟨S200000x64, .f32⟩
  | 7 => ⟨S_, .f32⟩
  | 8 => ⟨S50000x64, .f32⟩
  | 9 => ⟨S50000x64, .f32⟩
  | 10 => ⟨S1x2000000, .i32⟩
  | 11 => ⟨S2000000, .i32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S2000000x1, .i32⟩
  | 20 => ⟨S2000000x64, .f32⟩
  | 21 => ⟨S1x2000000, .i32⟩
  | 22 => ⟨S2000000, .i32⟩
  | 23 => ⟨S_, .f32⟩
  | 24 => ⟨S200000x64, .f32⟩
  | 25 => ⟨S2000000x1, .i32⟩
  | 26 => ⟨S200000x64, .f32⟩
  | 27 => ⟨S_, .f32⟩
  | 28 => ⟨S2000000, .f32⟩
  | 29 => ⟨S1x2000000, .i32⟩
  | 30 => ⟨S2000000, .i32⟩
  | 31 => ⟨S_, .f32⟩
  | 32 => ⟨S200000, .f32⟩
  | 33 => ⟨S2000000x1, .i32⟩
  | 34 => ⟨S200000, .f32⟩
  | 35 => ⟨S_, .f32⟩
  | 36 => ⟨S200000, .f32⟩
  | 37 => ⟨S200000, .f32⟩
  | 38 => ⟨S200000x1, .f32⟩
  | 39 => ⟨S200000x64, .f32⟩
  | 40 => ⟨S200000x64, .f32⟩
  | 41 => ⟨S1x2000000, .i32⟩
  | 42 => ⟨S2000000, .i32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S2000000x1, .i32⟩
  | 51 => ⟨S2000000x64, .f32⟩
  | 52 => ⟨S1x2000000, .i32⟩
  | 53 => ⟨S2000000, .i32⟩
  | 54 => ⟨S_, .f32⟩
  | 55 => ⟨S50000x64, .f32⟩
  | 56 => ⟨S2000000x1, .i32⟩
  | 57 => ⟨S50000x64, .f32⟩
  | 58 => ⟨S_, .f32⟩
  | 59 => ⟨S2000000, .f32⟩
  | 60 => ⟨S1x2000000, .i32⟩
  | 61 => ⟨S2000000, .i32⟩
  | 62 => ⟨S_, .f32⟩
  | 63 => ⟨S50000, .f32⟩
  | 64 => ⟨S2000000x1, .i32⟩
  | 65 => ⟨S50000, .f32⟩
  | 66 => ⟨S_, .f32⟩
  | 67 => ⟨S50000, .f32⟩
  | 68 => ⟨S50000, .f32⟩
  | 69 => ⟨S50000x1, .f32⟩
  | 70 => ⟨S50000x64, .f32⟩
  | 71 => ⟨S50000x64, .f32⟩
  | 72 => ⟨S_, .f32⟩
  | 73 => ⟨S200000x64, .f32⟩
  | 74 => ⟨S200000x64, .f32⟩
  | 75 => ⟨S200000x64, .f32⟩
  | 76 => ⟨S_, .f32⟩
  | 77 => ⟨S50000x64, .f32⟩
  | 78 => ⟨S50000x64, .f32⟩
  | 79 => ⟨S50000x64, .f32⟩
  | 80 => ⟨S1x2000000, .i32⟩
  | 81 => ⟨S2000000, .i32⟩
  | 82 => ⟨S_, .i32⟩
  | 83 => ⟨S2000000, .i32⟩
  | 84 => ⟨S2000000, .i1⟩
  | 85 => ⟨S_, .i32⟩
  | 86 => ⟨S2000000, .i32⟩
  | 87 => ⟨S2000000, .i32⟩
  | 88 => ⟨S2000000, .i32⟩
  | 89 => ⟨S2000000x1, .i32⟩
  | 90 => ⟨S2000000x64, .f32⟩
  | 91 => ⟨S1x2000000, .i32⟩
  | 92 => ⟨S2000000, .i32⟩
  | 93 => ⟨S_, .f32⟩
  | 94 => ⟨S200000x64, .f32⟩
  | 95 => ⟨S2000000x1, .i32⟩
  | 96 => ⟨S200000x64, .f32⟩
  | 97 => ⟨S_, .f32⟩
  | 98 => ⟨S2000000, .f32⟩
  | 99 => ⟨S1x2000000, .i32⟩
  | 100 => ⟨S2000000, .i32⟩
  | 101 => ⟨S_, .f32⟩
  | 102 => ⟨S200000, .f32⟩
  | 103 => ⟨S2000000x1, .i32⟩
  | 104 => ⟨S200000, .f32⟩
  | 105 => ⟨S_, .f32⟩
  | 106 => ⟨S200000, .f32⟩
  | 107 => ⟨S200000, .f32⟩
  | 108 => ⟨S200000x1, .f32⟩
  | 109 => ⟨S200000x64, .f32⟩
  | 110 => ⟨S200000x64, .f32⟩
  | 111 => ⟨S1x2000000, .i32⟩
  | 112 => ⟨S2000000, .i32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S2000000x1, .i32⟩
  | 121 => ⟨S2000000x64, .f32⟩
  | 122 => ⟨S1x2000000, .i32⟩
  | 123 => ⟨S2000000, .i32⟩
  | 124 => ⟨S_, .f32⟩
  | 125 => ⟨S50000x64, .f32⟩
  | 126 => ⟨S2000000x1, .i32⟩
  | 127 => ⟨S50000x64, .f32⟩
  | _ => ⟨S200000x64, .f32⟩

abbrev hbmTy0_1 (i : Nat) : BufTy := match i % 128 with
  | 0 => ⟨S_, .f32⟩
  | 1 => ⟨S2000000, .f32⟩
  | 2 => ⟨S1x2000000, .i32⟩
  | 3 => ⟨S2000000, .i32⟩
  | 4 => ⟨S_, .f32⟩
  | 5 => ⟨S50000, .f32⟩
  | 6 => ⟨S2000000x1, .i32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x64, .f32⟩
  | 13 => ⟨S50000x64, .f32⟩
  | 14 => ⟨S_, .f32⟩
  | 15 => ⟨S200000x64, .f32⟩
  | 16 => ⟨S200000x64, .f32⟩
  | 17 => ⟨S200000x64, .f32⟩
  | 18 => ⟨S_, .f32⟩
  | 19 => ⟨S50000x64, .f32⟩
  | 20 => ⟨S50000x64, .f32⟩
  | 21 => ⟨S50000x64, .f32⟩
  | 22 => ⟨S1x2000000, .i32⟩
  | 23 => ⟨S2000000, .i32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000x64, .f32⟩
  | 33 => ⟨S1x2000000, .i32⟩
  | 34 => ⟨S2000000, .i32⟩
  | 35 => ⟨S_, .f32⟩
  | 36 => ⟨S200000x64, .f32⟩
  | 37 => ⟨S2000000x1, .i32⟩
  | 38 => ⟨S200000x64, .f32⟩
  | 39 => ⟨S_, .f32⟩
  | 40 => ⟨S2000000, .f32⟩
  | 41 => ⟨S1x2000000, .i32⟩
  | 42 => ⟨S2000000, .i32⟩
  | 43 => ⟨S_, .f32⟩
  | 44 => ⟨S200000, .f32⟩
  | 45 => ⟨S2000000x1, .i32⟩
  | 46 => ⟨S200000, .f32⟩
  | 47 => ⟨S_, .f32⟩
  | 48 => ⟨S200000, .f32⟩
  | 49 => ⟨S200000, .f32⟩
  | 50 => ⟨S200000x1, .f32⟩
  | 51 => ⟨S200000x64, .f32⟩
  | 52 => ⟨S200000x64, .f32⟩
  | 53 => ⟨S1x2000000, .i32⟩
  | 54 => ⟨S2000000, .i32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x64, .f32⟩
  | 64 => ⟨S1x2000000, .i32⟩
  | 65 => ⟨S2000000, .i32⟩
  | 66 => ⟨S_, .f32⟩
  | 67 => ⟨S50000x64, .f32⟩
  | 68 => ⟨S2000000x1, .i32⟩
  | 69 => ⟨S50000x64, .f32⟩
  | 70 => ⟨S_, .f32⟩
  | 71 => ⟨S2000000, .f32⟩
  | 72 => ⟨S1x2000000, .i32⟩
  | 73 => ⟨S2000000, .i32⟩
  | 74 => ⟨S_, .f32⟩
  | 75 => ⟨S50000, .f32⟩
  | 76 => ⟨S2000000x1, .i32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x64, .f32⟩
  | 83 => ⟨S50000x64, .f32⟩
  | 84 => ⟨S_, .f32⟩
  | 85 => ⟨S200000x64, .f32⟩
  | 86 => ⟨S200000x64, .f32⟩
  | 87 => ⟨S200000x64, .f32⟩
  | 88 => ⟨S_, .f32⟩
  | 89 => ⟨S50000x64, .f32⟩
  | 90 => ⟨S50000x64, .f32⟩
  | 91 => ⟨S50000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_14 : Ref sig .tc := ⟨.hbm, 82, rfl⟩
abbrev main_v62 : Ref sig .tc := ⟨.hbm, 83, rfl⟩
abbrev main_v63 : Ref sig .tc := ⟨.hbm, 84, rfl⟩
abbrev main_c_15 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_17 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_18 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_19 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_20 : Ref sig .tc := ⟨.hbm, 113, rfl⟩
abbrev main_v87 : Ref sig .tc := ⟨.hbm, 114, rfl⟩
abbrev main_v88 : Ref sig .tc := ⟨.hbm, 115, rfl⟩
abbrev main_c_21 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_22 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_23 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_24 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_25 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_26 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_27 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_c_28 : Ref sig .tc := ⟨.hbm, 152, rfl⟩
abbrev main_v118 : Ref sig .tc := ⟨.hbm, 153, rfl⟩
abbrev main_v119 : Ref sig .tc := ⟨.hbm, 154, rfl⟩
abbrev main_c_29 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_30 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_31 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_32 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_33 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_c_34 : Ref sig .tc := ⟨.hbm, 183, rfl⟩
abbrev main_v143 : Ref sig .tc := ⟨.hbm, 184, rfl⟩
abbrev main_v144 : Ref sig .tc := ⟨.hbm, 185, rfl⟩
abbrev main_c_35 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_36 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_37 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_38 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_cst_39 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_cst_40 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_41 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩

abbrev nD : Nat := 1
abbrev τ : Topo := Topo.v7x

variable {F : FTy → Type} [FloatOps F]

class Facts₀ : Prop where
  bcast_S_S200000x64 : S_.BroadcastsInDim S200000x64 (![] : Fin 0 → Fin S200000x64.rank)
  bcast_S_S50000x64 : S_.BroadcastsInDim S50000x64 (![] : Fin 0 → Fin S50000x64.rank)
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S2000000x1_S2000000x64_1_0_n_n_0_1_164_wf : GatherDims.WF S50000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000_S2000000x1_S2000000_n_0_0_1_wf : ScatterDims.WF S200000 S2000000x1 S2000000 [] [0] [0] 1
  gather_S200000x64_S2000000x1_S2000000x64_1_0_n_n_0_1_164_wf : GatherDims.WF S200000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000_S2000000x1_S2000000_n_0_0_1_wf : ScatterDims.WF S50000 S2000000x1 S2000000 [] [0] [0] 1

variable [Facts₀]

def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf

class Facts : Prop extends Facts₀ where

variable [Facts]
-- ==== Proof.RunLast.lean ====
/-
  The idealized kernel's whole run, with the two result arrays kept in the post.

  @main is fifteen segments: a stretch of host operations, the two scaling calls, and then six times a stretch of host
  operations (a gather and a scatter-add) followed by a normalise-and-accumulate call. The buffer contents at each
  segment boundary are a fold from the launch memory, and after the last segment every unscoped buffer holds the last
  boundary's contents. The frame claim reads that fact at the four argument arrays only; here it is read at the two
  result buffers as well, which the other modules then read back to the arguments.
-/
import proofs.«149225_j36197984371493_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The element the launch owns: every pipeline's staging cells at their launch tokens. -/
abbrev launchElt := initOf (Pipeline.cells cfgs cellOf_inj) (Pipeline.launchToks cfgs cellOf_inj)

/-- Owning the launch element is owning its image among the pipelines' resources; no core needs a ghost resource of
    its own, so the per-core share is empty. -/
theorem launch_deals : (ownU (launchElt) : sProp 𝕄)
    ⊢ |={Set.univ}=> iprop(BI.own (emb₁ (launchElt)) ∗ bigSep Finset.univ fun _ : Dev nD => (BI.emp : sProp 𝕄)) := by
  iintro Hown
  imodintro
  isplitl [Hown]
  · iapply (show (ownU (launchElt) : sProp 𝕄) ⊢ BI.own (emb₁ (launchElt)) from .rfl)
    iexact Hown
  · rw [BI.bigSep_emp_const]
    iempintro

/-- The first thread state of a core: its unscoped buffers at the launch contents, its generator register at some
    state, nothing owed. -/
abbrev firstState (c : Dev nD) : sProp 𝕄 :=
  iprop(StableHlo.held (c : Thread nD τ) (Pipeline.ucRefs τ sig) (W0 m ρ c) ∗ R c)

/-- The last thread state, held beside the state interpretation of a final state, says that the state's memory holds
    the last boundary's contents at every unscoped buffer. -/
theorem last_read (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W15 m ρ c b⌝ ∗ SI s') := by
  iintro ⟨⟨Hheld, -⟩, HSI⟩
  unfold StableHlo.held
  imodintro
  iapply (pointsTo_read_all (Pipeline.ucRefs τ sig) (fun b => (((c : Thread nD τ)).1, b)) (W15 m ρ c) s')
  isplitl [Hheld] <;> iassumption

set_option backward.isDefEq.respectTransparency.types false in
/-- Every weakly fair execution of @main terminates without a fault; each result buffer ends at the contents of the
    last segment boundary, and the argument arrays end as launched. -/
theorem run_last : θ_run defs (onTc (τ := τ) (main (F := F))) ⟨m, fun _ => 0, ρ⟩ (fun r => ∀ c : Dev nD,
      r.2.mem ((c.tc : Thread nD τ).loc main_v98_1) = W15 m ρ c (Proc.devRef .tc main_v98_1)
      ∧ r.2.mem ((c.tc : Thread nD τ).loc main_v113_1) = W15 m ρ c (Proc.devRef .tc main_v113_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := launchElt)
    (hu₀ := launch_deals)
    (T₀ := firstState m ρ) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl⟩)
    (hinit := by
      -- what a core holds at launch yields its first thread state: its unscoped buffers as launched are the launch
      -- contents held, its register is at its launch state, and it owes nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W15 m ρ c b)
    (hfin := last_read m ρ)
    (hQ := fun s h c =>
      ⟨h c _ (mem_uc main_v98_1 (by decide)),
       h c _ (mem_uc main_v113_1 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c)⟩)

end Cert.KernelIdeal.Hand

end
-- ==== Proof.MeanLaw.lean ====
/-
  The one law that joins the two programs: a row's mean taken as a quotient by the clamped count, against the same row
  scaled by the reciprocal of the clamped count.

  For a target node the reference divides the sum of its incoming messages by `max(count, 1)`; the kernel's program
  computes `1 / max(count, 1)` once per node and multiplies each sum by it. On the extended reals `x / y` is
  `x · y⁻¹` whenever `y ≠ 0`, and `1 / y` is then `y⁻¹`, so the two agree wherever the divisor is not zero — and
  `max(count, 1) ≥ 1` never is, whatever extended real the count denotes. Nothing here needs the inputs to be finite.
-/
import Idealize.ShloMosaic.Lib.IdealHost
import Idealize.ShloMosaic.Lib.Pipeline.Value

noncomputable section

namespace Cert.Hand.MeanLaw

open Idealize.ShloMosaic Idealize.ShloMosaic.ValueIdx

/-! ## The user side: 200000 rows of 64 -/

/-- Every row of `s` multiplied by that row's entry of the one-column array `col`. -/
def scaleRowsU (s : FVec Ideal (⟨2, ![200000, 64]⟩ : Shape) .f32) (col : FVec Ideal (⟨2, ![200000, 1]⟩ : Shape) .f32) :
    FVec Ideal (⟨2, ![200000, 64]⟩ : Shape) .f32 :=
  fun i => s i * col (ix2 (n0 := 200000) (n1 := 1) (i 0) 0)

/-- The mean as the reference takes it — the sums divided by the counts clamped below at one, the counts spread over
    the 64 columns — is the mean as the calls take it: the sums' rows scaled by the column of reciprocals of the clamped
    counts. A clamped count is at least one, so it is not zero, and dividing by it is multiplying by its reciprocal on
    every extended real, the infinities included. -/
theorem mean_formsU (s : FVec Ideal (⟨2, ![200000, 64]⟩ : Shape) .f32) (cnt ones : FVec Ideal (⟨1, ![200000]⟩ : Shape) .f32)
    (hones : ∀ k, ones k = 1)
    (hcol : (⟨1, ![200000]⟩ : Shape).BroadcastsInDim (⟨2, ![200000, 1]⟩ : Shape) ![0])
    (hwide : (⟨2, ![200000, 1]⟩ : Shape).BroadcastsInDim (⟨2, ![200000, 64]⟩ : Shape) ![0, 1])
    (hcast : (⟨1, ![200000]⟩ : Shape).ShapeCasts (⟨2, ![200000, 1]⟩ : Shape)) :
    Host.divf s (broadcastInDim (⟨2, ![200000, 64]⟩ : Shape) ![0, 1] hwide
        (broadcastInDim (⟨2, ![200000, 1]⟩ : Shape) ![0] hcol (maximumf cnt ones)))
      = scaleRowsU s (shapeCast (⟨2, ![200000, 1]⟩ : Shape) (Host.divf ones (maximumf cnt ones)) hcast) := by
  funext i
  have hwide_at : broadcastInDim (⟨2, ![200000, 64]⟩ : Shape) ![0, 1] hwide
        (broadcastInDim (⟨2, ![200000, 1]⟩ : Shape) ![0] hcol (maximumf cnt ones)) i
      = maximumf cnt ones (ix1 (n := 200000) (i 0)) := by
    rw [broadcastInDim_apply ![0, 1] hwide _ i (ix2 (n0 := 200000) (n1 := 1) (i 0) 0)
      (fun a => by match a with | ⟨0, _⟩ => rfl | ⟨1, _⟩ => rfl)]
    exact broadcastInDim_apply ![0] hcol _ (ix2 (n0 := 200000) (n1 := 1) (i 0) 0) (ix1 (n := 200000) (i 0))
      (fun a => by match a with | ⟨0, _⟩ => rfl)
  have hcast_at : shapeCast (⟨2, ![200000, 1]⟩ : Shape) (Host.divf ones (maximumf cnt ones)) hcast
        (ix2 (n0 := 200000) (n1 := 1) (i 0) 0)
      = Host.divf ones (maximumf cnt ones) (ix1 (n := 200000) (i 0)) :=
    shapeCast_apply _ hcast _ (ix1 (n := 200000) (i 0)) (by
      rw [Shape.rowMajor_val_one, Shape.rowMajor_val_two]; simp)
  have hne : max (cnt (ix1 (n := 200000) (i 0))) (1 : EReal) ≠ 0 :=
    ne_of_gt (lt_of_lt_of_le zero_lt_one (le_max_right _ _))
  show Ideal.div (s i) _ = s i * _
  rw [hwide_at, hcast_at, hostDivf_apply, maximumf_apply, hones]
  exact (Ideal.mul_one_div hne).symm

/-- An array's every entry times the literal one quarter. -/
def quarterU (x : FVec Ideal (⟨2, ![200000, 64]⟩ : Shape) .f32) : FVec Ideal (⟨2, ![200000, 64]⟩ : Shape) .f32 :=
  fun i => x i * Ideal.ofBits .f32 0x3E800000#32

/-- The running total after one more layer: what it held, plus a quarter of the layer's embeddings. -/
def accumU (total layer : FVec Ideal (⟨2, ![200000, 64]⟩ : Shape) .f32) : FVec Ideal (⟨2, ![200000, 64]⟩ : Shape) .f32 :=
  fun i => total i + layer i * Ideal.ofBits .f32 0x3E800000#32

/-- The quarter-scaling, in the host's spelling: a product with the scalar literal broadcast to the array. -/
theorem quarterU_eq (x : FVec Ideal (⟨2, ![200000, 64]⟩ : Shape) .f32)
    (hb : (⟨0, ![]⟩ : Shape).BroadcastsInDim (⟨2, ![200000, 64]⟩ : Shape) ![]) :
    quarterU x = mulf x (broadcastInDim (⟨2, ![200000, 64]⟩ : Shape) ![] hb (constant (F := Ideal) (⟨0, ![]⟩ : Shape) .f32 0x3E800000#32)) := by
  funext i
  rw [mulf_apply, broadcastInDim_scalar_apply]
  rfl

/-- The accumulate step, in the host's spelling. -/
theorem accumU_eq (total layer : FVec Ideal (⟨2, ![200000, 64]⟩ : Shape) .f32)
    (hb : (⟨0, ![]⟩ : Shape).BroadcastsInDim (⟨2, ![200000, 64]⟩ : Shape) ![]) :
    accumU total layer
      = addf total (mulf layer (broadcastInDim (⟨2, ![200000, 64]⟩ : Shape) ![] hb (constant (F := Ideal) (⟨0, ![]⟩ : Shape) .f32 0x3E800000#32))) := by
  funext i
  rw [addf_apply, mulf_apply, broadcastInDim_scalar_apply]
  rfl

/-! ## The artist side: 50000 rows of 64 -/

/-- Every row of `s` multiplied by that row's entry of the one-column array `col`. -/
def scaleRowsA (s : FVec Ideal (⟨2, ![50000, 64]⟩ : Shape) .f32) (col : FVec Ideal (⟨2, ![50000, 1]⟩ : Shape) .f32) :
    FVec Ideal (⟨2, ![50000, 64]⟩ : Shape) .f32 :=
  fun i => s i * col (ix2 (n0 := 50000) (n1 := 1) (i 0) 0)

/-- The mean as the reference takes it — the sums divided by the counts clamped below at one, the counts spread over
    the 64 columns — is the mean as the calls take it: the sums' rows scaled by the column of reciprocals of the clamped
    counts. A clamped count is at least one, so it is not zero, and dividing by it is multiplying by its reciprocal on
    every extended real, the infinities included. -/
theorem mean_formsA (s : FVec Ideal (⟨2, ![50000, 64]⟩ : Shape) .f32) (cnt ones : FVec Ideal (⟨1, ![50000]⟩ : Shape) .f32)
    (hones : ∀ k, ones k = 1)
    (hcol : (⟨1, ![50000]⟩ : Shape).BroadcastsInDim (⟨2, ![50000, 1]⟩ : Shape) ![0])
    (hwide : (⟨2, ![50000, 1]⟩ : Shape).BroadcastsInDim (⟨2, ![50000, 64]⟩ : Shape) ![0, 1])
    (hcast : (⟨1, ![50000]⟩ : Shape).ShapeCasts (⟨2, ![50000, 1]⟩ : Shape)) :
    Host.divf s (broadcastInDim (⟨2, ![50000, 64]⟩ : Shape) ![0, 1] hwide
        (broadcastInDim (⟨2, ![50000, 1]⟩ : Shape) ![0] hcol (maximumf cnt ones)))
      = scaleRowsA s (shapeCast (⟨2, ![50000, 1]⟩ : Shape) (Host.divf ones (maximumf cnt ones)) hcast) := by
  funext i
  have hwide_at : broadcastInDim (⟨2, ![50000, 64]⟩ : Shape) ![0, 1] hwide
        (broadcastInDim (⟨2, ![50000, 1]⟩ : Shape) ![0] hcol (maximumf cnt ones)) i
      = maximumf cnt ones (ix1 (n := 50000) (i 0)) := by
    rw [broadcastInDim_apply ![0, 1] hwide _ i (ix2 (n0 := 50000) (n1 := 1) (i 0) 0)
      (fun a => by match a with | ⟨0, _⟩ => rfl | ⟨1, _⟩ => rfl)]
    exact broadcastInDim_apply ![0] hcol _ (ix2 (n0 := 50000) (n1 := 1) (i 0) 0) (ix1 (n := 50000) (i 0))
      (fun a => by match a with | ⟨0, _⟩ => rfl)
  have hcast_at : shapeCast (⟨2, ![50000, 1]⟩ : Shape) (Host.divf ones (maximumf cnt ones)) hcast
        (ix2 (n0 := 50000) (n1 := 1) (i 0) 0)
      = Host.divf ones (maximumf cnt ones) (ix1 (n := 50000) (i 0)) :=
    shapeCast_apply _ hcast _ (ix1 (n := 50000) (i 0)) (by
      rw [Shape.rowMajor_val_one, Shape.rowMajor_val_two]; simp)
  have hne : max (cnt (ix1 (n := 50000) (i 0))) (1 : EReal) ≠ 0 :=
    ne_of_gt (lt_of_lt_of_le zero_lt_one (le_max_right _ _))
  show Ideal.div (s i) _ = s i * _
  rw [hwide_at, hcast_at, hostDivf_apply, maximumf_apply, hones]
  exact (Ideal.mul_one_div hne).symm

/-- An array's every entry times the literal one quarter. -/
def quarterA (x : FVec Ideal (⟨2, ![50000, 64]⟩ : Shape) .f32) : FVec Ideal (⟨2, ![50000, 64]⟩ : Shape) .f32 :=
  fun i => x i * Ideal.ofBits .f32 0x3E800000#32

/-- The running total after one more layer: what it held, plus a quarter of the layer's embeddings. -/
def accumA (total layer : FVec Ideal (⟨2, ![50000, 64]⟩ : Shape) .f32) : FVec Ideal (⟨2, ![50000, 64]⟩ : Shape) .f32 :=
  fun i => total i + layer i * Ideal.ofBits .f32 0x3E800000#32

/-- The quarter-scaling, in the host's spelling: a product with the scalar literal broadcast to the array. -/
theorem quarterA_eq (x : FVec Ideal (⟨2, ![50000, 64]⟩ : Shape) .f32)
    (hb : (⟨0, ![]⟩ : Shape).BroadcastsInDim (⟨2, ![50000, 64]⟩ : Shape) ![]) :
    quarterA x = mulf x (broadcastInDim (⟨2, ![50000, 64]⟩ : Shape) ![] hb (constant (F := Ideal) (⟨0, ![]⟩ : Shape) .f32 0x3E800000#32)) := by
  funext i
  rw [mulf_apply, broadcastInDim_scalar_apply]
  rfl

/-- The accumulate step, in the host's spelling. -/
theorem accumA_eq (total layer : FVec Ideal (⟨2, ![50000, 64]⟩ : Shape) .f32)
    (hb : (⟨0, ![]⟩ : Shape).BroadcastsInDim (⟨2, ![50000, 64]⟩ : Shape) ![]) :
    accumA total layer
      = addf total (mulf layer (broadcastInDim (⟨2, ![50000, 64]⟩ : Shape) ![] hb (constant (F := Ideal) (⟨0, ![]⟩ : Shape) .f32 0x3E800000#32))) := by
  funext i
  rw [addf_apply, mulf_apply, broadcastInDim_scalar_apply]
  rfl

end Cert.Hand.MeanLaw

end
-- ==== Proof.Stretches.lean ====
/-
  The host stretches between the calls, each read as one function of the buffer contents it starts from.

  The first stretch computes, per direction, the column of reciprocals `1 / max(count, 1)`: the counts are a
  scatter-add of ones over the edge list's target row. Each later stretch is one round of message passing in one
  direction: gather the source nodes' rows along the edge list's source row (a negative id wrapped by the node count),
  and scatter-add them over the target row into zeros. The gather and the scatter-add are carried as they are printed —
  nothing here opens them —, so the two programs' rounds can be matched as the same function of equal arguments.
-/
import proofs.«149225_j36197984371493_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## The message-passing chain, named -/

/-- Row `k` of an edge list as a flat vector of node ids. -/
def edgeRow0 (e : (⟨S2x2000000, .i32⟩ : BufTy).Contents (Elt F)) : (⟨S2000000, .i32⟩ : BufTy).Contents (Elt F) :=
  shapeCast S2000000 (extractStridedSlice S1x2000000 ![0, 0] e slices_S2x2000000_S1x2000000_0_0) shapeCasts_S1x2000000_S2000000
def edgeRow1 (e : (⟨S2x2000000, .i32⟩ : BufTy).Contents (Elt F)) : (⟨S2000000, .i32⟩ : BufTy).Contents (Elt F) :=
  shapeCast S2000000 (extractStridedSlice S1x2000000 ![1, 0] e slices_S2x2000000_S1x2000000_1_0) shapeCasts_S1x2000000_S2000000

/-- The target ids of an edge list, as the column of indices a scatter takes. -/
def targets (e : (⟨S2x2000000, .i32⟩ : BufTy).Contents (Elt F)) : (⟨S2000000x1, .i32⟩ : BufTy).Contents (Elt F) :=
  broadcastInDim S2000000x1 ![0] bcast_S2000000_S2000000x1_0 (edgeRow1 e)

/-- The source ids of an edge list into the 50000 artists, a negative id wrapped, as the column a gather takes. -/
def sourcesA (e : (⟨S2x2000000, .i32⟩ : BufTy).Contents (Elt F)) : (⟨S2000000x1, .i32⟩ : BufTy).Contents (Elt F) :=
  broadcastInDim S2000000x1 ![0] bcast_S2000000_S2000000x1_0
    (select (cmpi .slt (edgeRow0 e) (broadcastInDim S2000000 ![] bcast_S_S2000000 (constantI S_ 32 0#32)))
      (addi (edgeRow0 e) (broadcastInDim S2000000 ![] bcast_S_S2000000 (constantI S_ 32 50000#32))) (edgeRow0 e))

/-- The source ids of an edge list into the 200000 users, a negative id wrapped. -/
def sourcesU (e : (⟨S2x2000000, .i32⟩ : BufTy).Contents (Elt F)) : (⟨S2000000x1, .i32⟩ : BufTy).Contents (Elt F) :=
  broadcastInDim S2000000x1 ![0] bcast_S2000000_S2000000x1_0
    (select (cmpi .slt (edgeRow0 e) (broadcastInDim S2000000 ![] bcast_S_S2000000 (constantI S_ 32 0#32)))
      (addi (edgeRow0 e) (broadcastInDim S2000000 ![] bcast_S_S2000000 (constantI S_ 32 200000#32))) (edgeRow0 e))

/-- One round towards the users: the artists' rows gathered along the edges' sources, summed at the edges' targets. -/
def sumToU (src : (⟨S50000x64, .f32⟩ : BufTy).Contents (Elt F)) (e : (⟨S2x2000000, .i32⟩ : BufTy).Contents (Elt F)) :
    (⟨S200000x64, .f32⟩ : BufTy).Contents (Elt F) :=
  Host.scatterAdd scatter_S200000x64_S2000000x1_S2000000x64_1_0_0_1
    (broadcastInDim S200000x64 ![] bcast_S_S200000x64 (constant (F := F) S_ .f32 0x00000000#32)) (targets e)
    (Host.gather gather_S50000x64_S2000000x1_S2000000x64_1_0_n_n_0_1_164 src (sourcesA e))

/-- One round towards the artists: the users' rows gathered along the edges' sources, summed at the edges' targets. -/
def sumToA (src : (⟨S200000x64, .f32⟩ : BufTy).Contents (Elt F)) (e : (⟨S2x2000000, .i32⟩ : BufTy).Contents (Elt F)) :
    (⟨S50000x64, .f32⟩ : BufTy).Contents (Elt F) :=
  Host.scatterAdd scatter_S50000x64_S2000000x1_S2000000x64_1_0_0_1
    (broadcastInDim S50000x64 ![] bcast_S_S50000x64 (constant (F := F) S_ .f32 0x00000000#32)) (targets e)
    (Host.gather gather_S200000x64_S2000000x1_S2000000x64_1_0_n_n_0_1_164 src (sourcesU e))

/-- A vector of ones, one per user; one per artist. -/
def onesU : (⟨S200000, .f32⟩ : BufTy).Contents (Elt F) := broadcastInDim S200000 ![] bcast_S_S200000 (constant (F := F) S_ .f32 0x3F800000#32)
def onesA : (⟨S50000, .f32⟩ : BufTy).Contents (Elt F) := broadcastInDim S50000 ![] bcast_S_S50000 (constant (F := F) S_ .f32 0x3F800000#32)

/-- How many edges point at each user: ones summed at the edges' targets. Likewise for the artists. -/
def countU (e : (⟨S2x2000000, .i32⟩ : BufTy).Contents (Elt F)) : (⟨S200000, .f32⟩ : BufTy).Contents (Elt F) :=
  Host.scatterAdd scatter_S200000_S2000000x1_S2000000_n_0_0_1
    (broadcastInDim S200000 ![] bcast_S_S200000 (constant (F := F) S_ .f32 0x00000000#32)) (targets e)
    (broadcastInDim S2000000 ![] bcast_S_S2000000 (constant (F := F) S_ .f32 0x3F800000#32))
def countA (e : (⟨S2x2000000, .i32⟩ : BufTy).Contents (Elt F)) : (⟨S50000, .f32⟩ : BufTy).Contents (Elt F) :=
  Host.scatterAdd scatter_S50000_S2000000x1_S2000000_n_0_0_1
    (broadcastInDim S50000 ![] bcast_S_S50000 (constant (F := F) S_ .f32 0x00000000#32)) (targets e)
    (broadcastInDim S2000000 ![] bcast_S_S2000000 (constant (F := F) S_ .f32 0x3F800000#32))

/-- The column of reciprocals of the counts clamped below at one. -/
def recipColU (e : (⟨S2x2000000, .i32⟩ : BufTy).Contents (Elt F)) : (⟨S200000x1, .f32⟩ : BufTy).Contents (Elt F) :=
  shapeCast S200000x1 (Host.divf (onesU (F := F)) (maximumf (countU e) (onesU (F := F)))) shapeCasts_S200000_S200000x1
def recipColA (e : (⟨S2x2000000, .i32⟩ : BufTy).Contents (Elt F)) : (⟨S50000x1, .f32⟩ : BufTy).Contents (Elt F) :=
  shapeCast S50000x1 (Host.divf (onesA (F := F)) (maximumf (countA e) (onesA (F := F)))) shapeCasts_S50000_S50000x1

/-! ## What each stretch leaves in the buffer the next call reads -/

set_option maxHeartbeats 2000000 in
theorem stretch0_recipU (W : Valuation τ sig (Elt F)) :
    after hostOps0 W (Proc.devRef .tc main_v10) = recipColU (W (Proc.devRef .tc main_arg2)) := by
  simp only [hostOps0]
  after_results_simp
  rfl
set_option maxHeartbeats 2000000 in
theorem stretch0_recipA (W : Valuation τ sig (Elt F)) :
    after hostOps0 W (Proc.devRef .tc main_v21) = recipColA (W (Proc.devRef .tc main_arg3)) := by
  simp only [hostOps0]
  after_results_simp
  rfl
set_option maxHeartbeats 2000000 in
theorem stretch2_sums (W : Valuation τ sig (Elt F)) :
    after hostOps2 W (Proc.devRef .tc main_v37) = sumToU (W (Proc.devRef .tc main_arg1)) (W (Proc.devRef .tc main_arg2)) := by
  simp only [hostOps2]
  after_results_simp
  rfl
set_option maxHeartbeats 2000000 in
theorem stretch3_sums (W : Valuation τ sig (Elt F)) :
    after hostOps3 W (Proc.devRef .tc main_v52) = sumToA (W (Proc.devRef .tc main_v38_0)) (W (Proc.devRef .tc main_arg3)) := by
  simp only [hostOps3]
  after_results_simp
  rfl
set_option maxHeartbeats 2000000 in
theorem stretch4_sums (W : Valuation τ sig (Elt F)) :
    after hostOps4 W (Proc.devRef .tc main_v67) = sumToU (W (Proc.devRef .tc main_v53_0)) (W (Proc.devRef .tc main_arg2)) := by
  simp only [hostOps4]
  after_results_simp
  rfl
set_option maxHeartbeats 2000000 in
theorem stretch5_sums (W : Valuation τ sig (Elt F)) :
    after hostOps5 W (Proc.devRef .tc main_v82) = sumToA (W (Proc.devRef .tc main_v68_0)) (W (Proc.devRef .tc main_arg3)) := by
  simp only [hostOps5]
  after_results_simp
  rfl
set_option maxHeartbeats 2000000 in
theorem stretch6_sums (W : Valuation τ sig (Elt F)) :
    after hostOps6 W (Proc.devRef .tc main_v97) = sumToU (W (Proc.devRef .tc main_v83_0)) (W (Proc.devRef .tc main_arg2)) := by
  simp only [hostOps6]
  after_results_simp
  rfl
set_option maxHeartbeats 2000000 in
theorem stretch7_sums (W : Valuation τ sig (Elt F)) :
    after hostOps7 W (Proc.devRef .tc main_v112) = sumToA (W (Proc.devRef .tc main_v98_0)) (W (Proc.devRef .tc main_arg3)) := by
  simp only [hostOps7]
  after_results_simp
  rfl

/-! ## What a stretch does not write, it keeps -/

/-- The buffers stretch 0's operations write. -/
abbrev written0 : List (Ref sig .tc) := [main_cst, main_v0, main_v1, main_v2, main_cst_0, main_v3, main_v4, main_v5, main_cst_1, main_v6, main_v7, main_cst_2, main_v8, main_v9, main_v10, main_cst_3, main_v11, main_v12, main_v13, main_cst_4, main_v14, main_v15, main_v16, main_cst_5, main_v17, main_v18, main_cst_6, main_v19, main_v20, main_v21]
theorem writes0 : (hostOps0 : List (HloOp τ sig (Elt F))).Forall fun op => op.writes ⊆ (written0.map (Proc.devRef (τ := τ) .tc)).toFinset := by
  simp only [hostOps0, List.Forall, nullary_writes, unary_writes, binary_writes, ternary_writes, reshape_writes,
    Finset.singleton_subset_iff, List.mem_toFinset]
  repeat' apply And.intro
  all_goals exact List.mem_map_of_mem (by decide)
/-- A buffer stretch 0 does not write keeps its contents through it. -/
theorem keeps0 (W : Valuation τ sig (Elt F)) (b : Ref sig .tc) (h : b ∉ written0) :
    after hostOps0 W (Proc.devRef .tc b) = W (Proc.devRef .tc b) :=
  after_of_writes_sub hostOps0 W writes0 h

/-- The buffers stretch 2's operations write. -/
abbrev written2 : List (Ref sig .tc) := [main_v24, main_v25, main_c, main_v26, main_v27, main_c_7, main_v28, main_v29, main_v30, main_v31, main_v32, main_v33, main_v34, main_cst_8, main_v35, main_v36, main_v37]
theorem writes2 : (hostOps2 : List (HloOp τ sig (Elt F))).Forall fun op => op.writes ⊆ (written2.map (Proc.devRef (τ := τ) .tc)).toFinset := by
  simp only [hostOps2, List.Forall, nullary_writes, unary_writes, binary_writes, ternary_writes, reshape_writes,
    Finset.singleton_subset_iff, List.mem_toFinset]
  repeat' apply And.intro
  all_goals exact List.mem_map_of_mem (by decide)
/-- A buffer stretch 2 does not write keeps its contents through it. -/
theorem keeps2 (W : Valuation τ sig (Elt F)) (b : Ref sig .tc) (h : b ∉ written2) :
    after hostOps2 W (Proc.devRef .tc b) = W (Proc.devRef .tc b) :=
  after_of_writes_sub hostOps2 W writes2 h

/-- The buffers stretch 3's operations write. -/
abbrev written3 : List (Ref sig .tc) := [main_v39, main_v40, main_c_9, main_v41, main_v42, main_c_10, main_v43, main_v44, main_v45, main_v46, main_v47, main_v48, main_v49, main_cst_11, main_v50, main_v51, main_v52]
theorem writes3 : (hostOps3 : List (HloOp τ sig (Elt F))).Forall fun op => op.writes ⊆ (written3.map (Proc.devRef (τ := τ) .tc)).toFinset := by
  simp only [hostOps3, List.Forall, nullary_writes, unary_writes, binary_writes, ternary_writes, reshape_writes,
    Finset.singleton_subset_iff, List.mem_toFinset]
  repeat' apply And.intro
  all_goals exact List.mem_map_of_mem (by decide)
/-- A buffer stretch 3 does not write keeps its contents through it. -/
theorem keeps3 (W : Valuation τ sig (Elt F)) (b : Ref sig .tc) (h : b ∉ written3) :
    after hostOps3 W (Proc.devRef .tc b) = W (Proc.devRef .tc b) :=
  after_of_writes_sub hostOps3 W writes3 h

/-- The buffers stretch 4's operations write. -/
abbrev written4 : List (Ref sig .tc) := [main_v54, main_v55, main_c_12, main_v56, main_v57, main_c_13, main_v58, main_v59, main_v60, main_v61, main_v62, main_v63, main_v64, main_cst_14, main_v65, main_v66, main_v67]
theorem writes4 : (hostOps4 : List (HloOp τ sig (Elt F))).Forall fun op => op.writes ⊆ (written4.map (Proc.devRef (τ := τ) .tc)).toFinset := by
  simp only [hostOps4, List.Forall, nullary_writes, unary_writes, binary_writes, ternary_writes, reshape_writes,
    Finset.singleton_subset_iff, List.mem_toFinset]
  repeat' apply And.intro
  all_goals exact List.mem_map_of_mem (by decide)
/-- A buffer stretch 4 does not write keeps its contents through it. -/
theorem keeps4 (W : Valuation τ sig (Elt F)) (b : Ref sig .tc) (h : b ∉ written4) :
    after hostOps4 W (Proc.devRef .tc b) = W (Proc.devRef .tc b) :=
  after_of_writes_sub hostOps4 W writes4 h

/-- The buffers stretch 5's operations write. -/
abbrev written5 : List (Ref sig .tc) := [main_v69, main_v70, main_c_15, main_v71, main_v72, main_c_16, main_v73, main_v74, main_v75, main_v76, main_v77, main_v78, main_v79, main_cst_17, main_v80, main_v81, main_v82]
theorem writes5 : (hostOps5 : List (HloOp τ sig (Elt F))).Forall fun op => op.writes ⊆ (written5.map (Proc.devRef (τ := τ) .tc)).toFinset := by
  simp only [hostOps5, List.Forall, nullary_writes, unary_writes, binary_writes, ternary_writes, reshape_writes,
    Finset.singleton_subset_iff, List.mem_toFinset]
  repeat' apply And.intro
  all_goals exact List.mem_map_of_mem (by decide)
/-- A buffer stretch 5 does not write keeps its contents through it. -/
theorem keeps5 (W : Valuation τ sig (Elt F)) (b : Ref sig .tc) (h : b ∉ written5) :
    after hostOps5 W (Proc.devRef .tc b) = W (Proc.devRef .tc b) :=
  after_of_writes_sub hostOps5 W writes5 h

/-- The buffers stretch 6's operations write. -/
abbrev written6 : List (Ref sig .tc) := [main_v84, main_v85, main_c_18, main_v86, main_v87, main_c_19, main_v88, main_v89, main_v90, main_v91, main_v92, main_v93, main_v94, main_cst_20, main_v95, main_v96, main_v97]
theorem writes6 : (hostOps6 : List (HloOp τ sig (Elt F))).Forall fun op => op.writes ⊆ (written6.map (Proc.devRef (τ := τ) .tc)).toFinset := by
  simp only [hostOps6, List.Forall, nullary_writes, unary_writes, binary_writes, ternary_writes, reshape_writes,
    Finset.singleton_subset_iff, List.mem_toFinset]
  repeat' apply And.intro
  all_goals exact List.mem_map_of_mem (by decide)
/-- A buffer stretch 6 does not write keeps its contents through it. -/
theorem keeps6 (W : Valuation τ sig (Elt F)) (b : Ref sig .tc) (h : b ∉ written6) :
    after hostOps6 W (Proc.devRef .tc b) = W (Proc.devRef .tc b) :=
  after_of_writes_sub hostOps6 W writes6 h

/-- The buffers stretch 7's operations write. -/
abbrev written7 : List (Ref sig .tc) := [main_v99, main_v100, main_c_21, main_v101, main_v102, main_c_22, main_v103, main_v104, main_v105, main_v106, main_v107, main_v108, main_v109, main_cst_23, main_v110, main_v111, main_v112]
theorem writes7 : (hostOps7 : List (HloOp τ sig (Elt F))).Forall fun op => op.writes ⊆ (written7.map (Proc.devRef (τ := τ) .tc)).toFinset := by
  simp only [hostOps7, List.Forall, nullary_writes, unary_writes, binary_writes, ternary_writes, reshape_writes,
    Finset.singleton_subset_iff, List.mem_toFinset]
  repeat' apply And.intro
  all_goals exact List.mem_map_of_mem (by decide)
/-- A buffer stretch 7 does not write keeps its contents through it. -/
theorem keeps7 (W : Valuation τ sig (Elt F)) (b : Ref sig .tc) (h : b ∉ written7) :
    after hostOps7 W (Proc.devRef .tc b) = W (Proc.devRef .tc b) :=
  after_of_writes_sub hostOps7 W writes7 h

end Cert.KernelIdeal.Hand

end
-- ==== Proof.Call0.lean ====
/-
  Call 0: the users' embeddings scaled by one quarter, read as a whole array.

  The call walks the 200000 rows in 50 blocks of 4000; at a block it loads the block and stores every entry times the
  literal one quarter. Block `t` of both windows starts at row `4000·t`, so the result array ends as
  `quarterU` of the array the call found.
-/
import proofs.«149225_j36197984371493_1_alg».proof.Proof.Gen.KernelIdeal.Frame
import proofs.«149225_j36197984371493_1_alg».proof.Proof.MeanLaw
import Idealize.ShloMosaic.Lib.Pipeline.Value

set_option maxRecDepth 16384

noncomputable section

namespace Cert.KernelIdeal.Hand.Call0

open Cert.KernelIdeal Cert.KernelIdeal.Gen Cert.Hand.MeanLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The stored value at an entry of the block: the loaded entry times one quarter. -/
theorem quarter_at (x0 : FVec Ideal S4000x64 .f32) (j : S4000x64.Idx) :
    k0_pay1 x0 j = x0 j * Ideal.ofBits .f32 0x3E800000#32 := rfl

/-- The printed index maps over the grid: both windows' block `t` is block row `t`, block column 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t` read at `j` is the array's entry `4000·t` rows further down. -/
theorem in_block (c : Dev nD) (t : Fin cfg0.N) (j : S4000x64.Idx) (i : S200000x64.Idx)
    (h0 : (i 0).val = t.val * 4000 + (j 0).val) (h1 : (i 1).val = (j 1).val) :
    (iblk0 V c 0 t : FVec Ideal S4000x64 .f32) j = (V c main_arg0 : FVec Ideal S200000x64 .f32) i := by
  obtain ⟨e0, e1, -⟩ := block_index t
  unfold iblk0
  rw [View.read_apply]
  show V c main_arg0 _ = V c main_arg0 i
  refine congrArg (V c main_arg0) (funext fun a => Fin.ext ?_)
  match a with
  | ⟨0, _⟩ => show win0_0.index t (0 : Fin 2) * 4000 + 1 * (j 0).val = (i 0).val; rw [e0, h0]; omega
  | ⟨1, _⟩ => show win0_0.index t (1 : Fin 2) * 64 + 1 * (j 1).val = (i 1).val; rw [e1, h1]; omega

/-- Entry `j` of the result's block `t` is row `4000·t + j 0`, column `j 1` of its array. -/
theorem out_entry (t : Fin cfg0.N) (j : S4000x64.Idx) (i : S200000x64.Idx) (hi : i = ((cfg0.win 1).blk t).view.emb j) :
    (i 0).val = t.val * 4000 + (j 0).val ∧ (i 1).val = (j 1).val := by
  obtain ⟨-, -, e0, e1⟩ := block_index t
  subst hi
  constructor
  · show win0_1.index t (0 : Fin 2) * 4000 + 1 * (j 0).val = _; rw [e0]; omega
  · show win0_1.index t (1 : Fin 2) * 64 + 1 * (j 1).val = _; rw [e1]; omega

/-- Point `t` writes back block `t` of the quarter-scaled array. -/
theorem quarter_flushed (c : Dev nD) (t : Fin cfg0.N) :
    (dat0 V c).flushed 1 t = ((cfg0.win 1).blk t).view.read (Elt Ideal) (quarterU (V c main_arg0)) := by
  show (cfg0.win 1).cut (grid0.coords t) ((dat0 V c).after 1 t) = _
  rw [after0_1]
  unfold out0_1
  rw [View.canon_unit_zero origin]
  simp only [View.ld_unit_zero (S := S4000x64) origin]
  funext j
  obtain ⟨i, hi⟩ : ∃ i : S200000x64.Idx, i = ((cfg0.win 1).blk t).view.emb j := ⟨_, rfl⟩
  obtain ⟨h0, h1⟩ := out_entry t j i hi
  show k0_pay1 (iblk0 V c 0 t) j = quarterU (V c main_arg0) (((cfg0.win 1).blk t).view.emb j)
  rw [← hi]
  refine (quarter_at _ j).trans ?_
  unfold quarterU
  rw [in_block V c t j i h0 h1]

/-- Every entry of the result lies in the block of the point `row / 4000`. -/
theorem quarter_cover (i : S200000x64.Idx) :
    ∃ t : Fin cfg0.N, (cfg0.win 1).flush t = true ∧ i ∈ ((cfg0.win 1).blk t).view.set := by
  have hr : (i 0).val < 200000 := (i 0).isLt
  have hc : (i 1).val < 64 := (i 1).isLt
  have hN : cfg0.N = 50 := N_0
  obtain ⟨t, ht⟩ : ∃ t : Fin cfg0.N, t.val = (i 0).val / 4000 := ⟨⟨(i 0).val / 4000, by rw [hN]; omega⟩, rfl⟩
  obtain ⟨-, -, e0, e1⟩ := block_index t
  refine ⟨t, flush0_1 t, ?_⟩
  show i ∈ ((View.whole main_v22).slice (win0_1.rect t)).set
  rw [View.set_slice_whole, Rect.mem_set_unit]
  intro a
  match a with
  | ⟨0, _⟩ =>
    show win0_1.index t (0 : Fin 2) * 4000 ≤ (i 0).val ∧ (i 0).val < win0_1.index t (0 : Fin 2) * 4000 + 4000
    rw [e0, ht]; omega
  | ⟨1, _⟩ =>
    show win0_1.index t (1 : Fin 2) * 64 ≤ (i 1).val ∧ (i 1).val < win0_1.index t (1 : Fin 2) * 64 + 64
    rw [e1]; omega

/-- After the call the result array holds the quarter-scaled embeddings. -/
theorem quarter_array (c : Dev nD) : (dat0 V c).arrAt 1 cfg0.N = quarterU (V c main_arg0) :=
  (dat0 V c).arrAt_eq_of_cover 1 (quarterU (V c main_arg0)) (fun t _ => quarter_flushed V c t) quarter_cover

end Cert.KernelIdeal.Hand.Call0

end
-- ==== Proof.Call1.lean ====
/-
  Call 1: the artists' embeddings scaled by one quarter, read as a whole array.

  The call walks the 50000 rows in 25 blocks of 2000; at a block it loads the block and stores every entry times the
  literal one quarter. Block `t` of both windows starts at row `2000·t`, so the result array ends as
  `quarterA` of the array the call found.
-/
import proofs.«149225_j36197984371493_1_alg».proof.Proof.Gen.KernelIdeal.Frame
import proofs.«149225_j36197984371493_1_alg».proof.Proof.MeanLaw
import Idealize.ShloMosaic.Lib.Pipeline.Value

set_option maxRecDepth 16384

noncomputable section

namespace Cert.KernelIdeal.Hand.Call1

open Cert.KernelIdeal Cert.KernelIdeal.Gen Cert.Hand.MeanLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The stored value at an entry of the block: the loaded entry times one quarter. -/
theorem quarter_at (x0 : FVec Ideal S2000x64 .f32) (j : S2000x64.Idx) :
    k1_pay1 x0 j = x0 j * Ideal.ofBits .f32 0x3E800000#32 := rfl

/-- The printed index maps over the grid: both windows' block `t` is block row `t`, block column 0. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The input block at point `t` read at `j` is the array's entry `2000·t` rows further down. -/
theorem in_block (c : Dev nD) (t : Fin cfg1.N) (j : S2000x64.Idx) (i : S50000x64.Idx)
    (h0 : (i 0).val = t.val * 2000 + (j 0).val) (h1 : (i 1).val = (j 1).val) :
    (iblk1 V c 0 t : FVec Ideal S2000x64 .f32) j = (V c main_arg1 : FVec Ideal S50000x64 .f32) i := by
  obtain ⟨e0, e1, -⟩ := block_index t
  unfold iblk1
  rw [View.read_apply]
  show V c main_arg1 _ = V c main_arg1 i
  refine congrArg (V c main_arg1) (funext fun a => Fin.ext ?_)
  match a with
  | ⟨0, _⟩ => show win1_0.index t (0 : Fin 2) * 2000 + 1 * (j 0).val = (i 0).val; rw [e0, h0]; omega
  | ⟨1, _⟩ => show win1_0.index t (1 : Fin 2) * 64 + 1 * (j 1).val = (i 1).val; rw [e1, h1]; omega

/-- Entry `j` of the result's block `t` is row `2000·t + j 0`, column `j 1` of its array. -/
theorem out_entry (t : Fin cfg1.N) (j : S2000x64.Idx) (i : S50000x64.Idx) (hi : i = ((cfg1.win 1).blk t).view.emb j) :
    (i 0).val = t.val * 2000 + (j 0).val ∧ (i 1).val = (j 1).val := by
  obtain ⟨-, -, e0, e1⟩ := block_index t
  subst hi
  constructor
  · show win1_1.index t (0 : Fin 2) * 2000 + 1 * (j 0).val = _; rw [e0]; omega
  · show win1_1.index t (1 : Fin 2) * 64 + 1 * (j 1).val = _; rw [e1]; omega

/-- Point `t` writes back block `t` of the quarter-scaled array. -/
theorem quarter_flushed (c : Dev nD) (t : Fin cfg1.N) :
    (dat1 V c).flushed 1 t = ((cfg1.win 1).blk t).view.read (Elt Ideal) (quarterA (V c main_arg1)) := by
  show (cfg1.win 1).cut (grid1.coords t) ((dat1 V c).after 1 t) = _
  rw [after1_1]
  unfold out1_1
  rw [View.canon_unit_zero origin]
  simp only [View.ld_unit_zero (S := S2000x64) origin]
  funext j
  obtain ⟨i, hi⟩ : ∃ i : S50000x64.Idx, i = ((cfg1.win 1).blk t).view.emb j := ⟨_, rfl⟩
  obtain ⟨h0, h1⟩ := out_entry t j i hi
  show k1_pay1 (iblk1 V c 0 t) j = quarterA (V c main_arg1) (((cfg1.win 1).blk t).view.emb j)
  rw [← hi]
  refine (quarter_at _ j).trans ?_
  unfold quarterA
  rw [in_block V c t j i h0 h1]

/-- Every entry of the result lies in the block of the point `row / 2000`. -/
theorem quarter_cover (i : S50000x64.Idx) :
    ∃ t : Fin cfg1.N, (cfg1.win 1).flush t = true ∧ i ∈ ((cfg1.win 1).blk t).view.set := by
  have hr : (i 0).val < 50000 := (i 0).isLt
  have hc : (i 1).val < 64 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, e0, e1⟩ := block_index t
  refine ⟨t, flush1_1 t, ?_⟩
  show i ∈ ((View.whole main_v23).slice (win1_1.rect t)).set
  rw [View.set_slice_whole, Rect.mem_set_unit]
  intro a
  match a with
  | ⟨0, _⟩ =>
    show win1_1.index t (0 : Fin 2) * 2000 ≤ (i 0).val ∧ (i 0).val < win1_1.index t (0 : Fin 2) * 2000 + 2000
    rw [e0, ht]; omega
  | ⟨1, _⟩ =>
    show win1_1.index t (1 : Fin 2) * 64 ≤ (i 1).val ∧ (i 1).val < win1_1.index t (1 : Fin 2) * 64 + 64
    rw [e1]; omega

/-- After the call the result array holds the quarter-scaled embeddings. -/
theorem quarter_array (c : Dev nD) : (dat1 V c).arrAt 1 cfg1.N = quarterA (V c main_arg1) :=
  (dat1 V c).arrAt_eq_of_cover 1 (quarterA (V c main_arg1)) (fun t _ => quarter_flushed V c t) quarter_cover

end Cert.KernelIdeal.Hand.Call1

end
-- ==== Proof.Call2.lean ====
/-
  Call 2: one normalise-and-accumulate step on the user side, read as whole arrays.

  The call walks the 200000 rows in 50 blocks of 4000. At a block it loads the block of summed messages, the block of
  the reciprocal-count column and the block of the running total; it stores the sums' rows scaled by the column (the
  layer's embeddings) into its first result and the total plus a quarter of those embeddings into its second. Block
  `t` of every window starts at row `4000·t`, so each result array ends as ONE function of the three arrays the
  call found: `scaleRowsU` of the sums and the column, and `accumU` of the total and that.
-/
import proofs.«149225_j36197984371493_1_alg».proof.Proof.Gen.KernelIdeal.Frame
import proofs.«149225_j36197984371493_1_alg».proof.Proof.MeanLaw
import Idealize.ShloMosaic.Lib.Pipeline.Value

set_option maxRecDepth 16384

noncomputable section

namespace Cert.KernelIdeal.Hand.Call2

open Cert.KernelIdeal Cert.KernelIdeal.Gen Cert.Hand.MeanLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! ## The body's two stored values at an entry of the block -/

/-- The first stored value at row `j 0`, column `j 1`: the sums' entry times the column's entry of that row. -/
theorem embed_at (x0 : FVec Ideal S4000x64 .f32) (x1 : FVec Ideal S4000x1 .f32) (j : S4000x64.Idx) :
    k2_pay1 x0 x1 j = x0 j * x1 (ix2 (n0 := 4000) (n1 := 1) (j 0) 0) := by
  unfold k2_pay1
  show shapeCast S4000x64 x0 shapeCasts_S4000x64_S4000x64 j
      * broadcastTo S4000x64 (shapeCast S4000x1 x1 shapeCasts_S4000x1_S4000x1) broadcasts_S4000x1_S4000x64 j = _
  rw [shapeCast_self, shapeCast_self,
    broadcastTo_apply x1 broadcasts_S4000x1_S4000x64 j (ix2 (n0 := 4000) (n1 := 1) (j 0) 0)
      (fun a => by match a with | ⟨0, _⟩ => rfl | ⟨1, _⟩ => rfl)]

/-- The second stored value: the total's entry plus a quarter of the first stored value's. -/
theorem total_at (x0 : FVec Ideal S4000x64 .f32) (x1 : FVec Ideal S4000x1 .f32) (x7 : FVec Ideal S4000x64 .f32) (j : S4000x64.Idx) :
    k2_pay2 x0 x1 x7 j = x7 j + k2_pay1 x0 x1 j * Ideal.ofBits .f32 0x3E800000#32 := by
  unfold k2_pay2
  show addf (shapeCast S4000x64 x7 shapeCasts_S4000x64_S4000x64)
      (mulf (k2_pay1 x0 x1) (broadcast S4000x64 (Scalar.ofBits (F := Ideal) .f32 0x3E800000#32))) j = _
  rw [shapeCast_self]
  rfl

/-! ## Where a block sits in its array -/

/-- The printed index maps over the grid: every window's block `t` is block row `t`, block column 0. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The sums' block at point `t` read at `j` is the array's entry `4000·t` rows further down. -/
theorem sums_block (c : Dev nD) (t : Fin cfg2.N) (j : S4000x64.Idx) (i : S200000x64.Idx)
    (h0 : (i 0).val = t.val * 4000 + (j 0).val) (h1 : (i 1).val = (j 1).val) :
    (iblk2 V c 0 t : FVec Ideal S4000x64 .f32) j = (V c main_v37 : FVec Ideal S200000x64 .f32) i := by
  obtain ⟨e0, e1, -⟩ := block_index t
  unfold iblk2
  rw [View.read_apply]
  show V c main_v37 _ = V c main_v37 i
  refine congrArg (V c main_v37) (funext fun a => Fin.ext ?_)
  match a with
  | ⟨0, _⟩ => show win2_0.index t (0 : Fin 2) * 4000 + 1 * (j 0).val = (i 0).val; rw [e0, h0]; omega
  | ⟨1, _⟩ => show win2_0.index t (1 : Fin 2) * 64 + 1 * (j 1).val = (i 1).val; rw [e1, h1]; omega

/-- The column's block likewise. -/
theorem col_block (c : Dev nD) (t : Fin cfg2.N) (j : S4000x1.Idx) (i : S200000x1.Idx)
    (h0 : (i 0).val = t.val * 4000 + (j 0).val) (h1 : (i 1).val = (j 1).val) :
    (iblk2 V c 1 t : FVec Ideal S4000x1 .f32) j = (V c main_v10 : FVec Ideal S200000x1 .f32) i := by
  obtain ⟨-, -, e0, e1, -⟩ := block_index t
  unfold iblk2
  rw [View.read_apply]
  show V c main_v10 _ = V c main_v10 i
  refine congrArg (V c main_v10) (funext fun a => Fin.ext ?_)
  match a with
  | ⟨0, _⟩ => show win2_1.index t (0 : Fin 2) * 4000 + 1 * (j 0).val = (i 0).val; rw [e0, h0]; omega
  | ⟨1, _⟩ => show win2_1.index t (1 : Fin 2) * 1 + 1 * (j 1).val = (i 1).val; rw [e1, h1]; omega

/-- The running total's block likewise. -/
theorem total_block (c : Dev nD) (t : Fin cfg2.N) (j : S4000x64.Idx) (i : S200000x64.Idx)
    (h0 : (i 0).val = t.val * 4000 + (j 0).val) (h1 : (i 1).val = (j 1).val) :
    (iblk2 V c 2 t : FVec Ideal S4000x64 .f32) j = (V c main_v22 : FVec Ideal S200000x64 .f32) i := by
  obtain ⟨-, -, -, -, e0, e1, -⟩ := block_index t
  unfold iblk2
  rw [View.read_apply]
  show V c main_v22 _ = V c main_v22 i
  refine congrArg (V c main_v22) (funext fun a => Fin.ext ?_)
  match a with
  | ⟨0, _⟩ => show win2_2.index t (0 : Fin 2) * 4000 + 1 * (j 0).val = (i 0).val; rw [e0, h0]; omega
  | ⟨1, _⟩ => show win2_2.index t (1 : Fin 2) * 64 + 1 * (j 1).val = (i 1).val; rw [e1, h1]; omega

/-! ## What a point writes back, the cover, and the arrays after the call -/

/-- Entry `j` of the first result's block `t` is row `4000·t + j 0`, column `j 1` of its array. -/
theorem embed_entry (t : Fin cfg2.N) (j : S4000x64.Idx) (i : S200000x64.Idx) (hi : i = ((cfg2.win 3).blk t).view.emb j) :
    (i 0).val = t.val * 4000 + (j 0).val ∧ (i 1).val = (j 1).val := by
  obtain ⟨-, -, -, -, -, -, e0, e1, -⟩ := block_index t
  subst hi
  constructor
  · show win2_3.index t (0 : Fin 2) * 4000 + 1 * (j 0).val = _; rw [e0]; omega
  · show win2_3.index t (1 : Fin 2) * 64 + 1 * (j 1).val = _; rw [e1]; omega

/-- The same for the second result's block. -/
theorem total_entry (t : Fin cfg2.N) (j : S4000x64.Idx) (i : S200000x64.Idx) (hi : i = ((cfg2.win 4).blk t).view.emb j) :
    (i 0).val = t.val * 4000 + (j 0).val ∧ (i 1).val = (j 1).val := by
  obtain ⟨-, -, -, -, -, -, -, -, e0, e1⟩ := block_index t
  subst hi
  constructor
  · show win2_4.index t (0 : Fin 2) * 4000 + 1 * (j 0).val = _; rw [e0]; omega
  · show win2_4.index t (1 : Fin 2) * 64 + 1 * (j 1).val = _; rw [e1]; omega

/-- Point `t` writes back, as the first result's block, block `t` of the sums' rows scaled by the column. -/
theorem embed_flushed (c : Dev nD) (t : Fin cfg2.N) :
    (dat2 V c).flushed 3 t = ((cfg2.win 3).blk t).view.read (Elt Ideal) (scaleRowsU (V c main_v37) (V c main_v10)) := by
  show (cfg2.win 3).cut (grid2.coords t) ((dat2 V c).after 3 t) = _
  rw [after2_3]
  unfold out2_3
  rw [View.canon_unit_zero origin]
  simp only [View.ld_unit_zero (S := S4000x64) origin, View.ld_unit_zero (S := S4000x1) origin]
  funext j
  obtain ⟨i, hi⟩ : ∃ i : S200000x64.Idx, i = ((cfg2.win 3).blk t).view.emb j := ⟨_, rfl⟩
  obtain ⟨h0, h1⟩ := embed_entry t j i hi
  show k2_pay1 (iblk2 V c 0 t) (iblk2 V c 1 t) j
    = scaleRowsU (V c main_v37) (V c main_v10) (((cfg2.win 3).blk t).view.emb j)
  rw [← hi]
  refine (embed_at _ _ j).trans ?_
  unfold scaleRowsU
  rw [sums_block V c t j i h0 h1,
    col_block V c t (ix2 (n0 := 4000) (n1 := 1) (j 0) 0) (ix2 (n0 := 200000) (n1 := 1) (i 0) 0) h0 rfl]

/-- Point `t` writes back, as the second result's block, block `t` of the total plus a quarter of those rows. -/
theorem total_flushed (c : Dev nD) (t : Fin cfg2.N) :
    (dat2 V c).flushed 4 t = ((cfg2.win 4).blk t).view.read (Elt Ideal)
      (accumU (V c main_v22) (scaleRowsU (V c main_v37) (V c main_v10))) := by
  show (cfg2.win 4).cut (grid2.coords t) ((dat2 V c).after 4 t) = _
  rw [after2_4]
  unfold out2_4
  rw [View.canon_unit_zero origin]
  simp only [View.ld_unit_zero (S := S4000x64) origin, View.ld_unit_zero (S := S4000x1) origin]
  funext j
  obtain ⟨i, hi⟩ : ∃ i : S200000x64.Idx, i = ((cfg2.win 4).blk t).view.emb j := ⟨_, rfl⟩
  obtain ⟨h0, h1⟩ := total_entry t j i hi
  show k2_pay2 (iblk2 V c 0 t) (iblk2 V c 1 t) (iblk2 V c 2 t) j
    = accumU (V c main_v22) (scaleRowsU (V c main_v37) (V c main_v10)) (((cfg2.win 4).blk t).view.emb j)
  rw [← hi]
  refine (total_at _ _ _ j).trans ?_
  unfold accumU scaleRowsU
  rw [embed_at, sums_block V c t j i h0 h1,
    col_block V c t (ix2 (n0 := 4000) (n1 := 1) (j 0) 0) (ix2 (n0 := 200000) (n1 := 1) (i 0) 0) h0 rfl,
    total_block V c t j i h0 h1]

/-- Every entry of the first result lies in the block of the point `row / 4000`. -/
theorem embed_cover (i : S200000x64.Idx) :
    ∃ t : Fin cfg2.N, (cfg2.win 3).flush t = true ∧ i ∈ ((cfg2.win 3).blk t).view.set := by
  have hr : (i 0).val < 200000 := (i 0).isLt
  have hc : (i 1).val < 64 := (i 1).isLt
  have hN : cfg2.N = 50 := N_2
  obtain ⟨t, ht⟩ : ∃ t : Fin cfg2.N, t.val = (i 0).val / 4000 := ⟨⟨(i 0).val / 4000, by rw [hN]; omega⟩, rfl⟩
  obtain ⟨-, -, -, -, -, -, e0, e1, -⟩ := block_index t
  refine ⟨t, flush2_3 t, ?_⟩
  show i ∈ ((View.whole main_v38_0).slice (win2_3.rect t)).set
  rw [View.set_slice_whole, Rect.mem_set_unit]
  intro a
  match a with
  | ⟨0, _⟩ =>
    show win2_3.index t (0 : Fin 2) * 4000 ≤ (i 0).val ∧ (i 0).val < win2_3.index t (0 : Fin 2) * 4000 + 4000
    rw [e0, ht]; omega
  | ⟨1, _⟩ =>
    show win2_3.index t (1 : Fin 2) * 64 ≤ (i 1).val ∧ (i 1).val < win2_3.index t (1 : Fin 2) * 64 + 64
    rw [e1]; omega

/-- And of the second result likewise. -/
theorem total_cover (i : S200000x64.Idx) :
    ∃ t : Fin cfg2.N, (cfg2.win 4).flush t = true ∧ i ∈ ((cfg2.win 4).blk t).view.set := by
  have hr : (i 0).val < 200000 := (i 0).isLt
  have hc : (i 1).val < 64 := (i 1).isLt
  have hN : cfg2.N = 50 := N_2
  obtain ⟨t, ht⟩ : ∃ t : Fin cfg2.N, t.val = (i 0).val / 4000 := ⟨⟨(i 0).val / 4000, by rw [hN]; omega⟩, rfl⟩
  obtain ⟨-, -, -, -, -, -, -, -, e0, e1⟩ := block_index t
  refine ⟨t, flush2_4 t, ?_⟩
  show i ∈ ((View.whole main_v38_1).slice (win2_4.rect t)).set
  rw [View.set_slice_whole, Rect.mem_set_unit]
  intro a
  match a with
  | ⟨0, _⟩ =>
    show win2_4.index t (0 : Fin 2) * 4000 ≤ (i 0).val ∧ (i 0).val < win2_4.index t (0 : Fin 2) * 4000 + 4000
    rw [e0, ht]; omega
  | ⟨1, _⟩ =>
    show win2_4.index t (1 : Fin 2) * 64 ≤ (i 1).val ∧ (i 1).val < win2_4.index t (1 : Fin 2) * 64 + 64
    rw [e1]; omega

/-- After the call the first result array holds the sums' rows scaled by the reciprocal-count column. -/
theorem embed_array (c : Dev nD) :
    (dat2 V c).arrAt 3 cfg2.N = scaleRowsU (V c main_v37) (V c main_v10) :=
  (dat2 V c).arrAt_eq_of_cover 3 (scaleRowsU (V c main_v37) (V c main_v10)) (fun t _ => embed_flushed V c t) embed_cover

/-- After the call the second result array holds the running total plus a quarter of the layer's embeddings. -/
theorem total_array (c : Dev nD) :
    (dat2 V c).arrAt 4 cfg2.N = accumU (V c main_v22) (scaleRowsU (V c main_v37) (V c main_v10)) :=
  (dat2 V c).arrAt_eq_of_cover 4 (accumU (V c main_v22) (scaleRowsU (V c main_v37) (V c main_v10)))
    (fun t _ => total_flushed V c t) total_cover

end Cert.KernelIdeal.Hand.Call2

end
-- ==== Proof.Call3.lean ====
/-
  Call 3: one normalise-and-accumulate step on the artist side, read as whole arrays.

  The call walks the 50000 rows in 25 blocks of 2000. At a block it loads the block of summed messages, the block of
  the reciprocal-count column and the block of the running total; it stores the sums' rows scaled by the column (the
  layer's embeddings) into its first result and the total plus a quarter of those embeddings into its second. Block
  `t` of every window starts at row `2000·t`, so each result array ends as ONE function of the three arrays the
  call found: `scaleRowsA` of the sums and the column, and `accumA` of the total and that.
-/
import proofs.«149225_j36197984371493_1_alg».proof.Proof.Gen.KernelIdeal.Frame
import proofs.«149225_j36197984371493_1_alg».proof.Proof.MeanLaw
import Idealize.ShloMosaic.Lib.Pipeline.Value

set_option maxRecDepth 16384

noncomputable section

namespace Cert.KernelIdeal.Hand.Call3

open Cert.KernelIdeal Cert.KernelIdeal.Gen Cert.Hand.MeanLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! ## The body's two stored values at an entry of the block -/

/-- The first stored value at row `j 0`, column `j 1`: the sums' entry times the column's entry of that row. -/
theorem embed_at (x0 : FVec Ideal S2000x64 .f32) (x1 : FVec Ideal S2000x1 .f32) (j : S2000x64.Idx) :
    k3_pay1 x0 x1 j = x0 j * x1 (ix2 (n0 := 2000) (n1 := 1) (j 0) 0) := by
  unfold k3_pay1
  show shapeCast S2000x64 x0 shapeCasts_S2000x64_S2000x64 j
      * broadcastTo S2000x64 (shapeCast S2000x1 x1 shapeCasts_S2000x1_S2000x1) broadcasts_S2000x1_S2000x64 j = _
  rw [shapeCast_self, shapeCast_self,
    broadcastTo_apply x1 broadcasts_S2000x1_S2000x64 j (ix2 (n0 := 2000) (n1 := 1) (j 0) 0)
      (fun a => by match a with | ⟨0, _⟩ => rfl | ⟨1, _⟩ => rfl)]

/-- The second stored value: the total's entry plus a quarter of the first stored value's. -/
theorem total_at (x0 : FVec Ideal S2000x64 .f32) (x1 : FVec Ideal S2000x1 .f32) (x7 : FVec Ideal S2000x64 .f32) (j : S2000x64.Idx) :
    k3_pay2 x0 x1 x7 j = x7 j + k3_pay1 x0 x1 j * Ideal.ofBits .f32 0x3E800000#32 := by
  unfold k3_pay2
  show addf (shapeCast S2000x64 x7 shapeCasts_S2000x64_S2000x64)
      (mulf (k3_pay1 x0 x1) (broadcast S2000x64 (Scalar.ofBits (F := Ideal) .f32 0x3E800000#32))) j = _
  rw [shapeCast_self]
  rfl

/-! ## Where a block sits in its array -/

/-- The printed index maps over the grid: every window's block `t` is block row `t`, block column 0. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The sums' block at point `t` read at `j` is the array's entry `2000·t` rows further down. -/
theorem sums_block (c : Dev nD) (t : Fin cfg3.N) (j : S2000x64.Idx) (i : S50000x64.Idx)
    (h0 : (i 0).val = t.val * 2000 + (j 0).val) (h1 : (i 1).val = (j 1).val) :
    (iblk3 V c 0 t : FVec Ideal S2000x64 .f32) j = (V c main_v52 : FVec Ideal S50000x64 .f32) i := by
  obtain ⟨e0, e1, -⟩ := block_index t
  unfold iblk3
  rw [View.read_apply]
  show V c main_v52 _ = V c main_v52 i
  refine congrArg (V c main_v52) (funext fun a => Fin.ext ?_)
  match a with
  | ⟨0, _⟩ => show win3_0.index t (0 : Fin 2) * 2000 + 1 * (j 0).val = (i 0).val; rw [e0, h0]; omega
  | ⟨1, _⟩ => show win3_0.index t (1 : Fin 2) * 64 + 1 * (j 1).val = (i 1).val; rw [e1, h1]; omega

/-- The column's block likewise. -/
theorem col_block (c : Dev nD) (t : Fin cfg3.N) (j : S2000x1.Idx) (i : S50000x1.Idx)
    (h0 : (i 0).val = t.val * 2000 + (j 0).val) (h1 : (i 1).val = (j 1).val) :
    (iblk3 V c 1 t : FVec Ideal S2000x1 .f32) j = (V c main_v21 : FVec Ideal S50000x1 .f32) i := by
  obtain ⟨-, -, e0, e1, -⟩ := block_index t
  unfold iblk3
  rw [View.read_apply]
  show V c main_v21 _ = V c main_v21 i
  refine congrArg (V c main_v21) (funext fun a => Fin.ext ?_)
  match a with
  | ⟨0, _⟩ => show win3_1.index t (0 : Fin 2) * 2000 + 1 * (j 0).val = (i 0).val; rw [e0, h0]; omega
  | ⟨1, _⟩ => show win3_1.index t (1 : Fin 2) * 1 + 1 * (j 1).val = (i 1).val; rw [e1, h1]; omega

/-- The running total's block likewise. -/
theorem total_block (c : Dev nD) (t : Fin cfg3.N) (j : S2000x64.Idx) (i : S50000x64.Idx)
    (h0 : (i 0).val = t.val * 2000 + (j 0).val) (h1 : (i 1).val = (j 1).val) :
    (iblk3 V c 2 t : FVec Ideal S2000x64 .f32) j = (V c main_v23 : FVec Ideal S50000x64 .f32) i := by
  obtain ⟨-, -, -, -, e0, e1, -⟩ := block_index t
  unfold iblk3
  rw [View.read_apply]
  show V c main_v23 _ = V c main_v23 i
  refine congrArg (V c main_v23) (funext fun a => Fin.ext ?_)
  match a with
  | ⟨0, _⟩ => show win3_2.index t (0 : Fin 2) * 2000 + 1 * (j 0).val = (i 0).val; rw [e0, h0]; omega
  | ⟨1, _⟩ => show win3_2.index t (1 : Fin 2) * 64 + 1 * (j 1).val = (i 1).val; rw [e1, h1]; omega

/-! ## What a point writes back, the cover, and the arrays after the call -/

/-- Entry `j` of the first result's block `t` is row `2000·t + j 0`, column `j 1` of its array. -/
theorem embed_entry (t : Fin cfg3.N) (j : S2000x64.Idx) (i : S50000x64.Idx) (hi : i = ((cfg3.win 3).blk t).view.emb j) :
    (i 0).val = t.val * 2000 + (j 0).val ∧ (i 1).val = (j 1).val := by
  obtain ⟨-, -, -, -, -, -, e0, e1, -⟩ := block_index t
  subst hi
  constructor
  · show win3_3.index t (0 : Fin 2) * 2000 + 1 * (j 0).val = _; rw [e0]; omega
  · show win3_3.index t (1 : Fin 2) * 64 + 1 * (j 1).val = _; rw [e1]; omega

/-- The same for the second result's block. -/
theorem total_entry (t : Fin cfg3.N) (j : S2000x64.Idx) (i : S50000x64.Idx) (hi : i = ((cfg3.win 4).blk t).view.emb j) :
    (i 0).val = t.val * 2000 + (j 0).val ∧ (i 1).val = (j 1).val := by
  obtain ⟨-, -, -, -, -, -, -, -, e0, e1⟩ := block_index t
  subst hi
  constructor
  · show win3_4.index t (0 : Fin 2) * 2000 + 1 * (j 0).val = _; rw [e0]; omega
  · show win3_4.index t (1 : Fin 2) * 64 + 1 * (j 1).val = _; rw [e1]; omega

/-- Point `t` writes back, as the first result's block, block `t` of the sums' rows scaled by the column. -/
theorem embed_flushed (c : Dev nD) (t : Fin cfg3.N) :
    (dat3 V c).flushed 3 t = ((cfg3.win 3).blk t).view.read (Elt Ideal) (scaleRowsA (V c main_v52) (V c main_v21)) := by
  show (cfg3.win 3).cut (grid3.coords t) ((dat3 V c).after 3 t) = _
  rw [after3_3]
  unfold out3_3
  rw [View.canon_unit_zero origin]
  simp only [View.ld_unit_zero (S := S2000x64) origin, View.ld_unit_zero (S := S2000x1) origin]
  funext j
  obtain ⟨i, hi⟩ : ∃ i : S50000x64.Idx, i = ((cfg3.win 3).blk t).view.emb j := ⟨_, rfl⟩
  obtain ⟨h0, h1⟩ := embed_entry t j i hi
  show k3_pay1 (iblk3 V c 0 t) (iblk3 V c 1 t) j
    = scaleRowsA (V c main_v52) (V c main_v21) (((cfg3.win 3).blk t).view.emb j)
  rw [← hi]
  refine (embed_at _ _ j).trans ?_
  unfold scaleRowsA
  rw [sums_block V c t j i h0 h1,
    col_block V c t (ix2 (n0 := 2000) (n1 := 1) (j 0) 0) (ix2 (n0 := 50000) (n1 := 1) (i 0) 0) h0 rfl]

/-- Point `t` writes back, as the second result's block, block `t` of the total plus a quarter of those rows. -/
theorem total_flushed (c : Dev nD) (t : Fin cfg3.N) :
    (dat3 V c).flushed 4 t = ((cfg3.win 4).blk t).view.read (Elt Ideal)
      (accumA (V c main_v23) (scaleRowsA (V c main_v52) (V c main_v21))) := by
  show (cfg3.win 4).cut (grid3.coords t) ((dat3 V c).after 4 t) = _
  rw [after3_4]
  unfold out3_4
  rw [View.canon_unit_zero origin]
  simp only [View.ld_unit_zero (S := S2000x64) origin, View.ld_unit_zero (S := S2000x1) origin]
  funext j
  obtain ⟨i, hi⟩ : ∃ i : S50000x64.Idx, i = ((cfg3.win 4).blk t).view.emb j := ⟨_, rfl⟩
  obtain ⟨h0, h1⟩ := total_entry t j i hi
  show k3_pay2 (iblk3 V c 0 t) (iblk3 V c 1 t) (iblk3 V c 2 t) j
    = accumA (V c main_v23) (scaleRowsA (V c main_v52) (V c main_v21)) (((cfg3.win 4).blk t).view.emb j)
  rw [← hi]
  refine (total_at _ _ _ j).trans ?_
  unfold accumA scaleRowsA
  rw [embed_at, sums_block V c t j i h0 h1,
    col_block V c t (ix2 (n0 := 2000) (n1 := 1) (j 0) 0) (ix2 (n0 := 50000) (n1 := 1) (i 0) 0) h0 rfl,
    total_block V c t j i h0 h1]

/-- Every entry of the first result lies in the block of the point `row / 2000`. -/
theorem embed_cover (i : S50000x64.Idx) :
    ∃ t : Fin cfg3.N, (cfg3.win 3).flush t = true ∧ i ∈ ((cfg3.win 3).blk t).view.set := by
  have hr : (i 0).val < 50000 := (i 0).isLt
  have hc : (i 1).val < 64 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, e0, e1, -⟩ := block_index t
  refine ⟨t, flush3_3 t, ?_⟩
  show i ∈ ((View.whole main_v53_0).slice (win3_3.rect t)).set
  rw [View.set_slice_whole, Rect.mem_set_unit]
  intro a
  match a with
  | ⟨0, _⟩ =>
    show win3_3.index t (0 : Fin 2) * 2000 ≤ (i 0).val ∧ (i 0).val < win3_3.index t (0 : Fin 2) * 2000 + 2000
    rw [e0, ht]; omega
  | ⟨1, _⟩ =>
    show win3_3.index t (1 : Fin 2) * 64 ≤ (i 1).val ∧ (i 1).val < win3_3.index t (1 : Fin 2) * 64 + 64
    rw [e1]; omega

/-- And of the second result likewise. -/
theorem total_cover (i : S50000x64.Idx) :
    ∃ t : Fin cfg3.N, (cfg3.win 4).flush t = true ∧ i ∈ ((cfg3.win 4).blk t).view.set := by
  have hr : (i 0).val < 50000 := (i 0).isLt
  have hc : (i 1).val < 64 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, e0, e1⟩ := block_index t
  refine ⟨t, flush3_4 t, ?_⟩
  show i ∈ ((View.whole main_v53_1).slice (win3_4.rect t)).set
  rw [View.set_slice_whole, Rect.mem_set_unit]
  intro a
  match a with
  | ⟨0, _⟩ =>
    show win3_4.index t (0 : Fin 2) * 2000 ≤ (i 0).val ∧ (i 0).val < win3_4.index t (0 : Fin 2) * 2000 + 2000
    rw [e0, ht]; omega
  | ⟨1, _⟩ =>
    show win3_4.index t (1 : Fin 2) * 64 ≤ (i 1).val ∧ (i 1).val < win3_4.index t (1 : Fin 2) * 64 + 64
    rw [e1]; omega

/-- After the call the first result array holds the sums' rows scaled by the reciprocal-count column. -/
theorem embed_array (c : Dev nD) :
    (dat3 V c).arrAt 3 cfg3.N = scaleRowsA (V c main_v52) (V c main_v21) :=
  (dat3 V c).arrAt_eq_of_cover 3 (scaleRowsA (V c main_v52) (V c main_v21)) (fun t _ => embed_flushed V c t) embed_cover

/-- After the call the second result array holds the running total plus a quarter of the layer's embeddings. -/
theorem total_array (c : Dev nD) :
    (dat3 V c).arrAt 4 cfg3.N = accumA (V c main_v23) (scaleRowsA (V c main_v52) (V c main_v21)) :=
  (dat3 V c).arrAt_eq_of_cover 4 (accumA (V c main_v23) (scaleRowsA (V c main_v52) (V c main_v21)))
    (fun t _ => total_flushed V c t) total_cover

end Cert.KernelIdeal.Hand.Call3

end
-- ==== Proof.Call4.lean ====
/-
  Call 4: one normalise-and-accumulate step on the user side, read as whole arrays.

  The call walks the 200000 rows in 50 blocks of 4000. At a block it loads the block of summed messages, the block of
  the reciprocal-count column and the block of the running total; it stores the sums' rows scaled by the column (the
  layer's embeddings) into its first result and the total plus a quarter of those embeddings into its second. Block
  `t` of every window starts at row `4000·t`, so each result array ends as ONE function of the three arrays the
  call found: `scaleRowsU` of the sums and the column, and `accumU` of the total and that.
-/
import proofs.«149225_j36197984371493_1_alg».proof.Proof.Gen.KernelIdeal.Frame
import proofs.«149225_j36197984371493_1_alg».proof.Proof.MeanLaw
import Idealize.ShloMosaic.Lib.Pipeline.Value

set_option maxRecDepth 16384

noncomputable section

namespace Cert.KernelIdeal.Hand.Call4

open Cert.KernelIdeal Cert.KernelIdeal.Gen Cert.Hand.MeanLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! ## The body's two stored values at an entry of the block -/

/-- The first stored value at row `j 0`, column `j 1`: the sums' entry times the column's entry of that row. -/
theorem embed_at (x0 : FVec Ideal S4000x64 .f32) (x1 : FVec Ideal S4000x1 .f32) (j : S4000x64.Idx) :
    k4_pay1 x0 x1 j = x0 j * x1 (ix2 (n0 := 4000) (n1 := 1) (j 0) 0) := by
  unfold k4_pay1
  show shapeCast S4000x64 x0 shapeCasts_S4000x64_S4000x64 j
      * broadcastTo S4000x64 (shapeCast S4000x1 x1 shapeCasts_S4000x1_S4000x1) broadcasts_S4000x1_S4000x64 j = _
  rw [shapeCast_self, shapeCast_self,
    broadcastTo_apply x1 broadcasts_S4000x1_S4000x64 j (ix2 (n0 := 4000) (n1 := 1) (j 0) 0)
      (fun a => by match a with | ⟨0, _⟩ => rfl | ⟨1, _⟩ => rfl)]

/-- The second stored value: the total's entry plus a quarter of the first stored value's. -/
theorem total_at (x0 : FVec Ideal S4000x64 .f32) (x1 : FVec Ideal S4000x1 .f32) (x7 : FVec Ideal S4000x64 .f32) (j : S4000x64.Idx) :
    k4_pay2 x0 x1 x7 j = x7 j + k4_pay1 x0 x1 j * Ideal.ofBits .f32 0x3E800000#32 := by
  unfold k4_pay2
  show addf (shapeCast S4000x64 x7 shapeCasts_S4000x64_S4000x64)
      (mulf (k4_pay1 x0 x1) (broadcast S4000x64 (Scalar.ofBits (F := Ideal) .f32 0x3E800000#32))) j = _
  rw [shapeCast_self]
  rfl

/-! ## Where a block sits in its array -/

/-- The printed index maps over the grid: every window's block `t` is block row `t`, block column 0. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The sums' block at point `t` read at `j` is the array's entry `4000·t` rows further down. -/
theorem sums_block (c : Dev nD) (t : Fin cfg4.N) (j : S4000x64.Idx) (i : S200000x64.Idx)
    (h0 : (i 0).val = t.val * 4000 + (j 0).val) (h1 : (i 1).val = (j 1).val) :
    (iblk4 V c 0 t : FVec Ideal S4000x64 .f32) j = (V c main_v67 : FVec Ideal S200000x64 .f32) i := by
  obtain ⟨e0, e1, -⟩ := block_index t
  unfold iblk4
  rw [View.read_apply]
  show V c main_v67 _ = V c main_v67 i
  refine congrArg (V c main_v67) (funext fun a => Fin.ext ?_)
  match a with
  | ⟨0, _⟩ => show win4_0.index t (0 : Fin 2) * 4000 + 1 * (j 0).val = (i 0).val; rw [e0, h0]; omega
  | ⟨1, _⟩ => show win4_0.index t (1 : Fin 2) * 64 + 1 * (j 1).val = (i 1).val; rw [e1, h1]; omega

/-- The column's block likewise. -/
theorem col_block (c : Dev nD) (t : Fin cfg4.N) (j : S4000x1.Idx) (i : S200000x1.Idx)
    (h0 : (i 0).val = t.val * 4000 + (j 0).val) (h1 : (i 1).val = (j 1).val) :
    (iblk4 V c 1 t : FVec Ideal S4000x1 .f32) j = (V c main_v10 : FVec Ideal S200000x1 .f32) i := by
  obtain ⟨-, -, e0, e1, -⟩ := block_index t
  unfold iblk4
  rw [View.read_apply]
  show V c main_v10 _ = V c main_v10 i
  refine congrArg (V c main_v10) (funext fun a => Fin.ext ?_)
  match a with
  | ⟨0, _⟩ => show win4_1.index t (0 : Fin 2) * 4000 + 1 * (j 0).val = (i 0).val; rw [e0, h0]; omega
  | ⟨1, _⟩ => show win4_1.index t (1 : Fin 2) * 1 + 1 * (j 1).val = (i 1).val; rw [e1, h1]; omega

/-- The running total's block likewise. -/
theorem total_block (c : Dev nD) (t : Fin cfg4.N) (j : S4000x64.Idx) (i : S200000x64.Idx)
    (h0 : (i 0).val = t.val * 4000 + (j 0).val) (h1 : (i 1).val = (j 1).val) :
    (iblk4 V c 2 t : FVec Ideal S4000x64 .f32) j = (V c main_v38_1 : FVec Ideal S200000x64 .f32) i := by
  obtain ⟨-, -, -, -, e0, e1, -⟩ := block_index t
  unfold iblk4
  rw [View.read_apply]
  show V c main_v38_1 _ = V c main_v38_1 i
  refine congrArg (V c main_v38_1) (funext fun a => Fin.ext ?_)
  match a with
  | ⟨0, _⟩ => show win4_2.index t (0 : Fin 2) * 4000 + 1 * (j 0).val = (i 0).val; rw [e0, h0]; omega
  | ⟨1, _⟩ => show win4_2.index t (1 : Fin 2) * 64 + 1 * (j 1).val = (i 1).val; rw [e1, h1]; omega

/-! ## What a point writes back, the cover, and the arrays after the call -/

/-- Entry `j` of the first result's block `t` is row `4000·t + j 0`, column `j 1` of its array. -/
theorem embed_entry (t : Fin cfg4.N) (j : S4000x64.Idx) (i : S200000x64.Idx) (hi : i = ((cfg4.win 3).blk t).view.emb j) :
    (i 0).val = t.val * 4000 + (j 0).val ∧ (i 1).val = (j 1).val := by
  obtain ⟨-, -, -, -, -, -, e0, e1, -⟩ := block_index t
  subst hi
  constructor
  · show win4_3.index t (0 : Fin 2) * 4000 + 1 * (j 0).val = _; rw [e0]; omega
  · show win4_3.index t (1 : Fin 2) * 64 + 1 * (j 1).val = _; rw [e1]; omega

/-- The same for the second result's block. -/
theorem total_entry (t : Fin cfg4.N) (j : S4000x64.Idx) (i : S200000x64.Idx) (hi : i = ((cfg4.win 4).blk t).view.emb j) :
    (i 0).val = t.val * 4000 + (j 0).val ∧ (i 1).val = (j 1).val := by
  obtain ⟨-, -, -, -, -, -, -, -, e0, e1⟩ := block_index t
  subst hi
  constructor
  · show win4_4.index t (0 : Fin 2) * 4000 + 1 * (j 0).val = _; rw [e0]; omega
  · show win4_4.index t (1 : Fin 2) * 64 + 1 * (j 1).val = _; rw [e1]; omega

/-- Point `t` writes back, as the first result's block, block `t` of the sums' rows scaled by the column. -/
theorem embed_flushed (c : Dev nD) (t : Fin cfg4.N) :
    (dat4 V c).flushed 3 t = ((cfg4.win 3).blk t).view.read (Elt Ideal) (scaleRowsU (V c main_v67) (V c main_v10)) := by
  show (cfg4.win 3).cut (grid4.coords t) ((dat4 V c).after 3 t) = _
  rw [after4_3]
  unfold out4_3
  rw [View.canon_unit_zero origin]
  simp only [View.ld_unit_zero (S := S4000x64) origin, View.ld_unit_zero (S := S4000x1) origin]
  funext j
  obtain ⟨i, hi⟩ : ∃ i : S200000x64.Idx, i = ((cfg4.win 3).blk t).view.emb j := ⟨_, rfl⟩
  obtain ⟨h0, h1⟩ := embed_entry t j i hi
  show k4_pay1 (iblk4 V c 0 t) (iblk4 V c 1 t) j
    = scaleRowsU (V c main_v67) (V c main_v10) (((cfg4.win 3).blk t).view.emb j)
  rw [← hi]
  refine (embed_at _ _ j).trans ?_
  unfold scaleRowsU
  rw [sums_block V c t j i h0 h1,
    col_block V c t (ix2 (n0 := 4000) (n1 := 1) (j 0) 0) (ix2 (n0 := 200000) (n1 := 1) (i 0) 0) h0 rfl]

/-- Point `t` writes back, as the second result's block, block `t` of the total plus a quarter of those rows. -/
theorem total_flushed (c : Dev nD) (t : Fin cfg4.N) :
    (dat4 V c).flushed 4 t = ((cfg4.win 4).blk t).view.read (Elt Ideal)
      (accumU (V c main_v38_1) (scaleRowsU (V c main_v67) (V c main_v10))) := by
  show (cfg4.win 4).cut (grid4.coords t) ((dat4 V c).after 4 t) = _
  rw [after4_4]
  unfold out4_4
  rw [View.canon_unit_zero origin]
  simp only [View.ld_unit_zero (S := S4000x64) origin, View.ld_unit_zero (S := S4000x1) origin]
  funext j
  obtain ⟨i, hi⟩ : ∃ i : S200000x64.Idx, i = ((cfg4.win 4).blk t).view.emb j := ⟨_, rfl⟩
  obtain ⟨h0, h1⟩ := total_entry t j i hi
  show k4_pay2 (iblk4 V c 0 t) (iblk4 V c 1 t) (iblk4 V c 2 t) j
    = accumU (V c main_v38_1) (scaleRowsU (V c main_v67) (V c main_v10)) (((cfg4.win 4).blk t).view.emb j)
  rw [← hi]
  refine (total_at _ _ _ j).trans ?_
  unfold accumU scaleRowsU
  rw [embed_at, sums_block V c t j i h0 h1,
    col_block V c t (ix2 (n0 := 4000) (n1 := 1) (j 0) 0) (ix2 (n0 := 200000) (n1 := 1) (i 0) 0) h0 rfl,
    total_block V c t j i h0 h1]

/-- Every entry of the first result lies in the block of the point `row / 4000`. -/
theorem embed_cover (i : S200000x64.Idx) :
    ∃ t : Fin cfg4.N, (cfg4.win 3).flush t = true ∧ i ∈ ((cfg4.win 3).blk t).view.set := by
  have hr : (i 0).val < 200000 := (i 0).isLt
  have hc : (i 1).val < 64 := (i 1).isLt
  have hN : cfg4.N = 50 := N_4
  obtain ⟨t, ht⟩ : ∃ t : Fin cfg4.N, t.val = (i 0).val / 4000 := ⟨⟨(i 0).val / 4000, by rw [hN]; omega⟩, rfl⟩
  obtain ⟨-, -, -, -, -, -, e0, e1, -⟩ := block_index t
  refine ⟨t, flush4_3 t, ?_⟩
  show i ∈ ((View.whole main_v68_0).slice (win4_3.rect t)).set
  rw [View.set_slice_whole, Rect.mem_set_unit]
  intro a
  match a with
  | ⟨0, _⟩ =>
    show win4_3.index t (0 : Fin 2) * 4000 ≤ (i 0).val ∧ (i 0).val < win4_3.index t (0 : Fin 2) * 4000 + 4000
    rw [e0, ht]; omega
  | ⟨1, _⟩ =>
    show win4_3.index t (1 : Fin 2) * 64 ≤ (i 1).val ∧ (i 1).val < win4_3.index t (1 : Fin 2) * 64 + 64
    rw [e1]; omega

/-- And of the second result likewise. -/
theorem total_cover (i : S200000x64.Idx) :
    ∃ t : Fin cfg4.N, (cfg4.win 4).flush t = true ∧ i ∈ ((cfg4.win 4).blk t).view.set := by
  have hr : (i 0).val < 200000 := (i 0).isLt
  have hc : (i 1).val < 64 := (i 1).isLt
  have hN : cfg4.N = 50 := N_4
  obtain ⟨t, ht⟩ : ∃ t : Fin cfg4.N, t.val = (i 0).val / 4000 := ⟨⟨(i 0).val / 4000, by rw [hN]; omega⟩, rfl⟩
  obtain ⟨-, -, -, -, -, -, -, -, e0, e1⟩ := block_index t
  refine ⟨t, flush4_4 t, ?_⟩
  show i ∈ ((View.whole main_v68_1).slice (win4_4.rect t)).set
  rw [View.set_slice_whole, Rect.mem_set_unit]
  intro a
  match a with
  | ⟨0, _⟩ =>
    show win4_4.index t (0 : Fin 2) * 4000 ≤ (i 0).val ∧ (i 0).val < win4_4.index t (0 : Fin 2) * 4000 + 4000
    rw [e0, ht]; omega
  | ⟨1, _⟩ =>
    show win4_4.index t (1 : Fin 2) * 64 ≤ (i 1).val ∧ (i 1).val < win4_4.index t (1 : Fin 2) * 64 + 64
    rw [e1]; omega

/-- After the call the first result array holds the sums' rows scaled by the reciprocal-count column. -/
theorem embed_array (c : Dev nD) :
    (dat4 V c).arrAt 3 cfg4.N = scaleRowsU (V c main_v67) (V c main_v10) :=
  (dat4 V c).arrAt_eq_of_cover 3 (scaleRowsU (V c main_v67) (V c main_v10)) (fun t _ => embed_flushed V c t) embed_cover

/-- After the call the second result array holds the running total plus a quarter of the layer's embeddings. -/
theorem total_array (c : Dev nD) :
    (dat4 V c).arrAt 4 cfg4.N = accumU (V c main_v38_1) (scaleRowsU (V c main_v67) (V c main_v10)) :=
  (dat4 V c).arrAt_eq_of_cover 4 (accumU (V c main_v38_1) (scaleRowsU (V c main_v67) (V c main_v10)))
    (fun t _ => total_flushed V c t) total_cover

end Cert.KernelIdeal.Hand.Call4

end
-- ==== Proof.Call5.lean ====
/-
  Call 5: one normalise-and-accumulate step on the artist side, read as whole arrays.

  The call walks the 50000 rows in 25 blocks of 2000. At a block it loads the block of summed messages, the block of
  the reciprocal-count column and the block of the running total; it stores the sums' rows scaled by the column (the
  layer's embeddings) into its first result and the total plus a quarter of those embeddings into its second. Block
  `t` of every window starts at row `2000·t`, so each result array ends as ONE function of the three arrays the
  call found: `scaleRowsA` of the sums and the column, and `accumA` of the total and that.
-/
import proofs.«149225_j36197984371493_1_alg».proof.Proof.Gen.KernelIdeal.Frame
import proofs.«149225_j36197984371493_1_alg».proof.Proof.MeanLaw
import Idealize.ShloMosaic.Lib.Pipeline.Value

set_option maxRecDepth 16384

noncomputable section

namespace Cert.KernelIdeal.Hand.Call5

open Cert.KernelIdeal Cert.KernelIdeal.Gen Cert.Hand.MeanLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! ## The body's two stored values at an entry of the block -/

/-- The first stored value at row `j 0`, column `j 1`: the sums' entry times the column's entry of that row. -/
theorem embed_at (x0 : FVec Ideal S2000x64 .f32) (x1 : FVec Ideal S2000x1 .f32) (j : S2000x64.Idx) :
    k5_pay1 x0 x1 j = x0 j * x1 (ix2 (n0 := 2000) (n1 := 1) (j 0) 0) := by
  unfold k5_pay1
  show shapeCast S2000x64 x0 shapeCasts_S2000x64_S2000x64 j
      * broadcastTo S2000x64 (shapeCast S2000x1 x1 shapeCasts_S2000x1_S2000x1) broadcasts_S2000x1_S2000x64 j = _
  rw [shapeCast_self, shapeCast_self,
    broadcastTo_apply x1 broadcasts_S2000x1_S2000x64 j (ix2 (n0 := 2000) (n1 := 1) (j 0) 0)
      (fun a => by match a with | ⟨0, _⟩ => rfl | ⟨1, _⟩ => rfl)]

/-- The second stored value: the total's entry plus a quarter of the first stored value's. -/
theorem total_at (x0 : FVec Ideal S2000x64 .f32) (x1 : FVec Ideal S2000x1 .f32) (x7 : FVec Ideal S2000x64 .f32) (j : S2000x64.Idx) :
    k5_pay2 x0 x1 x7 j = x7 j + k5_pay1 x0 x1 j * Ideal.ofBits .f32 0x3E800000#32 := by
  unfold k5_pay2
  show addf (shapeCast S2000x64 x7 shapeCasts_S2000x64_S2000x64)
      (mulf (k5_pay1 x0 x1) (broadcast S2000x64 (Scalar.ofBits (F := Ideal) .f32 0x3E800000#32))) j = _
  rw [shapeCast_self]
  rfl

/-! ## Where a block sits in its array -/

/-- The printed index maps over the grid: every window's block `t` is block row `t`, block column 0. -/
theorem block_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- The sums' block at point `t` read at `j` is the array's entry `2000·t` rows further down. -/
theorem sums_block (c : Dev nD) (t : Fin cfg5.N) (j : S2000x64.Idx) (i : S50000x64.Idx)
    (h0 : (i 0).val = t.val * 2000 + (j 0).val) (h1 : (i 1).val = (j 1).val) :
    (iblk5 V c 0 t : FVec Ideal S2000x64 .f32) j = (V c main_v82 : FVec Ideal S50000x64 .f32) i := by
  obtain ⟨e0, e1, -⟩ := block_index t
  unfold iblk5
  rw [View.read_apply]
  show V c main_v82 _ = V c main_v82 i
  refine congrArg (V c main_v82) (funext fun a => Fin.ext ?_)
  match a with
  | ⟨0, _⟩ => show win5_0.index t (0 : Fin 2) * 2000 + 1 * (j 0).val = (i 0).val; rw [e0, h0]; omega
  | ⟨1, _⟩ => show win5_0.index t (1 : Fin 2) * 64 + 1 * (j 1).val = (i 1).val; rw [e1, h1]; omega

/-- The column's block likewise. -/
theorem col_block (c : Dev nD) (t : Fin cfg5.N) (j : S2000x1.Idx) (i : S50000x1.Idx)
    (h0 : (i 0).val = t.val * 2000 + (j 0).val) (h1 : (i 1).val = (j 1).val) :
    (iblk5 V c 1 t : FVec Ideal S2000x1 .f32) j = (V c main_v21 : FVec Ideal S50000x1 .f32) i := by
  obtain ⟨-, -, e0, e1, -⟩ := block_index t
  unfold iblk5
  rw [View.read_apply]
  show V c main_v21 _ = V c main_v21 i
  refine congrArg (V c main_v21) (funext fun a => Fin.ext ?_)
  match a with
  | ⟨0, _⟩ => show win5_1.index t (0 : Fin 2) * 2000 + 1 * (j 0).val = (i 0).val; rw [e0, h0]; omega
  | ⟨1, _⟩ => show win5_1.index t (1 : Fin 2) * 1 + 1 * (j 1).val = (i 1).val; rw [e1, h1]; omega

/-- The running total's block likewise. -/
theorem total_block (c : Dev nD) (t : Fin cfg5.N) (j : S2000x64.Idx) (i : S50000x64.Idx)
    (h0 : (i 0).val = t.val * 2000 + (j 0).val) (h1 : (i 1).val = (j 1).val) :
    (iblk5 V c 2 t : FVec Ideal S2000x64 .f32) j = (V c main_v53_1 : FVec Ideal S50000x64 .f32) i := by
  obtain ⟨-, -, -, -, e0, e1, -⟩ := block_index t
  unfold iblk5
  rw [View.read_apply]
  show V c main_v53_1 _ = V c main_v53_1 i
  refine congrArg (V c main_v53_1) (funext fun a => Fin.ext ?_)
  match a with
  | ⟨0, _⟩ => show win5_2.index t (0 : Fin 2) * 2000 + 1 * (j 0).val = (i 0).val; rw [e0, h0]; omega
  | ⟨1, _⟩ => show win5_2.index t (1 : Fin 2) * 64 + 1 * (j 1).val = (i 1).val; rw [e1, h1]; omega

/-! ## What a point writes back, the cover, and the arrays after the call -/

/-- Entry `j` of the first result's block `t` is row `2000·t + j 0`, column `j 1` of its array. -/
theorem embed_entry (t : Fin cfg5.N) (j : S2000x64.Idx) (i : S50000x64.Idx) (hi : i = ((cfg5.win 3).blk t).view.emb j) :
    (i 0).val = t.val * 2000 + (j 0).val ∧ (i 1).val = (j 1).val := by
  obtain ⟨-, -, -, -, -, -, e0, e1, -⟩ := block_index t
  subst hi
  constructor
  · show win5_3.index t (0 : Fin 2) * 2000 + 1 * (j 0).val = _; rw [e0]; omega
  · show win5_3.index t (1 : Fin 2) * 64 + 1 * (j 1).val = _; rw [e1]; omega

/-- The same for the second result's block. -/
theorem total_entry (t : Fin cfg5.N) (j : S2000x64.Idx) (i : S50000x64.Idx) (hi : i = ((cfg5.win 4).blk t).view.emb j) :
    (i 0).val = t.val * 2000 + (j 0).val ∧ (i 1).val = (j 1).val := by
  obtain ⟨-, -, -, -, -, -, -, -, e0, e1⟩ := block_index t
  subst hi
  constructor
  · show win5_4.index t (0 : Fin 2) * 2000 + 1 * (j 0).val = _; rw [e0]; omega
  · show win5_4.index t (1 : Fin 2) * 64 + 1 * (j 1).val = _; rw [e1]; omega

/-- Point `t` writes back, as the first result's block, block `t` of the sums' rows scaled by the column. -/
theorem embed_flushed (c : Dev nD) (t : Fin cfg5.N) :
    (dat5 V c).flushed 3 t = ((cfg5.win 3).blk t).view.read (Elt Ideal) (scaleRowsA (V c main_v82) (V c main_v21)) := by
  show (cfg5.win 3).cut (grid5.coords t) ((dat5 V c).after 3 t) = _
  rw [after5_3]
  unfold out5_3
  rw [View.canon_unit_zero origin]
  simp only [View.ld_unit_zero (S := S2000x64) origin, View.ld_unit_zero (S := S2000x1) origin]
  funext j
  obtain ⟨i, hi⟩ : ∃ i : S50000x64.Idx, i = ((cfg5.win 3).blk t).view.emb j := ⟨_, rfl⟩
  obtain ⟨h0, h1⟩ := embed_entry t j i hi
  show k5_pay1 (iblk5 V c 0 t) (iblk5 V c 1 t) j
    = scaleRowsA (V c main_v82) (V c main_v21) (((cfg5.win 3).blk t).view.emb j)
  rw [← hi]
  refine (embed_at _ _ j).trans ?_
  unfold scaleRowsA
  rw [sums_block V c t j i h0 h1,
    col_block V c t (ix2 (n0 := 2000) (n1 := 1) (j 0) 0) (ix2 (n0 := 50000) (n1 := 1) (i 0) 0) h0 rfl]

/-- Point `t` writes back, as the second result's block, block `t` of the total plus a quarter of those rows. -/
theorem total_flushed (c : Dev nD) (t : Fin cfg5.N) :
    (dat5 V c).flushed 4 t = ((cfg5.win 4).blk t).view.read (Elt Ideal)
      (accumA (V c main_v53_1) (scaleRowsA (V c main_v82) (V c main_v21))) := by
  show (cfg5.win 4).cut (grid5.coords t) ((dat5 V c).after 4 t) = _
  rw [after5_4]
  unfold out5_4
  rw [View.canon_unit_zero origin]
  simp only [View.ld_unit_zero (S := S2000x64) origin, View.ld_unit_zero (S := S2000x1) origin]
  funext j
  obtain ⟨i, hi⟩ : ∃ i : S50000x64.Idx, i = ((cfg5.win 4).blk t).view.emb j := ⟨_, rfl⟩
  obtain ⟨h0, h1⟩ := total_entry t j i hi
  show k5_pay2 (iblk5 V c 0 t) (iblk5 V c 1 t) (iblk5 V c 2 t) j
    = accumA (V c main_v53_1) (scaleRowsA (V c main_v82) (V c main_v21)) (((cfg5.win 4).blk t).view.emb j)
  rw [← hi]
  refine (total_at _ _ _ j).trans ?_
  unfold accumA scaleRowsA
  rw [embed_at, sums_block V c t j i h0 h1,
    col_block V c t (ix2 (n0 := 2000) (n1 := 1) (j 0) 0) (ix2 (n0 := 50000) (n1 := 1) (i 0) 0) h0 rfl,
    total_block V c t j i h0 h1]

/-- Every entry of the first result lies in the block of the point `row / 2000`. -/
theorem embed_cover (i : S50000x64.Idx) :
    ∃ t : Fin cfg5.N, (cfg5.win 3).flush t = true ∧ i ∈ ((cfg5.win 3).blk t).view.set := by
  have hr : (i 0).val < 50000 := (i 0).isLt
  have hc : (i 1).val < 64 := (i 1).isLt
  have hN : cfg5.N = 25 := N_5
  obtain ⟨t, ht⟩ : ∃ t : Fin cfg5.N, t.val = (i 0).val / 2000 := ⟨⟨(i 0).val / 2000, by rw [hN]; omega⟩, rfl⟩
  obtain ⟨-, -, -, -, -, -, e0, e1, -⟩ := block_index t
  refine ⟨t, flush5_3 t, ?_⟩
  show i ∈ ((View.whole main_v83_0).slice (win5_3.rect t)).set
  rw [View.set_slice_whole, Rect.mem_set_unit]
  intro a
  match a with
  | ⟨0, _⟩ =>
    show win5_3.index t (0 : Fin 2) * 2000 ≤ (i 0).val ∧ (i 0).val < win5_3.index t (0 : Fin 2) * 2000 + 2000
    rw [e0, ht]; omega
  | ⟨1, _⟩ =>
    show win5_3.index t (1 : Fin 2) * 64 ≤ (i 1).val ∧ (i 1).val < win5_3.index t (1 : Fin 2) * 64 + 64
    rw [e1]; omega

/-- And of the second result likewise. -/
theorem total_cover (i : S50000x64.Idx) :
    ∃ t : Fin cfg5.N, (cfg5.win 4).flush t = true ∧ i ∈ ((cfg5.win 4).blk t).view.set := by
  have hr : (i 0).val < 50000 := (i 0).isLt
  have hc : (i 1).val < 64 := (i 1).isLt
  have hN : cfg5.N = 25 := N_5
  obtain ⟨t, ht⟩ : ∃ t : Fin cfg5.N, t.val = (i 0).val / 2000 := ⟨⟨(i 0).val / 2000, by rw [hN]; omega⟩, rfl⟩
  obtain ⟨-, -, -, -, -, -, -, -, e0, e1⟩ := block_index t
  refine ⟨t, flush5_4 t, ?_⟩
  show i ∈ ((View.whole main_v83_1).slice (win5_4.rect t)).set
  rw [View.set_slice_whole, Rect.mem_set_unit]
  intro a
  match a with
  | ⟨0, _⟩ =>
    show win5_4.index t (0 : Fin 2) * 2000 ≤ (i 0).val ∧ (i 0).val < win5_4.index t (0 : Fin 2) * 2000 + 2000
    rw [e0, ht]; omega
  | ⟨1, _⟩ =>
    show win5_4.index t (1 : Fin 2) * 64 ≤ (i 1).val ∧ (i 1).val < win5_4.index t (1 : Fin 2) * 64 + 64
    rw [e1]; omega

/-- After the call the first result array holds the sums' rows scaled by the reciprocal-count column. -/
theorem embed_array (c : Dev nD) :
    (dat5 V c).arrAt 3 cfg5.N = scaleRowsA (V c main_v82) (V c main_v21) :=
  (dat5 V c).arrAt_eq_of_cover 3 (scaleRowsA (V c main_v82) (V c main_v21)) (fun t _ => embed_flushed V c t) embed_cover

/-- After the call the second result array holds the running total plus a quarter of the layer's embeddings. -/
theorem total_array (c : Dev nD) :
    (dat5 V c).arrAt 4 cfg5.N = accumA (V c main_v53_1) (scaleRowsA (V c main_v82) (V c main_v21)) :=
  (dat5 V c).arrAt_eq_of_cover 4 (accumA (V c main_v53_1) (scaleRowsA (V c main_v82) (V c main_v21)))
    (fun t _ => total_flushed V c t) total_cover

end Cert.KernelIdeal.Hand.Call5

end
-- ==== Proof.Call6.lean ====
/-
  Call 6: one normalise-and-accumulate step on the user side, read as whole arrays.

  The call walks the 200000 rows in 50 blocks of 4000. At a block it loads the block of summed messages, the block of
  the reciprocal-count column and the block of the running total; it stores the sums' rows scaled by the column (the
  layer's embeddings) into its first result and the total plus a quarter of those embeddings into its second. Block
  `t` of every window starts at row `4000·t`, so each result array ends as ONE function of the three arrays the
  call found: `scaleRowsU` of the sums and the column, and `accumU` of the total and that.
-/
import proofs.«149225_j36197984371493_1_alg».proof.Proof.Gen.KernelIdeal.Frame
import proofs.«149225_j36197984371493_1_alg».proof.Proof.MeanLaw
import Idealize.ShloMosaic.Lib.Pipeline.Value

set_option maxRecDepth 16384

noncomputable section

namespace Cert.KernelIdeal.Hand.Call6

open Cert.KernelIdeal Cert.KernelIdeal.Gen Cert.Hand.MeanLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! ## The body's two stored values at an entry of the block -/

/-- The first stored value at row `j 0`, column `j 1`: the sums' entry times the column's entry of that row. -/
theorem embed_at (x0 : FVec Ideal S4000x64 .f32) (x1 : FVec Ideal S4000x1 .f32) (j : S4000x64.Idx) :
    k6_pay1 x0 x1 j = x0 j * x1 (ix2 (n0 := 4000) (n1 := 1) (j 0) 0) := by
  unfold k6_pay1
  show shapeCast S4000x64 x0 shapeCasts_S4000x64_S4000x64 j
      * broadcastTo S4000x64 (shapeCast S4000x1 x1 shapeCasts_S4000x1_S4000x1) broadcasts_S4000x1_S4000x64 j = _
  rw [shapeCast_self, shapeCast_self,
    broadcastTo_apply x1 broadcasts_S4000x1_S4000x64 j (ix2 (n0 := 4000) (n1 := 1) (j 0) 0)
      (fun a => by match a with | ⟨0, _⟩ => rfl | ⟨1, _⟩ => rfl)]

/-- The second stored value: the total's entry plus a quarter of the first stored value's. -/
theorem total_at (x0 : FVec Ideal S4000x64 .f32) (x1 : FVec Ideal S4000x1 .f32) (x7 : FVec Ideal S4000x64 .f32) (j : S4000x64.Idx) :
    k6_pay2 x0 x1 x7 j = x7 j + k6_pay1 x0 x1 j * Ideal.ofBits .f32 0x3E800000#32 := by
  unfold k6_pay2
  show addf (shapeCast S4000x64 x7 shapeCasts_S4000x64_S4000x64)
      (mulf (k6_pay1 x0 x1) (broadcast S4000x64 (Scalar.ofBits (F := Ideal) .f32 0x3E800000#32))) j = _
  rw [shapeCast_self]
  rfl

/-! ## Where a block sits in its array -/

/-- The printed index maps over the grid: every window's block `t` is block row `t`, block column 0. -/
theorem block_index : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The sums' block at point `t` read at `j` is the array's entry `4000·t` rows further down. -/
theorem sums_block (c : Dev nD) (t : Fin cfg6.N) (j : S4000x64.Idx) (i : S200000x64.Idx)
    (h0 : (i 0).val = t.val * 4000 + (j 0).val) (h1 : (i 1).val = (j 1).val) :
    (iblk6 V c 0 t : FVec Ideal S4000x64 .f32) j = (V c main_v97 : FVec Ideal S200000x64 .f32) i := by
  obtain ⟨e0, e1, -⟩ := block_index t
  unfold iblk6
  rw [View.read_apply]
  show V c main_v97 _ = V c main_v97 i
  refine congrArg (V c main_v97) (funext fun a => Fin.ext ?_)
  match a with
  | ⟨0, _⟩ => show win6_0.index t (0 : Fin 2) * 4000 + 1 * (j 0).val = (i 0).val; rw [e0, h0]; omega
  | ⟨1, _⟩ => show win6_0.index t (1 : Fin 2) * 64 + 1 * (j 1).val = (i 1).val; rw [e1, h1]; omega

/-- The column's block likewise. -/
theorem col_block (c : Dev nD) (t : Fin cfg6.N) (j : S4000x1.Idx) (i : S200000x1.Idx)
    (h0 : (i 0).val = t.val * 4000 + (j 0).val) (h1 : (i 1).val = (j 1).val) :
    (iblk6 V c 1 t : FVec Ideal S4000x1 .f32) j = (V c main_v10 : FVec Ideal S200000x1 .f32) i := by
  obtain ⟨-, -, e0, e1, -⟩ := block_index t
  unfold iblk6
  rw [View.read_apply]
  show V c main_v10 _ = V c main_v10 i
  refine congrArg (V c main_v10) (funext fun a => Fin.ext ?_)
  match a with
  | ⟨0, _⟩ => show win6_1.index t (0 : Fin 2) * 4000 + 1 * (j 0).val = (i 0).val; rw [e0, h0]; omega
  | ⟨1, _⟩ => show win6_1.index t (1 : Fin 2) * 1 + 1 * (j 1).val = (i 1).val; rw [e1, h1]; omega

/-- The running total's block likewise. -/
theorem total_block (c : Dev nD) (t : Fin cfg6.N) (j : S4000x64.Idx) (i : S200000x64.Idx)
    (h0 : (i 0).val = t.val * 4000 + (j 0).val) (h1 : (i 1).val = (j 1).val) :
    (iblk6 V c 2 t : FVec Ideal S4000x64 .f32) j = (V c main_v68_1 : FVec Ideal S200000x64 .f32) i := by
  obtain ⟨-, -, -, -, e0, e1, -⟩ := block_index t
  unfold iblk6
  rw [View.read_apply]
  show V c main_v68_1 _ = V c main_v68_1 i
  refine congrArg (V c main_v68_1) (funext fun a => Fin.ext ?_)
  match a with
  | ⟨0, _⟩ => show win6_2.index t (0 : Fin 2) * 4000 + 1 * (j 0).val = (i 0).val; rw [e0, h0]; omega
  | ⟨1, _⟩ => show win6_2.index t (1 : Fin 2) * 64 + 1 * (j 1).val = (i 1).val; rw [e1, h1]; omega

/-! ## What a point writes back, the cover, and the arrays after the call -/

/-- Entry `j` of the first result's block `t` is row `4000·t + j 0`, column `j 1` of its array. -/
theorem embed_entry (t : Fin cfg6.N) (j : S4000x64.Idx) (i : S200000x64.Idx) (hi : i = ((cfg6.win 3).blk t).view.emb j) :
    (i 0).val = t.val * 4000 + (j 0).val ∧ (i 1).val = (j 1).val := by
  obtain ⟨-, -, -, -, -, -, e0, e1, -⟩ := block_index t
  subst hi
  constructor
  · show win6_3.index t (0 : Fin 2) * 4000 + 1 * (j 0).val = _; rw [e0]; omega
  · show win6_3.index t (1 : Fin 2) * 64 + 1 * (j 1).val = _; rw [e1]; omega

/-- The same for the second result's block. -/
theorem total_entry (t : Fin cfg6.N) (j : S4000x64.Idx) (i : S200000x64.Idx) (hi : i = ((cfg6.win 4).blk t).view.emb j) :
    (i 0).val = t.val * 4000 + (j 0).val ∧ (i 1).val = (j 1).val := by
  obtain ⟨-, -, -, -, -, -, -, -, e0, e1⟩ := block_index t
  subst hi
  constructor
  · show win6_4.index t (0 : Fin 2) * 4000 + 1 * (j 0).val = _; rw [e0]; omega
  · show win6_4.index t (1 : Fin 2) * 64 + 1 * (j 1).val = _; rw [e1]; omega

/-- Point `t` writes back, as the first result's block, block `t` of the sums' rows scaled by the column. -/
theorem embed_flushed (c : Dev nD) (t : Fin cfg6.N) :
    (dat6 V c).flushed 3 t = ((cfg6.win 3).blk t).view.read (Elt Ideal) (scaleRowsU (V c main_v97) (V c main_v10)) := by
  show (cfg6.win 3).cut (grid6.coords t) ((dat6 V c).after 3 t) = _
  rw [after6_3]
  unfold out6_3
  rw [View.canon_unit_zero origin]
  simp only [View.ld_unit_zero (S := S4000x64) origin, View.ld_unit_zero (S := S4000x1) origin]
  funext j
  obtain ⟨i, hi⟩ : ∃ i : S200000x64.Idx, i = ((cfg6.win 3).blk t).view.emb j := ⟨_, rfl⟩
  obtain ⟨h0, h1⟩ := embed_entry t j i hi
  show k6_pay1 (iblk6 V c 0 t) (iblk6 V c 1 t) j
    = scaleRowsU (V c main_v97) (V c main_v10) (((cfg6.win 3).blk t).view.emb j)
  rw [← hi]
  refine (embed_at _ _ j).trans ?_
  unfold scaleRowsU
  rw [sums_block V c t j i h0 h1,
    col_block V c t (ix2 (n0 := 4000) (n1 := 1) (j 0) 0) (ix2 (n0 := 200000) (n1 := 1) (i 0) 0) h0 rfl]

/-- Point `t` writes back, as the second result's block, block `t` of the total plus a quarter of those rows. -/
theorem total_flushed (c : Dev nD) (t : Fin cfg6.N) :
    (dat6 V c).flushed 4 t = ((cfg6.win 4).blk t).view.read (Elt Ideal)
      (accumU (V c main_v68_1) (scaleRowsU (V c main_v97) (V c main_v10))) := by
  show (cfg6.win 4).cut (grid6.coords t) ((dat6 V c).after 4 t) = _
  rw [after6_4]
  unfold out6_4
  rw [View.canon_unit_zero origin]
  simp only [View.ld_unit_zero (S := S4000x64) origin, View.ld_unit_zero (S := S4000x1) origin]
  funext j
  obtain ⟨i, hi⟩ : ∃ i : S200000x64.Idx, i = ((cfg6.win 4).blk t).view.emb j := ⟨_, rfl⟩
  obtain ⟨h0, h1⟩ := total_entry t j i hi
  show k6_pay2 (iblk6 V c 0 t) (iblk6 V c 1 t) (iblk6 V c 2 t) j
    = accumU (V c main_v68_1) (scaleRowsU (V c main_v97) (V c main_v10)) (((cfg6.win 4).blk t).view.emb j)
  rw [← hi]
  refine (total_at _ _ _ j).trans ?_
  unfold accumU scaleRowsU
  rw [embed_at, sums_block V c t j i h0 h1,
    col_block V c t (ix2 (n0 := 4000) (n1 := 1) (j 0) 0) (ix2 (n0 := 200000) (n1 := 1) (i 0) 0) h0 rfl,
    total_block V c t j i h0 h1]

/-- Every entry of the first result lies in the block of the point `row / 4000`. -/
theorem embed_cover (i : S200000x64.Idx) :
    ∃ t : Fin cfg6.N, (cfg6.win 3).flush t = true ∧ i ∈ ((cfg6.win 3).blk t).view.set := by
  have hr : (i 0).val < 200000 := (i 0).isLt
  have hc : (i 1).val < 64 := (i 1).isLt
  have hN : cfg6.N = 50 := N_6
  obtain ⟨t, ht⟩ : ∃ t : Fin cfg6.N, t.val = (i 0).val / 4000 := ⟨⟨(i 0).val / 4000, by rw [hN]; omega⟩, rfl⟩
  obtain ⟨-, -, -, -, -, -, e0, e1, -⟩ := block_index t
  refine ⟨t, flush6_3 t, ?_⟩
  show i ∈ ((View.whole main_v98_0).slice (win6_3.rect t)).set
  rw [View.set_slice_whole, Rect.mem_set_unit]
  intro a
  match a with
  | ⟨0, _⟩ =>
    show win6_3.index t (0 : Fin 2) * 4000 ≤ (i 0).val ∧ (i 0).val < win6_3.index t (0 : Fin 2) * 4000 + 4000
    rw [e0, ht]; omega
  | ⟨1, _⟩ =>
    show win6_3.index t (1 : Fin 2) * 64 ≤ (i 1).val ∧ (i 1).val < win6_3.index t (1 : Fin 2) * 64 + 64
    rw [e1]; omega

/-- And of the second result likewise. -/
theorem total_cover (i : S200000x64.Idx) :
    ∃ t : Fin cfg6.N, (cfg6.win 4).flush t = true ∧ i ∈ ((cfg6.win 4).blk t).view.set := by
  have hr : (i 0).val < 200000 := (i 0).isLt
  have hc : (i 1).val < 64 := (i 1).isLt
  have hN : cfg6.N = 50 := N_6
  obtain ⟨t, ht⟩ : ∃ t : Fin cfg6.N, t.val = (i 0).val / 4000 := ⟨⟨(i 0).val / 4000, by rw [hN]; omega⟩, rfl⟩
  obtain ⟨-, -, -, -, -, -, -, -, e0, e1⟩ := block_index t
  refine ⟨t, flush6_4 t, ?_⟩
  show i ∈ ((View.whole main_v98_1).slice (win6_4.rect t)).set
  rw [View.set_slice_whole, Rect.mem_set_unit]
  intro a
  match a with
  | ⟨0, _⟩ =>
    show win6_4.index t (0 : Fin 2) * 4000 ≤ (i 0).val ∧ (i 0).val < win6_4.index t (0 : Fin 2) * 4000 + 4000
    rw [e0, ht]; omega
  | ⟨1, _⟩ =>
    show win6_4.index t (1 : Fin 2) * 64 ≤ (i 1).val ∧ (i 1).val < win6_4.index t (1 : Fin 2) * 64 + 64
    rw [e1]; omega

/-- After the call the first result array holds the sums' rows scaled by the reciprocal-count column. -/
theorem embed_array (c : Dev nD) :
    (dat6 V c).arrAt 3 cfg6.N = scaleRowsU (V c main_v97) (V c main_v10) :=
  (dat6 V c).arrAt_eq_of_cover 3 (scaleRowsU (V c main_v97) (V c main_v10)) (fun t _ => embed_flushed V c t) embed_cover

/-- After the call the second result array holds the running total plus a quarter of the layer's embeddings. -/
theorem total_array (c : Dev nD) :
    (dat6 V c).arrAt 4 cfg6.N = accumU (V c main_v68_1) (scaleRowsU (V c main_v97) (V c main_v10)) :=
  (dat6 V c).arrAt_eq_of_cover 4 (accumU (V c main_v68_1) (scaleRowsU (V c main_v97) (V c main_v10)))
    (fun t _ => total_flushed V c t) total_cover

end Cert.KernelIdeal.Hand.Call6

end
-- ==== Proof.Call7.lean ====
/-
  Call 7: one normalise-and-accumulate step on the artist side, read as whole arrays.

  The call walks the 50000 rows in 25 blocks of 2000. At a block it loads the block of summed messages, the block of
  the reciprocal-count column and the block of the running total; it stores the sums' rows scaled by the column (the
  layer's embeddings) into its first result and the total plus a quarter of those embeddings into its second. Block
  `t` of every window starts at row `2000·t`, so each result array ends as ONE function of the three arrays the
  call found: `scaleRowsA` of the sums and the column, and `accumA` of the total and that.
-/
import proofs.«149225_j36197984371493_1_alg».proof.Proof.Gen.KernelIdeal.Frame
import proofs.«149225_j36197984371493_1_alg».proof.Proof.MeanLaw
import Idealize.ShloMosaic.Lib.Pipeline.Value

set_option maxRecDepth 16384

noncomputable section

namespace Cert.KernelIdeal.Hand.Call7

open Cert.KernelIdeal Cert.KernelIdeal.Gen Cert.Hand.MeanLaw
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! ## The body's two stored values at an entry of the block -/

/-- The first stored value at row `j 0`, column `j 1`: the sums' entry times the column's entry of that row. -/
theorem embed_at (x0 : FVec Ideal S2000x64 .f32) (x1 : FVec Ideal S2000x1 .f32) (j : S2000x64.Idx) :
    k7_pay1 x0 x1 j = x0 j * x1 (ix2 (n0 := 2000) (n1 := 1) (j 0) 0) := by
  unfold k7_pay1
  show shapeCast S2000x64 x0 shapeCasts_S2000x64_S2000x64 j
      * broadcastTo S2000x64 (shapeCast S2000x1 x1 shapeCasts_S2000x1_S2000x1) broadcasts_S2000x1_S2000x64 j = _
  rw [shapeCast_self, shapeCast_self,
    broadcastTo_apply x1 broadcasts_S2000x1_S2000x64 j (ix2 (n0 := 2000) (n1 := 1) (j 0) 0)
      (fun a => by match a with | ⟨0, _⟩ => rfl | ⟨1, _⟩ => rfl)]

/-- The second stored value: the total's entry plus a quarter of the first stored value's. -/
theorem total_at (x0 : FVec Ideal S2000x64 .f32) (x1 : FVec Ideal S2000x1 .f32) (x7 : FVec Ideal S2000x64 .f32) (j : S2000x64.Idx) :
    k7_pay2 x0 x1 x7 j = x7 j + k7_pay1 x0 x1 j * Ideal.ofBits .f32 0x3E800000#32 := by
  unfold k7_pay2
  show addf (shapeCast S2000x64 x7 shapeCasts_S2000x64_S2000x64)
      (mulf (k7_pay1 x0 x1) (broadcast S2000x64 (Scalar.ofBits (F := Ideal) .f32 0x3E800000#32))) j = _
  rw [shapeCast_self]
  rfl

/-! ## Where a block sits in its array -/

/-- The printed index maps over the grid: every window's block `t` is block row `t`, block column 0. -/
theorem block_index : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- The sums' block at point `t` read at `j` is the array's entry `2000·t` rows further down. -/
theorem sums_block (c : Dev nD) (t : Fin cfg7.N) (j : S2000x64.Idx) (i : S50000x64.Idx)
    (h0 : (i 0).val = t.val * 2000 + (j 0).val) (h1 : (i 1).val = (j 1).val) :
    (iblk7 V c 0 t : FVec Ideal S2000x64 .f32) j = (V c main_v112 : FVec Ideal S50000x64 .f32) i := by
  obtain ⟨e0, e1, -⟩ := block_index t
  unfold iblk7
  rw [View.read_apply]
  show V c main_v112 _ = V c main_v112 i
  refine congrArg (V c main_v112) (funext fun a => Fin.ext ?_)
  match a with
  | ⟨0, _⟩ => show win7_0.index t (0 : Fin 2) * 2000 + 1 * (j 0).val = (i 0).val; rw [e0, h0]; omega
  | ⟨1, _⟩ => show win7_0.index t (1 : Fin 2) * 64 + 1 * (j 1).val = (i 1).val; rw [e1, h1]; omega

/-- The column's block likewise. -/
theorem col_block (c : Dev nD) (t : Fin cfg7.N) (j : S2000x1.Idx) (i : S50000x1.Idx)
    (h0 : (i 0).val = t.val * 2000 + (j 0).val) (h1 : (i 1).val = (j 1).val) :
    (iblk7 V c 1 t : FVec Ideal S2000x1 .f32) j = (V c main_v21 : FVec Ideal S50000x1 .f32) i := by
  obtain ⟨-, -, e0, e1, -⟩ := block_index t
  unfold iblk7
  rw [View.read_apply]
  show V c main_v21 _ = V c main_v21 i
  refine congrArg (V c main_v21) (funext fun a => Fin.ext ?_)
  match a with
  | ⟨0, _⟩ => show win7_1.index t (0 : Fin 2) * 2000 + 1 * (j 0).val = (i 0).val; rw [e0, h0]; omega
  | ⟨1, _⟩ => show win7_1.index t (1 : Fin 2) * 1 + 1 * (j 1).val = (i 1).val; rw [e1, h1]; omega

/-- The running total's block likewise. -/
theorem total_block (c : Dev nD) (t : Fin cfg7.N) (j : S2000x64.Idx) (i : S50000x64.Idx)
    (h0 : (i 0).val = t.val * 2000 + (j 0).val) (h1 : (i 1).val = (j 1).val) :
    (iblk7 V c 2 t : FVec Ideal S2000x64 .f32) j = (V c main_v83_1 : FVec Ideal S50000x64 .f32) i := by
  obtain ⟨-, -, -, -, e0, e1, -⟩ := block_index t
  unfold iblk7
  rw [View.read_apply]
  show V c main_v83_1 _ = V c main_v83_1 i
  refine congrArg (V c main_v83_1) (funext fun a => Fin.ext ?_)
  match a with
  | ⟨0, _⟩ => show win7_2.index t (0 : Fin 2) * 2000 + 1 * (j 0).val = (i 0).val; rw [e0, h0]; omega
  | ⟨1, _⟩ => show win7_2.index t (1 : Fin 2) * 64 + 1 * (j 1).val = (i 1).val; rw [e1, h1]; omega

/-! ## What a point writes back, the cover, and the arrays after the call -/

/-- Entry `j` of the first result's block `t` is row `2000·t + j 0`, column `j 1` of its array. -/
theorem embed_entry (t : Fin cfg7.N) (j : S2000x64.Idx) (i : S50000x64.Idx) (hi : i = ((cfg7.win 3).blk t).view.emb j) :
    (i 0).val = t.val * 2000 + (j 0).val ∧ (i 1).val = (j 1).val := by
  obtain ⟨-, -, -, -, -, -, e0, e1, -⟩ := block_index t
  subst hi
  constructor
  · show win7_3.index t (0 : Fin 2) * 2000 + 1 * (j 0).val = _; rw [e0]; omega
  · show win7_3.index t (1 : Fin 2) * 64 + 1 * (j 1).val = _; rw [e1]; omega

/-- The same for the second result's block. -/
theorem total_entry (t : Fin cfg7.N) (j : S2000x64.Idx) (i : S50000x64.Idx) (hi : i = ((cfg7.win 4).blk t).view.emb j) :
    (i 0).val = t.val * 2000 + (j 0).val ∧ (i 1).val = (j 1).val := by
  obtain ⟨-, -, -, -, -, -, -, -, e0, e1⟩ := block_index t
  subst hi
  constructor
  · show win7_4.index t (0 : Fin 2) * 2000 + 1 * (j 0).val = _; rw [e0]; omega
  · show win7_4.index t (1 : Fin 2) * 64 + 1 * (j 1).val = _; rw [e1]; omega

/-- Point `t` writes back, as the first result's block, block `t` of the sums' rows scaled by the column. -/
theorem embed_flushed (c : Dev nD) (t : Fin cfg7.N) :
    (dat7 V c).flushed 3 t = ((cfg7.win 3).blk t).view.read (Elt Ideal) (scaleRowsA (V c main_v112) (V c main_v21)) := by
  show (cfg7.win 3).cut (grid7.coords t) ((dat7 V c).after 3 t) = _
  rw [after7_3]
  unfold out7_3
  rw [View.canon_unit_zero origin]
  simp only [View.ld_unit_zero (S := S2000x64) origin, View.ld_unit_zero (S := S2000x1) origin]
  funext j
  obtain ⟨i, hi⟩ : ∃ i : S50000x64.Idx, i = ((cfg7.win 3).blk t).view.emb j := ⟨_, rfl⟩
  obtain ⟨h0, h1⟩ := embed_entry t j i hi
  show k7_pay1 (iblk7 V c 0 t) (iblk7 V c 1 t) j
    = scaleRowsA (V c main_v112) (V c main_v21) (((cfg7.win 3).blk t).view.emb j)
  rw [← hi]
  refine (embed_at _ _ j).trans ?_
  unfold scaleRowsA
  rw [sums_block V c t j i h0 h1,
    col_block V c t (ix2 (n0 := 2000) (n1 := 1) (j 0) 0) (ix2 (n0 := 50000) (n1 := 1) (i 0) 0) h0 rfl]

/-- Point `t` writes back, as the second result's block, block `t` of the total plus a quarter of those rows. -/
theorem total_flushed (c : Dev nD) (t : Fin cfg7.N) :
    (dat7 V c).flushed 4 t = ((cfg7.win 4).blk t).view.read (Elt Ideal)
      (accumA (V c main_v83_1) (scaleRowsA (V c main_v112) (V c main_v21))) := by
  show (cfg7.win 4).cut (grid7.coords t) ((dat7 V c).after 4 t) = _
  rw [after7_4]
  unfold out7_4
  rw [View.canon_unit_zero origin]
  simp only [View.ld_unit_zero (S := S2000x64) origin, View.ld_unit_zero (S := S2000x1) origin]
  funext j
  obtain ⟨i, hi⟩ : ∃ i : S50000x64.Idx, i = ((cfg7.win 4).blk t).view.emb j := ⟨_, rfl⟩
  obtain ⟨h0, h1⟩ := total_entry t j i hi
  show k7_pay2 (iblk7 V c 0 t) (iblk7 V c 1 t) (iblk7 V c 2 t) j
    = accumA (V c main_v83_1) (scaleRowsA (V c main_v112) (V c main_v21)) (((cfg7.win 4).blk t).view.emb j)
  rw [← hi]
  refine (total_at _ _ _ j).trans ?_
  unfold accumA scaleRowsA
  rw [embed_at, sums_block V c t j i h0 h1,
    col_block V c t (ix2 (n0 := 2000) (n1 := 1) (j 0) 0) (ix2 (n0 := 50000) (n1 := 1) (i 0) 0) h0 rfl,
    total_block V c t j i h0 h1]

/-- Every entry of the first result lies in the block of the point `row / 2000`. -/
theorem embed_cover (i : S50000x64.Idx) :
    ∃ t : Fin cfg7.N, (cfg7.win 3).flush t = true ∧ i ∈ ((cfg7.win 3).blk t).view.set := by
  have hr : (i 0).val < 50000 := (i 0).isLt
  have hc : (i 1).val < 64 := (i 1).isLt
  have hN : cfg7.N = 25 := N_7
  obtain ⟨t, ht⟩ : ∃ t : Fin cfg7.N, t.val = (i 0).val / 2000 := ⟨⟨(i 0).val / 2000, by rw [hN]; omega⟩, rfl⟩
  obtain ⟨-, -, -, -, -, -, e0, e1, -⟩ := block_index t
  refine ⟨t, flush7_3 t, ?_⟩
  show i ∈ ((View.whole main_v113_0).slice (win7_3.rect t)).set
  rw [View.set_slice_whole, Rect.mem_set_unit]
  intro a
  match a with
  | ⟨0, _⟩ =>
    show win7_3.index t (0 : Fin 2) * 2000 ≤ (i 0).val ∧ (i 0).val < win7_3.index t (0 : Fin 2) * 2000 + 2000
    rw [e0, ht]; omega
  | ⟨1, _⟩ =>
    show win7_3.index t (1 : Fin 2) * 64 ≤ (i 1).val ∧ (i 1).val < win7_3.index t (1 : Fin 2) * 64 + 64
    rw [e1]; omega

/-- And of the second result likewise. -/
theorem total_cover (i : S50000x64.Idx) :
    ∃ t : Fin cfg7.N, (cfg7.win 4).flush t = true ∧ i ∈ ((cfg7.win 4).blk t).view.set := by
  have hr : (i 0).val < 50000 := (i 0).isLt
  have hc : (i 1).val < 64 := (i 1).isLt
  have hN : cfg7.N = 25 := N_7
  obtain ⟨t, ht⟩ : ∃ t : Fin cfg7.N, t.val = (i 0).val / 2000 := ⟨⟨(i 0).val / 2000, by rw [hN]; omega⟩, rfl⟩
  obtain ⟨-, -, -, -, -, -, -, -, e0, e1⟩ := block_index t
  refine ⟨t, flush7_4 t, ?_⟩
  show i ∈ ((View.whole main_v113_1).slice (win7_4.rect t)).set
  rw [View.set_slice_whole, Rect.mem_set_unit]
  intro a
  match a with
  | ⟨0, _⟩ =>
    show win7_4.index t (0 : Fin 2) * 2000 ≤ (i 0).val ∧ (i 0).val < win7_4.index t (0 : Fin 2) * 2000 + 2000
    rw [e0, ht]; omega
  | ⟨1, _⟩ =>
    show win7_4.index t (1 : Fin 2) * 64 ≤ (i 1).val ∧ (i 1).val < win7_4.index t (1 : Fin 2) * 64 + 64
    rw [e1]; omega

/-- After the call the first result array holds the sums' rows scaled by the reciprocal-count column. -/
theorem embed_array (c : Dev nD) :
    (dat7 V c).arrAt 3 cfg7.N = scaleRowsA (V c main_v112) (V c main_v21) :=
  (dat7 V c).arrAt_eq_of_cover 3 (scaleRowsA (V c main_v112) (V c main_v21)) (fun t _ => embed_flushed V c t) embed_cover

/-- After the call the second result array holds the running total plus a quarter of the layer's embeddings. -/
theorem total_array (c : Dev nD) :
    (dat7 V c).arrAt 4 cfg7.N = accumA (V c main_v83_1) (scaleRowsA (V c main_v112) (V c main_v21)) :=
  (dat7 V c).arrAt_eq_of_cover 4 (accumA (V c main_v83_1) (scaleRowsA (V c main_v112) (V c main_v21)))
    (fun t _ => total_flushed V c t) total_cover

end Cert.KernelIdeal.Hand.Call7

end
-- ==== Proof.Layers.lean ====
/-
  The buffer contents at every segment boundary, read back to the four argument arrays.

  Write `xu`, `xa` for the users' and artists' embeddings and `e2`, `e3` for the two edge lists. The first stretch
  leaves the two reciprocal-count columns; the scaling calls leave a quarter of `xu` and of `xa`, the running totals.
  Then three layers: a round towards the users gives the sums, the call scales their rows by the users' column (the
  layer's user embeddings) and adds a quarter of them to the users' total; a round towards the artists from those user
  embeddings, and the same on the artist side. Each boundary fact below says what one live buffer holds at one
  boundary: kept through a stretch that does not write it, kept through a call that does not stage it or only reads it,
  or produced — by a stretch (its chain of the boundary's contents) or by a call (its closed form of the arrays it
  found). The last two facts are the result arrays.
-/
import proofs.«149225_j36197984371493_1_alg».proof.Proof.Gen.KernelIdeal.Frame
import proofs.«149225_j36197984371493_1_alg».proof.Proof.MeanLaw
import proofs.«149225_j36197984371493_1_alg».proof.Proof.Stretches
import proofs.«149225_j36197984371493_1_alg».proof.Proof.Call0
import proofs.«149225_j36197984371493_1_alg».proof.Proof.Call1
import proofs.«149225_j36197984371493_1_alg».proof.Proof.Call2
import proofs.«149225_j36197984371493_1_alg».proof.Proof.Call3
import proofs.«149225_j36197984371493_1_alg».proof.Proof.Call4
import proofs.«149225_j36197984371493_1_alg».proof.Proof.Call5
import proofs.«149225_j36197984371493_1_alg».proof.Proof.Call6
import proofs.«149225_j36197984371493_1_alg».proof.Proof.Call7

set_option maxRecDepth 16384

noncomputable section

namespace Cert.KernelIdeal.Hand

open Cert.KernelIdeal Cert.KernelIdeal.Gen Cert.Hand.MeanLaw
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The arguments and the layers -/

/-- The four argument arrays of core `c` as launched. -/
abbrev xu (c : Dev nD) : (⟨S200000x64, .f32⟩ : BufTy).Contents (Elt Ideal) := m ((c : Thread nD τ).loc main_arg0)
abbrev xa (c : Dev nD) : (⟨S50000x64, .f32⟩ : BufTy).Contents (Elt Ideal) := m ((c : Thread nD τ).loc main_arg1)
abbrev e2 (c : Dev nD) : (⟨S2x2000000, .i32⟩ : BufTy).Contents (Elt Ideal) := m ((c : Thread nD τ).loc main_arg2)
abbrev e3 (c : Dev nD) : (⟨S2x2000000, .i32⟩ : BufTy).Contents (Elt Ideal) := m ((c : Thread nD τ).loc main_arg3)

/-- The layers as functions of the argument arrays. Layer 1: the users' embeddings are the means of the artists' rows,
    the artists' the means of those; layers 2 and 3 start from the previous layer's artist embeddings. -/
abbrev layU1 (xa : (⟨S50000x64, .f32⟩ : BufTy).Contents (Elt Ideal)) (e2 : (⟨S2x2000000, .i32⟩ : BufTy).Contents (Elt Ideal)) :=
  scaleRowsU (sumToU xa e2) (recipColU e2)
abbrev layA1 (xa : (⟨S50000x64, .f32⟩ : BufTy).Contents (Elt Ideal)) (e2 e3 : (⟨S2x2000000, .i32⟩ : BufTy).Contents (Elt Ideal)) :=
  scaleRowsA (sumToA (layU1 xa e2) e3) (recipColA e3)
abbrev layU2 (xa : (⟨S50000x64, .f32⟩ : BufTy).Contents (Elt Ideal)) (e2 e3 : (⟨S2x2000000, .i32⟩ : BufTy).Contents (Elt Ideal)) :=
  scaleRowsU (sumToU (layA1 xa e2 e3) e2) (recipColU e2)
abbrev layA2 (xa : (⟨S50000x64, .f32⟩ : BufTy).Contents (Elt Ideal)) (e2 e3 : (⟨S2x2000000, .i32⟩ : BufTy).Contents (Elt Ideal)) :=
  scaleRowsA (sumToA (layU2 xa e2 e3) e3) (recipColA e3)
abbrev layU3 (xa : (⟨S50000x64, .f32⟩ : BufTy).Contents (Elt Ideal)) (e2 e3 : (⟨S2x2000000, .i32⟩ : BufTy).Contents (Elt Ideal)) :=
  scaleRowsU (sumToU (layA2 xa e2 e3) e2) (recipColU e2)
abbrev layA3 (xa : (⟨S50000x64, .f32⟩ : BufTy).Contents (Elt Ideal)) (e2 e3 : (⟨S2x2000000, .i32⟩ : BufTy).Contents (Elt Ideal)) :=
  scaleRowsA (sumToA (layU3 xa e2 e3) e3) (recipColA e3)

/-- The two results: a quarter of the input plus a quarter of each layer's embeddings, added in the layers' order. -/
abbrev totU (xu : (⟨S200000x64, .f32⟩ : BufTy).Contents (Elt Ideal)) (xa : (⟨S50000x64, .f32⟩ : BufTy).Contents (Elt Ideal))
    (e2 e3 : (⟨S2x2000000, .i32⟩ : BufTy).Contents (Elt Ideal)) :=
  accumU (accumU (accumU (quarterU xu) (layU1 xa e2)) (layU2 xa e2 e3)) (layU3 xa e2 e3)
abbrev totA (xa : (⟨S50000x64, .f32⟩ : BufTy).Contents (Elt Ideal)) (e2 e3 : (⟨S2x2000000, .i32⟩ : BufTy).Contents (Elt Ideal)) :=
  accumA (accumA (accumA (quarterA xa) (layA1 xa e2 e3)) (layA2 xa e2 e3)) (layA3 xa e2 e3)

/-- The same at core `c`'s launch contents, with the running totals after each layer named. -/
abbrev layerU1 (c : Dev nD) := layU1 (xa m c) (e2 m c)
abbrev totalU1 (c : Dev nD) := accumU (quarterU (xu m c)) (layerU1 m c)
abbrev layerA1 (c : Dev nD) := layA1 (xa m c) (e2 m c) (e3 m c)
abbrev totalA1 (c : Dev nD) := accumA (quarterA (xa m c)) (layerA1 m c)
abbrev layerU2 (c : Dev nD) := layU2 (xa m c) (e2 m c) (e3 m c)
abbrev totalU2 (c : Dev nD) := accumU (totalU1 m c) (layerU2 m c)
abbrev layerA2 (c : Dev nD) := layA2 (xa m c) (e2 m c) (e3 m c)
abbrev totalA2 (c : Dev nD) := accumA (totalA1 m c) (layerA2 m c)
abbrev layerU3 (c : Dev nD) := layU3 (xa m c) (e2 m c) (e3 m c)
abbrev totalU3 (c : Dev nD) := accumU (totalU2 m c) (layerU3 m c)
abbrev layerA3 (c : Dev nD) := layA3 (xa m c) (e2 m c) (e3 m c)
abbrev totalA3 (c : Dev nD) := accumA (totalA2 m c) (layerA3 m c)

/-! ## The boundaries, one live buffer at a time -/

/-! ### Boundary 1: after stretch 0 -/
theorem at1_arg0 (c : Dev nD) : W1 m ρ c (Proc.devRef .tc main_arg0) = xu m c :=
  keeps0 (W0 m ρ c) main_arg0 (by decide)
theorem at1_arg1 (c : Dev nD) : W1 m ρ c (Proc.devRef .tc main_arg1) = xa m c :=
  keeps0 (W0 m ρ c) main_arg1 (by decide)
theorem at1_arg2 (c : Dev nD) : W1 m ρ c (Proc.devRef .tc main_arg2) = e2 m c :=
  keeps0 (W0 m ρ c) main_arg2 (by decide)
theorem at1_arg3 (c : Dev nD) : W1 m ρ c (Proc.devRef .tc main_arg3) = e3 m c :=
  keeps0 (W0 m ρ c) main_arg3 (by decide)
theorem at1_v10 (c : Dev nD) : W1 m ρ c (Proc.devRef .tc main_v10) = recipColU (e2 m c) := by
  refine (stretch0_recipU (W0 m ρ c)).trans ?_
  rfl
theorem at1_v21 (c : Dev nD) : W1 m ρ c (Proc.devRef .tc main_v21) = recipColA (e3 m c) := by
  refine (stretch0_recipA (W0 m ρ c)).trans ?_
  rfl

/-! ### Boundary 2: after call 0 -/
theorem at2_arg1 (c : Dev nD) : W2 m ρ c (Proc.devRef .tc main_arg1) = xa m c :=
  (W2_of_ne m ρ c main_arg1 (by decide)).trans (at1_arg1 m ρ c)
theorem at2_arg2 (c : Dev nD) : W2 m ρ c (Proc.devRef .tc main_arg2) = e2 m c :=
  (W2_of_ne m ρ c main_arg2 (by decide)).trans (at1_arg2 m ρ c)
theorem at2_arg3 (c : Dev nD) : W2 m ρ c (Proc.devRef .tc main_arg3) = e3 m c :=
  (W2_of_ne m ρ c main_arg3 (by decide)).trans (at1_arg3 m ρ c)
theorem at2_v10 (c : Dev nD) : W2 m ρ c (Proc.devRef .tc main_v10) = recipColU (e2 m c) :=
  (W2_of_ne m ρ c main_v10 (by decide)).trans (at1_v10 m ρ c)
theorem at2_v21 (c : Dev nD) : W2 m ρ c (Proc.devRef .tc main_v21) = recipColA (e3 m c) :=
  (W2_of_ne m ρ c main_v21 (by decide)).trans (at1_v21 m ρ c)
theorem at2_v22 (c : Dev nD) : W2 m ρ c (Proc.devRef .tc main_v22) = quarterU (xu m c) := by
  refine (W2_arr m ρ c 1).trans ((Call0.quarter_array (V1 m ρ) c).trans ?_)
  show quarterU (W1 m ρ c (Proc.devRef .tc main_arg0)) = _
  rw [at1_arg0 m ρ c]

/-! ### Boundary 3: after call 1 -/
theorem at3_arg1 (c : Dev nD) : W3 m ρ c (Proc.devRef .tc main_arg1) = xa m c :=
  ((W3_arr m ρ c 0).trans (((dat1 (V2 m ρ) c).arrAt_in 0 rfl _).trans (A_eq1 (V2 m ρ) c 0))).trans (at2_arg1 m ρ c)
theorem at3_arg2 (c : Dev nD) : W3 m ρ c (Proc.devRef .tc main_arg2) = e2 m c :=
  (W3_of_ne m ρ c main_arg2 (by decide)).trans (at2_arg2 m ρ c)
theorem at3_arg3 (c : Dev nD) : W3 m ρ c (Proc.devRef .tc main_arg3) = e3 m c :=
  (W3_of_ne m ρ c main_arg3 (by decide)).trans (at2_arg3 m ρ c)
theorem at3_v10 (c : Dev nD) : W3 m ρ c (Proc.devRef .tc main_v10) = recipColU (e2 m c) :=
  (W3_of_ne m ρ c main_v10 (by decide)).trans (at2_v10 m ρ c)
theorem at3_v21 (c : Dev nD) : W3 m ρ c (Proc.devRef .tc main_v21) = recipColA (e3 m c) :=
  (W3_of_ne m ρ c main_v21 (by decide)).trans (at2_v21 m ρ c)
theorem at3_v22 (c : Dev nD) : W3 m ρ c (Proc.devRef .tc main_v22) = quarterU (xu m c) :=
  (W3_of_ne m ρ c main_v22 (by decide)).trans (at2_v22 m ρ c)
theorem at3_v23 (c : Dev nD) : W3 m ρ c (Proc.devRef .tc main_v23) = quarterA (xa m c) := by
  refine (W3_arr m ρ c 1).trans ((Call1.quarter_array (V2 m ρ) c).trans ?_)
  show quarterA (W2 m ρ c (Proc.devRef .tc main_arg1)) = _
  rw [at2_arg1 m ρ c]

/-! ### Boundary 4: after stretch 2 -/
theorem at4_arg2 (c : Dev nD) : W4 m ρ c (Proc.devRef .tc main_arg2) = e2 m c :=
  (keeps2 (W3 m ρ c) main_arg2 (by decide)).trans (at3_arg2 m ρ c)
theorem at4_arg3 (c : Dev nD) : W4 m ρ c (Proc.devRef .tc main_arg3) = e3 m c :=
  (keeps2 (W3 m ρ c) main_arg3 (by decide)).trans (at3_arg3 m ρ c)
theorem at4_v10 (c : Dev nD) : W4 m ρ c (Proc.devRef .tc main_v10) = recipColU (e2 m c) :=
  (keeps2 (W3 m ρ c) main_v10 (by decide)).trans (at3_v10 m ρ c)
theorem at4_v21 (c : Dev nD) : W4 m ρ c (Proc.devRef .tc main_v21) = recipColA (e3 m c) :=
  (keeps2 (W3 m ρ c) main_v21 (by decide)).trans (at3_v21 m ρ c)
theorem at4_v22 (c : Dev nD) : W4 m ρ c (Proc.devRef .tc main_v22) = quarterU (xu m c) :=
  (keeps2 (W3 m ρ c) main_v22 (by decide)).trans (at3_v22 m ρ c)
theorem at4_v23 (c : Dev nD) : W4 m ρ c (Proc.devRef .tc main_v23) = quarterA (xa m c) :=
  (keeps2 (W3 m ρ c) main_v23 (by decide)).trans (at3_v23 m ρ c)
theorem at4_v37 (c : Dev nD) : W4 m ρ c (Proc.devRef .tc main_v37) = sumToU (xa m c) (e2 m c) := by
  refine (stretch2_sums (W3 m ρ c)).trans ?_
  rw [at3_arg1 m ρ c, at3_arg2 m ρ c]

/-! ### Boundary 5: after call 2 -/
theorem at5_arg2 (c : Dev nD) : W5 m ρ c (Proc.devRef .tc main_arg2) = e2 m c :=
  (W5_of_ne m ρ c main_arg2 (by decide)).trans (at4_arg2 m ρ c)
theorem at5_arg3 (c : Dev nD) : W5 m ρ c (Proc.devRef .tc main_arg3) = e3 m c :=
  (W5_of_ne m ρ c main_arg3 (by decide)).trans (at4_arg3 m ρ c)
theorem at5_v10 (c : Dev nD) : W5 m ρ c (Proc.devRef .tc main_v10) = recipColU (e2 m c) :=
  ((W5_arr m ρ c 1).trans (((dat2 (V4 m ρ) c).arrAt_in 1 rfl _).trans (A_eq2 (V4 m ρ) c 1))).trans (at4_v10 m ρ c)
theorem at5_v21 (c : Dev nD) : W5 m ρ c (Proc.devRef .tc main_v21) = recipColA (e3 m c) :=
  (W5_of_ne m ρ c main_v21 (by decide)).trans (at4_v21 m ρ c)
theorem at5_v23 (c : Dev nD) : W5 m ρ c (Proc.devRef .tc main_v23) = quarterA (xa m c) :=
  (W5_of_ne m ρ c main_v23 (by decide)).trans (at4_v23 m ρ c)
theorem at5_v38_0 (c : Dev nD) : W5 m ρ c (Proc.devRef .tc main_v38_0) = layerU1 m c := by
  refine (W5_arr m ρ c 3).trans ((Call2.embed_array (V4 m ρ) c).trans ?_)
  show scaleRowsU (W4 m ρ c (Proc.devRef .tc main_v37)) (W4 m ρ c (Proc.devRef .tc main_v10)) = _
  rw [at4_v37 m ρ c, at4_v10 m ρ c]
theorem at5_v38_1 (c : Dev nD) : W5 m ρ c (Proc.devRef .tc main_v38_1) = totalU1 m c := by
  refine (W5_arr m ρ c 4).trans ((Call2.total_array (V4 m ρ) c).trans ?_)
  show accumU (W4 m ρ c (Proc.devRef .tc main_v22)) (scaleRowsU (W4 m ρ c (Proc.devRef .tc main_v37)) (W4 m ρ c (Proc.devRef .tc main_v10))) = _
  rw [at4_v22 m ρ c, at4_v37 m ρ c, at4_v10 m ρ c]

/-! ### Boundary 6: after stretch 3 -/
theorem at6_arg2 (c : Dev nD) : W6 m ρ c (Proc.devRef .tc main_arg2) = e2 m c :=
  (keeps3 (W5 m ρ c) main_arg2 (by decide)).trans (at5_arg2 m ρ c)
theorem at6_arg3 (c : Dev nD) : W6 m ρ c (Proc.devRef .tc main_arg3) = e3 m c :=
  (keeps3 (W5 m ρ c) main_arg3 (by decide)).trans (at5_arg3 m ρ c)
theorem at6_v10 (c : Dev nD) : W6 m ρ c (Proc.devRef .tc main_v10) = recipColU (e2 m c) :=
  (keeps3 (W5 m ρ c) main_v10 (by decide)).trans (at5_v10 m ρ c)
theorem at6_v21 (c : Dev nD) : W6 m ρ c (Proc.devRef .tc main_v21) = recipColA (e3 m c) :=
  (keeps3 (W5 m ρ c) main_v21 (by decide)).trans (at5_v21 m ρ c)
theorem at6_v23 (c : Dev nD) : W6 m ρ c (Proc.devRef .tc main_v23) = quarterA (xa m c) :=
  (keeps3 (W5 m ρ c) main_v23 (by decide)).trans (at5_v23 m ρ c)
theorem at6_v38_1 (c : Dev nD) : W6 m ρ c (Proc.devRef .tc main_v38_1) = totalU1 m c :=
  (keeps3 (W5 m ρ c) main_v38_1 (by decide)).trans (at5_v38_1 m ρ c)
theorem at6_v52 (c : Dev nD) : W6 m ρ c (Proc.devRef .tc main_v52) = sumToA (layerU1 m c) (e3 m c) := by
  refine (stretch3_sums (W5 m ρ c)).trans ?_
  rw [at5_v38_0 m ρ c, at5_arg3 m ρ c]

/-! ### Boundary 7: after call 3 -/
theorem at7_arg2 (c : Dev nD) : W7 m ρ c (Proc.devRef .tc main_arg2) = e2 m c :=
  (W7_of_ne m ρ c main_arg2 (by decide)).trans (at6_arg2 m ρ c)
theorem at7_arg3 (c : Dev nD) : W7 m ρ c (Proc.devRef .tc main_arg3) = e3 m c :=
  (W7_of_ne m ρ c main_arg3 (by decide)).trans (at6_arg3 m ρ c)
theorem at7_v10 (c : Dev nD) : W7 m ρ c (Proc.devRef .tc main_v10) = recipColU (e2 m c) :=
  (W7_of_ne m ρ c main_v10 (by decide)).trans (at6_v10 m ρ c)
theorem at7_v21 (c : Dev nD) : W7 m ρ c (Proc.devRef .tc main_v21) = recipColA (e3 m c) :=
  ((W7_arr m ρ c 1).trans (((dat3 (V6 m ρ) c).arrAt_in 1 rfl _).trans (A_eq3 (V6 m ρ) c 1))).trans (at6_v21 m ρ c)
theorem at7_v38_1 (c : Dev nD) : W7 m ρ c (Proc.devRef .tc main_v38_1) = totalU1 m c :=
  (W7_of_ne m ρ c main_v38_1 (by decide)).trans (at6_v38_1 m ρ c)
theorem at7_v53_0 (c : Dev nD) : W7 m ρ c (Proc.devRef .tc main_v53_0) = layerA1 m c := by
  refine (W7_arr m ρ c 3).trans ((Call3.embed_array (V6 m ρ) c).trans ?_)
  show scaleRowsA (W6 m ρ c (Proc.devRef .tc main_v52)) (W6 m ρ c (Proc.devRef .tc main_v21)) = _
  rw [at6_v52 m ρ c, at6_v21 m ρ c]
theorem at7_v53_1 (c : Dev nD) : W7 m ρ c (Proc.devRef .tc main_v53_1) = totalA1 m c := by
  refine (W7_arr m ρ c 4).trans ((Call3.total_array (V6 m ρ) c).trans ?_)
  show accumA (W6 m ρ c (Proc.devRef .tc main_v23)) (scaleRowsA (W6 m ρ c (Proc.devRef .tc main_v52)) (W6 m ρ c (Proc.devRef .tc main_v21))) = _
  rw [at6_v23 m ρ c, at6_v52 m ρ c, at6_v21 m ρ c]

/-! ### Boundary 8: after stretch 4 -/
theorem at8_arg2 (c : Dev nD) : W8 m ρ c (Proc.devRef .tc main_arg2) = e2 m c :=
  (keeps4 (W7 m ρ c) main_arg2 (by decide)).trans (at7_arg2 m ρ c)
theorem at8_arg3 (c : Dev nD) : W8 m ρ c (Proc.devRef .tc main_arg3) = e3 m c :=
  (keeps4 (W7 m ρ c) main_arg3 (by decide)).trans (at7_arg3 m ρ c)
theorem at8_v10 (c : Dev nD) : W8 m ρ c (Proc.devRef .tc main_v10) = recipColU (e2 m c) :=
  (keeps4 (W7 m ρ c) main_v10 (by decide)).trans (at7_v10 m ρ c)
theorem at8_v21 (c : Dev nD) : W8 m ρ c (Proc.devRef .tc main_v21) = recipColA (e3 m c) :=
  (keeps4 (W7 m ρ c) main_v21 (by decide)).trans (at7_v21 m ρ c)
theorem at8_v38_1 (c : Dev nD) : W8 m ρ c (Proc.devRef .tc main_v38_1) = totalU1 m c :=
  (keeps4 (W7 m ρ c) main_v38_1 (by decide)).trans (at7_v38_1 m ρ c)
theorem at8_v53_1 (c : Dev nD) : W8 m ρ c (Proc.devRef .tc main_v53_1) = totalA1 m c :=
  (keeps4 (W7 m ρ c) main_v53_1 (by decide)).trans (at7_v53_1 m ρ c)
theorem at8_v67 (c : Dev nD) : W8 m ρ c (Proc.devRef .tc main_v67) = sumToU (layerA1 m c) (e2 m c) := by
  refine (stretch4_sums (W7 m ρ c)).trans ?_
  rw [at7_v53_0 m ρ c, at7_arg2 m ρ c]

/-! ### Boundary 9: after call 4 -/
theorem at9_arg2 (c : Dev nD) : W9 m ρ c (Proc.devRef .tc main_arg2) = e2 m c :=
  (W9_of_ne m ρ c main_arg2 (by decide)).trans (at8_arg2 m ρ c)
theorem at9_arg3 (c : Dev nD) : W9 m ρ c (Proc.devRef .tc main_arg3) = e3 m c :=
  (W9_of_ne m ρ c main_arg3 (by decide)).trans (at8_arg3 m ρ c)
theorem at9_v10 (c : Dev nD) : W9 m ρ c (Proc.devRef .tc main_v10) = recipColU (e2 m c) :=
  ((W9_arr m ρ c 1).trans (((dat4 (V8 m ρ) c).arrAt_in 1 rfl _).trans (A_eq4 (V8 m ρ) c 1))).trans (at8_v10 m ρ c)
theorem at9_v21 (c : Dev nD) : W9 m ρ c (Proc.devRef .tc main_v21) = recipColA (e3 m c) :=
  (W9_of_ne m ρ c main_v21 (by decide)).trans (at8_v21 m ρ c)
theorem at9_v53_1 (c : Dev nD) : W9 m ρ c (Proc.devRef .tc main_v53_1) = totalA1 m c :=
  (W9_of_ne m ρ c main_v53_1 (by decide)).trans (at8_v53_1 m ρ c)
theorem at9_v68_0 (c : Dev nD) : W9 m ρ c (Proc.devRef .tc main_v68_0) = layerU2 m c := by
  refine (W9_arr m ρ c 3).trans ((Call4.embed_array (V8 m ρ) c).trans ?_)
  show scaleRowsU (W8 m ρ c (Proc.devRef .tc main_v67)) (W8 m ρ c (Proc.devRef .tc main_v10)) = _
  rw [at8_v67 m ρ c, at8_v10 m ρ c]
theorem at9_v68_1 (c : Dev nD) : W9 m ρ c (Proc.devRef .tc main_v68_1) = totalU2 m c := by
  refine (W9_arr m ρ c 4).trans ((Call4.total_array (V8 m ρ) c).trans ?_)
  show accumU (W8 m ρ c (Proc.devRef .tc main_v38_1)) (scaleRowsU (W8 m ρ c (Proc.devRef .tc main_v67)) (W8 m ρ c (Proc.devRef .tc main_v10))) = _
  rw [at8_v38_1 m ρ c, at8_v67 m ρ c, at8_v10 m ρ c]

/-! ### Boundary 10: after stretch 5 -/
theorem at10_arg2 (c : Dev nD) : W10 m ρ c (Proc.devRef .tc main_arg2) = e2 m c :=
  (keeps5 (W9 m ρ c) main_arg2 (by decide)).trans (at9_arg2 m ρ c)
theorem at10_arg3 (c : Dev nD) : W10 m ρ c (Proc.devRef .tc main_arg3) = e3 m c :=
  (keeps5 (W9 m ρ c) main_arg3 (by decide)).trans (at9_arg3 m ρ c)
theorem at10_v10 (c : Dev nD) : W10 m ρ c (Proc.devRef .tc main_v10) = recipColU (e2 m c) :=
  (keeps5 (W9 m ρ c) main_v10 (by decide)).trans (at9_v10 m ρ c)
theorem at10_v21 (c : Dev nD) : W10 m ρ c (Proc.devRef .tc main_v21) = recipColA (e3 m c) :=
  (keeps5 (W9 m ρ c) main_v21 (by decide)).trans (at9_v21 m ρ c)
theorem at10_v53_1 (c : Dev nD) : W10 m ρ c (Proc.devRef .tc main_v53_1) = totalA1 m c :=
  (keeps5 (W9 m ρ c) main_v53_1 (by decide)).trans (at9_v53_1 m ρ c)
theorem at10_v68_1 (c : Dev nD) : W10 m ρ c (Proc.devRef .tc main_v68_1) = totalU2 m c :=
  (keeps5 (W9 m ρ c) main_v68_1 (by decide)).trans (at9_v68_1 m ρ c)
theorem at10_v82 (c : Dev nD) : W10 m ρ c (Proc.devRef .tc main_v82) = sumToA (layerU2 m c) (e3 m c) := by
  refine (stretch5_sums (W9 m ρ c)).trans ?_
  rw [at9_v68_0 m ρ c, at9_arg3 m ρ c]

/-! ### Boundary 11: after call 5 -/
theorem at11_arg2 (c : Dev nD) : W11 m ρ c (Proc.devRef .tc main_arg2) = e2 m c :=
  (W11_of_ne m ρ c main_arg2 (by decide)).trans (at10_arg2 m ρ c)
theorem at11_arg3 (c : Dev nD) : W11 m ρ c (Proc.devRef .tc main_arg3) = e3 m c :=
  (W11_of_ne m ρ c main_arg3 (by decide)).trans (at10_arg3 m ρ c)
theorem at11_v10 (c : Dev nD) : W11 m ρ c (Proc.devRef .tc main_v10) = recipColU (e2 m c) :=
  (W11_of_ne m ρ c main_v10 (by decide)).trans (at10_v10 m ρ c)
theorem at11_v21 (c : Dev nD) : W11 m ρ c (Proc.devRef .tc main_v21) = recipColA (e3 m c) :=
  ((W11_arr m ρ c 1).trans (((dat5 (V10 m ρ) c).arrAt_in 1 rfl _).trans (A_eq5 (V10 m ρ) c 1))).trans (at10_v21 m ρ c)
theorem at11_v68_1 (c : Dev nD) : W11 m ρ c (Proc.devRef .tc main_v68_1) = totalU2 m c :=
  (W11_of_ne m ρ c main_v68_1 (by decide)).trans (at10_v68_1 m ρ c)
theorem at11_v83_0 (c : Dev nD) : W11 m ρ c (Proc.devRef .tc main_v83_0) = layerA2 m c := by
  refine (W11_arr m ρ c 3).trans ((Call5.embed_array (V10 m ρ) c).trans ?_)
  show scaleRowsA (W10 m ρ c (Proc.devRef .tc main_v82)) (W10 m ρ c (Proc.devRef .tc main_v21)) = _
  rw [at10_v82 m ρ c, at10_v21 m ρ c]
theorem at11_v83_1 (c : Dev nD) : W11 m ρ c (Proc.devRef .tc main_v83_1) = totalA2 m c := by
  refine (W11_arr m ρ c 4).trans ((Call5.total_array (V10 m ρ) c).trans ?_)
  show accumA (W10 m ρ c (Proc.devRef .tc main_v53_1)) (scaleRowsA (W10 m ρ c (Proc.devRef .tc main_v82)) (W10 m ρ c (Proc.devRef .tc main_v21))) = _
  rw [at10_v53_1 m ρ c, at10_v82 m ρ c, at10_v21 m ρ c]

/-! ### Boundary 12: after stretch 6 -/
theorem at12_arg3 (c : Dev nD) : W12 m ρ c (Proc.devRef .tc main_arg3) = e3 m c :=
  (keeps6 (W11 m ρ c) main_arg3 (by decide)).trans (at11_arg3 m ρ c)
theorem at12_v10 (c : Dev nD) : W12 m ρ c (Proc.devRef .tc main_v10) = recipColU (e2 m c) :=
  (keeps6 (W11 m ρ c) main_v10 (by decide)).trans (at11_v10 m ρ c)
theorem at12_v21 (c : Dev nD) : W12 m ρ c (Proc.devRef .tc main_v21) = recipColA (e3 m c) :=
  (keeps6 (W11 m ρ c) main_v21 (by decide)).trans (at11_v21 m ρ c)
theorem at12_v68_1 (c : Dev nD) : W12 m ρ c (Proc.devRef .tc main_v68_1) = totalU2 m c :=
  (keeps6 (W11 m ρ c) main_v68_1 (by decide)).trans (at11_v68_1 m ρ c)
theorem at12_v83_1 (c : Dev nD) : W12 m ρ c (Proc.devRef .tc main_v83_1) = totalA2 m c :=
  (keeps6 (W11 m ρ c) main_v83_1 (by decide)).trans (at11_v83_1 m ρ c)
theorem at12_v97 (c : Dev nD) : W12 m ρ c (Proc.devRef .tc main_v97) = sumToU (layerA2 m c) (e2 m c) := by
  refine (stretch6_sums (W11 m ρ c)).trans ?_
  rw [at11_v83_0 m ρ c, at11_arg2 m ρ c]

/-! ### Boundary 13: after call 6 -/
theorem at13_arg3 (c : Dev nD) : W13 m ρ c (Proc.devRef .tc main_arg3) = e3 m c :=
  (W13_of_ne m ρ c main_arg3 (by decide)).trans (at12_arg3 m ρ c)
theorem at13_v21 (c : Dev nD) : W13 m ρ c (Proc.devRef .tc main_v21) = recipColA (e3 m c) :=
  (W13_of_ne m ρ c main_v21 (by decide)).trans (at12_v21 m ρ c)
theorem at13_v83_1 (c : Dev nD) : W13 m ρ c (Proc.devRef .tc main_v83_1) = totalA2 m c :=
  (W13_of_ne m ρ c main_v83_1 (by decide)).trans (at12_v83_1 m ρ c)
theorem at13_v98_0 (c : Dev nD) : W13 m ρ c (Proc.devRef .tc main_v98_0) = layerU3 m c := by
  refine (W13_arr m ρ c 3).trans ((Call6.embed_array (V12 m ρ) c).trans ?_)
  show scaleRowsU (W12 m ρ c (Proc.devRef .tc main_v97)) (W12 m ρ c (Proc.devRef .tc main_v10)) = _
  rw [at12_v97 m ρ c, at12_v10 m ρ c]
theorem at13_v98_1 (c : Dev nD) : W13 m ρ c (Proc.devRef .tc main_v98_1) = totalU3 m c := by
  refine (W13_arr m ρ c 4).trans ((Call6.total_array (V12 m ρ) c).trans ?_)
  show accumU (W12 m ρ c (Proc.devRef .tc main_v68_1)) (scaleRowsU (W12 m ρ c (Proc.devRef .tc main_v97)) (W12 m ρ c (Proc.devRef .tc main_v10))) = _
  rw [at12_v68_1 m ρ c, at12_v97 m ρ c, at12_v10 m ρ c]

/-! ### Boundary 14: after stretch 7 -/
theorem at14_v21 (c : Dev nD) : W14 m ρ c (Proc.devRef .tc main_v21) = recipColA (e3 m c) :=
  (keeps7 (W13 m ρ c) main_v21 (by decide)).trans (at13_v21 m ρ c)
theorem at14_v83_1 (c : Dev nD) : W14 m ρ c (Proc.devRef .tc main_v83_1) = totalA2 m c :=
  (keeps7 (W13 m ρ c) main_v83_1 (by decide)).trans (at13_v83_1 m ρ c)
theorem at14_v98_1 (c : Dev nD) : W14 m ρ c (Proc.devRef .tc main_v98_1) = totalU3 m c :=
  (keeps7 (W13 m ρ c) main_v98_1 (by decide)).trans (at13_v98_1 m ρ c)
theorem at14_v112 (c : Dev nD) : W14 m ρ c (Proc.devRef .tc main_v112) = sumToA (layerU3 m c) (e3 m c) := by
  refine (stretch7_sums (W13 m ρ c)).trans ?_
  rw [at13_v98_0 m ρ c, at13_arg3 m ρ c]

/-! ### Boundary 15: after call 7 -/
theorem at15_v98_1 (c : Dev nD) : W15 m ρ c (Proc.devRef .tc main_v98_1) = totalU3 m c :=
  (W15_of_ne m ρ c main_v98_1 (by decide)).trans (at14_v98_1 m ρ c)
theorem at15_v113_1 (c : Dev nD) : W15 m ρ c (Proc.devRef .tc main_v113_1) = totalA3 m c := by
  refine (W15_arr m ρ c 4).trans ((Call7.total_array (V14 m ρ) c).trans ?_)
  show accumA (W14 m ρ c (Proc.devRef .tc main_v83_1)) (scaleRowsA (W14 m ρ c (Proc.devRef .tc main_v112)) (W14 m ρ c (Proc.devRef .tc main_v21))) = _
  rw [at14_v83_1 m ρ c, at14_v112 m ρ c, at14_v21 m ρ c]

end Cert.KernelIdeal.Hand

end
-- ==== Proof.Bridge.lean ====
/-
  The reference's run and the kernel's layers are one function of the arguments.

  The reference's generated run names each layer's embeddings: the sums of a round of message passing divided by the
  counts clamped below at one, the counts spread over the 64 columns. A round is the same gather and scatter-add in both
  programs, so it is carried as one function applied to equal arguments; the division by the clamped counts is the
  scaling by the reciprocal column (the mean law); and the running total — a quarter of the input plus a quarter of each
  layer, added in the same order — is the same sum on both sides. So layer by layer the reference's embeddings are the
  kernel's, and the two result arrays are the kernel's two totals after layer three.
-/
import proofs.«149225_j36197984371493_1_alg».proof.Proof.Layers
import proofs.«149225_j36197984371493_1_alg».proof.Proof.Gen.ReferenceIdeal.Run

set_option maxRecDepth 16384

noncomputable section

namespace Cert.Hand.Bridge

open Idealize.ShloMosaic Idealize.ShloMosaic.TcCoe Idealize.SL.Sem Idealize.ShloMosaic.StableHlo Idealize.ShloMosaic.ValueIdx
open Cert.Hand.MeanLaw Cert.KernelIdeal.Hand

/-! ## The mean law at the two programs' own spellings -/

theorem onesU_one (k : (⟨1, ![200000]⟩ : Shape).Idx) : (onesU (F := Ideal) : FVec Ideal (⟨1, ![200000]⟩ : Shape) .f32) k = 1 := by
  unfold onesU
  rw [broadcastInDim_scalar_apply]
  exact Ideal.ofBits_one_f32
theorem onesA_one (k : (⟨1, ![50000]⟩ : Shape).Idx) : (onesA (F := Ideal) : FVec Ideal (⟨1, ![50000]⟩ : Shape) .f32) k = 1 := by
  unfold onesA
  rw [broadcastInDim_scalar_apply]
  exact Ideal.ofBits_one_f32

/-- Sums divided by the users' clamped counts spread over the columns are the sums' rows scaled by the users'
    reciprocal column. -/
theorem meanU (s : (⟨Cert.KernelIdeal.S200000x64, .f32⟩ : BufTy).Contents (Elt Ideal))
    (e : (⟨Cert.KernelIdeal.S2x2000000, .i32⟩ : BufTy).Contents (Elt Ideal)) :
    Host.divf s (broadcastInDim Cert.ReferenceIdeal.S200000x64 ![0, 1] Cert.ReferenceIdeal.Gen.bcast_S200000x1_S200000x64_0_1
        (broadcastInDim Cert.ReferenceIdeal.S200000x1 ![0] Cert.ReferenceIdeal.Gen.bcast_S200000_S200000x1_0
          (maximumf (countU e) (onesU (F := Ideal)))))
      = scaleRowsU s (recipColU e) :=
  mean_formsU s (countU e) (onesU (F := Ideal)) onesU_one Cert.ReferenceIdeal.Gen.bcast_S200000_S200000x1_0
    Cert.ReferenceIdeal.Gen.bcast_S200000x1_S200000x64_0_1 Cert.KernelIdeal.Gen.shapeCasts_S200000_S200000x1

/-- The same on the artist side. -/
theorem meanA (s : (⟨Cert.KernelIdeal.S50000x64, .f32⟩ : BufTy).Contents (Elt Ideal))
    (e : (⟨Cert.KernelIdeal.S2x2000000, .i32⟩ : BufTy).Contents (Elt Ideal)) :
    Host.divf s (broadcastInDim Cert.ReferenceIdeal.S50000x64 ![0, 1] Cert.ReferenceIdeal.Gen.bcast_S50000x1_S50000x64_0_1
        (broadcastInDim Cert.ReferenceIdeal.S50000x1 ![0] Cert.ReferenceIdeal.Gen.bcast_S50000_S50000x1_0
          (maximumf (countA e) (onesA (F := Ideal)))))
      = scaleRowsA s (recipColA e) :=
  mean_formsA s (countA e) (onesA (F := Ideal)) onesA_one Cert.ReferenceIdeal.Gen.bcast_S50000_S50000x1_0
    Cert.ReferenceIdeal.Gen.bcast_S50000x1_S50000x64_0_1 Cert.KernelIdeal.Gen.shapeCasts_S50000_S50000x1

/-! ## The reference's layers -/

section Layers

open Cert.ReferenceIdeal Cert.ReferenceIdeal.Value

variable (V0 : Valuation Cert.ReferenceIdeal.τ Cert.ReferenceIdeal.sig (Elt Ideal))

/-- The reference's argument arrays, at the kernel's types. -/
abbrev a0 : (⟨Cert.KernelIdeal.S200000x64, .f32⟩ : BufTy).Contents (Elt Ideal) := V0 (Proc.devRef .tc Cert.ReferenceIdeal.main_arg0)
abbrev a1 : (⟨Cert.KernelIdeal.S50000x64, .f32⟩ : BufTy).Contents (Elt Ideal) := V0 (Proc.devRef .tc Cert.ReferenceIdeal.main_arg1)
abbrev a2 : (⟨Cert.KernelIdeal.S2x2000000, .i32⟩ : BufTy).Contents (Elt Ideal) := V0 (Proc.devRef .tc Cert.ReferenceIdeal.main_arg2)
abbrev a3 : (⟨Cert.KernelIdeal.S2x2000000, .i32⟩ : BufTy).Contents (Elt Ideal) := V0 (Proc.devRef .tc Cert.ReferenceIdeal.main_arg3)

/-- The layers as the kernel's program takes them, of the reference's arguments. -/
abbrev lU1 := layU1 (a1 V0) (a2 V0)
abbrev lA1 := layA1 (a1 V0) (a2 V0) (a3 V0)
abbrev lU2 := layU2 (a1 V0) (a2 V0) (a3 V0)
abbrev lA2 := layA2 (a1 V0) (a2 V0) (a3 V0)
abbrev lU3 := layU3 (a1 V0) (a2 V0) (a3 V0)
abbrev lA3 := layA3 (a1 V0) (a2 V0) (a3 V0)

/-- Layer 1's user embeddings: the reference's quotient is the mean law's left side at the round towards the users. -/
theorem ref_U1 : res_main_v28 V0 = lU1 V0 := meanU (sumToU (a1 V0) (a2 V0)) (a2 V0)
theorem ref_A1 : res_main_v53 V0 = lA1 V0 :=
  (meanA (sumToA (res_main_v28 V0) (a3 V0)) (a3 V0)).trans (by rw [ref_U1])
theorem ref_U2 : res_main_v84 V0 = lU2 V0 :=
  (meanU (sumToU (res_main_v53 V0) (a2 V0)) (a2 V0)).trans (by rw [ref_A1])
theorem ref_A2 : res_main_v109 V0 = lA2 V0 :=
  (meanA (sumToA (res_main_v84 V0) (a3 V0)) (a3 V0)).trans (by rw [ref_U2])
theorem ref_U3 : res_main_v140 V0 = lU3 V0 :=
  (meanU (sumToU (res_main_v109 V0) (a2 V0)) (a2 V0)).trans (by rw [ref_A2])

/-- The users' result: a quarter of the input and of each layer, added in order. -/
theorem users_total : val4 V0 (Proc.devRef .tc Cert.ReferenceIdeal.main_v168)
    = totU (a0 V0) (a1 V0) (a2 V0) (a3 V0) := by
  show _ = accumU (accumU (accumU (quarterU (a0 V0)) (lU1 V0)) (lU2 V0)) (lU3 V0)
  rw [val4_main_v168, ref_U1, ref_U2, ref_U3,
    accumU_eq _ _ Cert.ReferenceIdeal.Gen.bcast_S_S200000x64, accumU_eq _ _ Cert.ReferenceIdeal.Gen.bcast_S_S200000x64,
    accumU_eq _ _ Cert.ReferenceIdeal.Gen.bcast_S_S200000x64, quarterU_eq _ Cert.ReferenceIdeal.Gen.bcast_S_S200000x64]

/-- The artists' result likewise; its third layer is spelt in place in the reference's term. -/
theorem artists_total : val4 V0 (Proc.devRef .tc Cert.ReferenceIdeal.main_v171)
    = totA (a1 V0) (a2 V0) (a3 V0) := by
  show _ = accumA (accumA (accumA (quarterA (a1 V0)) (lA1 V0)) (lA2 V0)) (lA3 V0)
  rw [val4_main_v171, ref_A1, ref_A2,
    accumA_eq _ _ Cert.ReferenceIdeal.Gen.bcast_S_S50000x64, accumA_eq _ _ Cert.ReferenceIdeal.Gen.bcast_S_S50000x64,
    accumA_eq _ _ Cert.ReferenceIdeal.Gen.bcast_S_S50000x64, quarterA_eq _ Cert.ReferenceIdeal.Gen.bcast_S_S50000x64]
  exact congrArg₂ addf rfl (congrArg₂ mulf ((meanA (sumToA (res_main_v140 V0) (a3 V0)) (a3 V0)).trans (by rw [ref_U3])) rfl)

end Layers

end Cert.Hand.Bridge

end
-- ==== Proof.lean ====
/-
  Three layers of scatter-mean message passing on a bipartite graph of 200000 users and 50000 artists with two million
  edges in each direction, the running total `x/4 + Σ layer/4` returned per side: the kernel's program against its
  jnp reference, equal on the extended reals.

  Per layer and direction the reference takes `sums / max(counts, 1)` with the counts spread over the 64 columns. The
  kernel's program computes the column `1 / max(counts, 1)` once per direction, takes the sums by the same gather and
  scatter-add, and in a call tiled over blocks of rows multiplies each row of the sums by its entry of that column and
  adds a quarter of the result to the running total. The one law between them: a clamped count is at least one, hence
  not zero, and on the extended reals dividing by a divisor that is not zero is multiplying by its reciprocal
  (Proof/MeanLaw.lean). Everything else is the same operations in the same order: the rounds of message passing are
  carried as one function of equal arguments, and a quarter of the input and of each layer is added in the layers' order
  on both sides. The precondition (finite inputs) is never opened: the law holds at the infinities too.

  The modules: Proof/RunLast.lean (the idealized kernel's run with the result buffers kept), Proof/Call0.lean …
  Proof/Call7.lean (each call's result arrays as one function of the arrays it found), Proof/Stretches.lean (the host
  operations between the calls), Proof/Layers.lean (every segment boundary read back to the arguments),
  Proof/Bridge.lean (the reference's layers are the kernel's). The ideal pass rewrote nothing, so the kernel's
  idealization is its own text read over the extended reals and that claim is trivial.
-/
import proofs.«149225_j36197984371493_1_alg».proof.Defs
import proofs.«149225_j36197984371493_1_alg».proof.Proof.Gen.Kernel
import proofs.«149225_j36197984371493_1_alg».proof.Proof.Gen.Kernel.Frame
import proofs.«149225_j36197984371493_1_alg».proof.Proof.Gen.KernelIdeal
import proofs.«149225_j36197984371493_1_alg».proof.Proof.Gen.KernelIdeal.Frame
import proofs.«149225_j36197984371493_1_alg».proof.Proof.Gen.ReferenceIdeal
import proofs.«149225_j36197984371493_1_alg».proof.Proof.Gen.ReferenceIdeal.Run
import proofs.«149225_j36197984371493_1_alg».proof.Proof.Gen.Pre_finite_inputs
import proofs.«149225_j36197984371493_1_alg».proof.Proof.RunLast
import proofs.«149225_j36197984371493_1_alg».proof.Proof.Layers
import proofs.«149225_j36197984371493_1_alg».proof.Proof.Bridge
import Idealize.ShloMosaic.Adequacy
import Idealize.ShloMosaic.Init

noncomputable section

namespace Cert.Proof

open Idealize.ShloMosaic Idealize.SL.Sem
open Cert.Hand.MeanLaw Cert.KernelIdeal.Hand

/-! ## The frames -/

theorem frame_kernel : Cert.frame_Kernel := fun m ρ _ => Cert.Kernel.Gen.frame m ρ
theorem frame_ideal : Cert.frame_KernelIdeal := fun m ρ _ => Cert.KernelIdeal.Gen.frame m ρ
/-- The reference has no kernel: its frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-! ## The values -/

/-- The idealized kernel's run: the two result buffers end at the two totals after layer three, as functions of the
    argument arrays as launched; the arguments end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v98_1) = totU (xu m c) (xa m c) (e2 m c) (e3 m c)
        ∧ r.2.mem ((c.tc : Thread Cert.KernelIdeal.nD Cert.KernelIdeal.τ).loc Cert.KernelIdeal.main_v113_1) = totA (xa m c) (e2 m c) (e3 m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun _ h c => ⟨(h c).1.trans (at15_v98_1 m ρ c), (h c).2.1.trans (at15_v113_1 m ρ c), (h c).2.2⟩)
    (run_last m ρ)

/-- From memories agreeing on the arguments both idealized programs end with the same two arrays: the kernel's totals
    of its arguments are the reference's totals of its own, and the arguments agree. -/
theorem algebraic : Cert.algebraic_KernelIdeal_ReferenceIdeal := by
  intro m ρ m' ρ' _ hagree
  refine ⟨fun c => totU (xu m c) (xa m c) (e2 m c) (e3 m c), fun c => totA (xa m c) (e2 m c) (e3 m c), kernel_run m ρ, ?_⟩
  refine (θ_run Cert.ReferenceIdeal.defs _ _).mono (fun _ h c => ?_) (Cert.ReferenceIdeal.Value.run (F := Ideal) m' ρ')
  obtain ⟨h0, h1, h2, h3⟩ := hagree c
  have g0 : Cert.Hand.Bridge.a0 (StableHlo.launchContents m' c) = xu m c := h0
  have g1 : Cert.Hand.Bridge.a1 (StableHlo.launchContents m' c) = xa m c := h1
  have g2 : Cert.Hand.Bridge.a2 (StableHlo.launchContents m' c) = e2 m c := h2
  have g3 : Cert.Hand.Bridge.a3 (StableHlo.launchContents m' c) = e3 m c := h3
  refine ⟨(h c).1.trans ?_, (h c).2.1.trans ?_, (h c).2.2⟩
  · refine ((Cert.ReferenceIdeal.Value.val4_main_v168 (StableHlo.launchContents m' c)).symm.trans
      (Cert.Hand.Bridge.users_total (StableHlo.launchContents m' c))).trans ?_
    rw [g0, g1, g2, g3]
  · refine ((Cert.ReferenceIdeal.Value.val4_main_v171 (StableHlo.launchContents m' c)).symm.trans
      (Cert.Hand.Bridge.artists_total (StableHlo.launchContents m' c))).trans ?_
    rw [g1, g2, g3]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
